-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S25000x32 : Shape := ⟨2, ![25000, 32]⟩
abbrev S2x400000 : Shape := ⟨2, ![2, 400000]⟩
abbrev S400000x32 : Shape := ⟨2, ![400000, 32]⟩
abbrev S64x320 : Shape := ⟨2, ![64, 320]⟩
abbrev S1x10x64 : Shape := ⟨3, ![1, 10, 64]⟩
abbrev S32 : Shape := ⟨1, ![32]⟩
abbrev S10 : Shape := ⟨1, ![10]⟩
abbrev S_ : Shape := ⟨0, ![]⟩

class Facts : Prop where
  bcast_S_S25000x32 : S_.BroadcastsInDim S25000x32 (![] : Fin 0 → Fin S25000x32.rank)
  reducesTo_S25000x32_S_d0_1 : S25000x32.ReducesTo [0, 1] S_
  h_S_ : 0 < S_.numel
  bcast_S_S400000x32 : S_.BroadcastsInDim S400000x32 (![] : Fin 0 → Fin S400000x32.rank)
  reducesTo_S400000x32_S_d0_1 : S400000x32.ReducesTo [0, 1] S_
  bcast_S_S64x320 : S_.BroadcastsInDim S64x320 (![] : Fin 0 → Fin S64x320.rank)
  reducesTo_S64x320_S_d0_1 : S64x320.ReducesTo [0, 1] S_
  bcast_S_S1x10x64 : S_.BroadcastsInDim S1x10x64 (![] : Fin 0 → Fin S1x10x64.rank)
  reducesTo_S1x10x64_S_d0_1_2 : S1x10x64.ReducesTo [0, 1, 2] S_
  bcast_S_S32 : S_.BroadcastsInDim S32 (![] : Fin 0 → Fin S32.rank)
  reducesTo_S32_S_d0 : S32.ReducesTo [0] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10 .f32) (main_arg9 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10 .f32 := Host.absf main_arg9
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_cst_16 : FVec F S_ .f32 := constant S_ .f32 0x00000000#32
  let main_v44 : FVec F S10 .f32 := broadcastInDim S10 ![] bcast_S_S10 main_cst_16
  let main_v45 : IVec S10 1 := cmpf .oge main_arg9 main_v44
  let main_c_17 : IVec S_ 1 := constantI S_ 1 1#1
  let main_v46 : IVec S_ 1 := (fun x v => Host.reduce IntOp.andi x v reducesTo_S10_S_d0 h_S_) main_v45 main_c_17
  let main_v47 : IVec S_ 1 := andi main_v43 main_v46
  main_v47

def fn_part1 {F : FTy → Type} [FloatOps F] (main_arg5 : FVec F S32 .f32) (main_arg6 : FVec F S10 .f32) (main_arg7 : FVec F S10 .f32) (main_arg8 : FVec F S10 .f32) (main_arg9 : FVec F S10 .f32) (main_v13 : IVec S_ 1) (main_v16 : IVec S1x10x64 1) : IVec S_ 1 :=
  let main_c_5 : IVec S_ 1 := constantI S_ 1 1#1
  let main_v17 : IVec S_ 1 := (fun x v => Host.reduce IntOp.andi x v reducesTo_S1x10x64_S_d0_1_2 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg8 main_arg9 main_v33

def fn {F : FTy → Type} [FloatOps F] (main_arg0 : FVec F S25000x32 .f32) (main_arg1 : IVec S2x400000 32) (main_arg2 : FVec F S400000x32 .f32) (main_arg3 : FVec F S64x320 .f32) (main_arg4 : FVec F S1x10x64 .f32) (main_arg5 : FVec F S32 .f32) (main_arg6 : FVec F S10 .f32) (main_arg7 : FVec F S10 .f32) (main_arg8 : FVec F S10 .f32) (main_arg9 : FVec F S10 .f32) : IVec S_ 1 :=
  let main_v0 : FVec F S25000x32 .f32 := Host.absf main_arg0
  let main_cst : FVec F S_ .f32 := constant S_ .f32 0x7F800000#32
  let main_v1 : FVec F S25000x32 .f32 := broadcastInDim S25000x32 ![] bcast_S_S25000x32 main_cst
  let main_v2 : IVec S25000x32 1 := cmpf .olt main_v0 main_v1
  let main_c : IVec S_ 1 := constantI S_ 1 1#1
  let main_v3 : IVec S_ 1 := (fun x v => Host.reduce IntOp.andi x v reducesTo_S25000x32_S_d0_1 h_S_) main_v2 main_c
  let main_v4 : FVec F S400000x32 .f32 := Host.absf main_arg2
  let main_cst_0 : FVec F S_ .f32 := constant S_ .f32 0x7F800000#32
  let main_v5 : FVec F S400000x32 .f32 := broadcastInDim S400000x32 ![] bcast_S_S400000x32 main_cst_0
  let main_v6 : IVec S400000x32 1 := cmpf .olt main_v4 main_v5
  let main_c_1 : IVec S_ 1 := constantI S_ 1 1#1
  let main_v7 : IVec S_ 1 := (fun x v => Host.reduce IntOp.andi x v reducesTo_S400000x32_S_d0_1 h_S_) main_v6 main_c_1
  let main_v8 : IVec S_ 1 := andi main_v3 main_v7
  let main_v9 : FVec F S64x320 .f32 := Host.absf main_arg3
  let main_cst_2 : FVec F S_ .f32 := constant S_ .f32 0x7F800000#32
  let main_v10 : FVec F S64x320 .f32 := broadcastInDim S64x320 ![] bcast_S_S64x320 main_cst_2
  let main_v11 : IVec S64x320 1 := cmpf .olt main_v9 main_v10
  let main_c_3 : IVec S_ 1 := constantI S_ 1 1#1
  let main_v12 : IVec S_ 1 := (fun x v => Host.reduce IntOp.andi x v reducesTo_S64x320_S_d0_1 h_S_) main_v11 main_c_3
  let main_v13 : IVec S_ 1 := andi main_v8 main_v12
  let main_v14 : FVec F S1x10x64 .f32 := Host.absf main_arg4
  let main_cst_4 : FVec F S_ .f32 := constant S_ .f32 0x7F800000#32
  let main_v15 : FVec F S1x10x64 .f32 := broadcastInDim S1x10x64 ![] bcast_S_S1x10x64 main_cst_4
  let main_v16 : IVec S1x10x64 1 := cmpf .olt main_v14 main_v15
  fn_part1 (F := F) main_arg5 main_arg6 main_arg7 main_arg8 main_arg9 main_v13 main_v16
-- ==== Kernel.lean ====
abbrev S25000x32 : Shape := ⟨2, ![25000, 32]⟩
abbrev S2x400000 : Shape := ⟨2, ![2, 400000]⟩
abbrev S400000x32 : Shape := ⟨2, ![400000, 32]⟩
abbrev S64x320 : Shape := ⟨2, ![64, 320]⟩
abbrev S1x10x64 : Shape := ⟨3, ![1, 10, 64]⟩
abbrev S32 : Shape := ⟨1, ![32]⟩
abbrev S10 : Shape := ⟨1, ![10]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S32x320 : Shape := ⟨2, ![32, 320]⟩
abbrev S1x10x32 : Shape := ⟨3, ![1, 10, 32]⟩
abbrev S10x32 : Shape := ⟨2, ![10, 32]⟩
abbrev S1x10 : Shape := ⟨2, ![1, 10]⟩
abbrev S400000x10x32 : Shape := ⟨3, ![400000, 10, 32]⟩
abbrev S800x32 : Shape := ⟨2, ![800, 32]⟩
abbrev S800x10x32 : Shape := ⟨3, ![800, 10, 32]⟩
abbrev S800x320 : Shape := ⟨2, ![800, 320]⟩
abbrev S800x10 : Shape := ⟨2, ![800, 10]⟩
abbrev S800 : Shape := ⟨1, ![800]⟩
abbrev S800x1 : Shape := ⟨2, ![800, 1]⟩
abbrev S800x10x1 : Shape := ⟨3, ![800, 10, 1]⟩
abbrev S10x400000x32 : Shape := ⟨3, ![10, 400000, 32]⟩
abbrev S400000x320 : Shape := ⟨2, ![400000, 320]⟩
abbrev S25000x320 : Shape := ⟨2, ![25000, 320]⟩
abbrev S25000x10x32 : Shape := ⟨3, ![25000, 10, 32]⟩
abbrev S1x32 : Shape := ⟨2, ![1, 32]⟩

abbrev nBuf : Space → Nat
  | .hbm => 63
  | .vmem => 14
  | .smem => 0
  | _ => 0

abbrev bufTy : (tb : Table) → Fin (tcTables nBuf tb) → BufTy
  | .hbm, ⟨0, _⟩ => ⟨S25000x32, .f32⟩
  | .hbm, ⟨1, _⟩ => ⟨S2x400000, .i32⟩
  | .hbm, ⟨2, _⟩ => ⟨S400000x32, .f32⟩
  | .hbm, ⟨3, _⟩ => ⟨S64x320, .f32⟩
  | .hbm, ⟨4, _⟩ => ⟨S1x10x64, .f32⟩
  | .hbm, ⟨5, _⟩ => ⟨S32, .f32⟩
  | .hbm, ⟨6, _⟩ => ⟨S10, .f32⟩
  | .hbm, ⟨7, _⟩ => ⟨S10, .f32⟩
  | .hbm, ⟨8, _⟩ => ⟨S10, .f32⟩
  | .hbm, ⟨9, _⟩ => ⟨S10, .f32⟩
  | .hbm, ⟨10, _⟩ => ⟨S1x400000, .i32⟩
  | .hbm, ⟨11, _⟩ => ⟨S400000, .i32⟩
  | .hbm, ⟨12, _⟩ => ⟨S1x400000, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x32, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S400000x32, .f32⟩
  | .hbm, ⟨32, _⟩ => ⟨S32x320, .f32⟩
  | .hbm, ⟨33, _⟩ => ⟨S32x320, .f32⟩
  | .hbm, ⟨34, _⟩ => ⟨S1x10x32, .f32⟩
  | .hbm, ⟨35, _⟩ => ⟨S10x32, .f32⟩
  | .hbm, ⟨36, _⟩ => ⟨S1x10x32, .f32⟩
  | .hbm, ⟨37, _⟩ => ⟨S10x32, .f32⟩
  | .hbm, ⟨38, _⟩ => ⟨S_, .f32⟩
  | .hbm, ⟨39, _⟩ => ⟨S10, .f32⟩
  | .hbm, ⟨40, _⟩ => ⟨S10, .f32⟩
  | .hbm, ⟨41, _⟩ => ⟨S10, .f32⟩
  | .hbm, ⟨42, _⟩ => ⟨S10, .f32⟩
  | .hbm, ⟨43, _⟩ => ⟨S10, .f32⟩
  | .hbm, ⟨44, _⟩ => ⟨S10, .f32⟩
  | .hbm, ⟨45, _⟩ => ⟨S1x10, .f32⟩
  | .hbm, ⟨46, _⟩ => ⟨S1x10, .f32⟩
  | .hbm, ⟨47, _⟩ => ⟨S400000x10x32, .f32⟩
  | .hbm, ⟨48, _⟩ => ⟨S10x400000x32, .f32⟩
  | .hbm, ⟨49, _⟩ => ⟨S400000x320, .f32⟩
  | .hbm, ⟨50, _⟩ => ⟨S_, .f32⟩
  | .hbm, ⟨51, _⟩ => ⟨S25000x320, .f32⟩
  | .hbm, ⟨52, _⟩ => ⟨S400000x1, .i32⟩
  | .hbm, ⟨53, _⟩ => ⟨S25000x320, .f32⟩
  | .hbm, ⟨54, _⟩ => ⟨S25000x10x32, .f32⟩
  | .hbm, ⟨55, _⟩ => ⟨S_, .f32⟩
  | .hbm, ⟨56, _⟩ => ⟨S25000x32, .f32⟩
  | .hbm, ⟨57, _⟩ => ⟨S_, .f32⟩
  | .hbm, ⟨58, _⟩ => ⟨S25000x32, .f32⟩
  | .hbm, ⟨59, _⟩ => ⟨S25000x32, .f32⟩
  | .hbm, ⟨60, _⟩ => ⟨S1x32, .f32⟩
  | .hbm, ⟨61, _⟩ => ⟨S25000x32, .f32⟩
  | .hbm, ⟨62, _⟩ => ⟨S25000x32, .f32⟩
  | .local _ .vmem, ⟨0, _⟩ => ⟨S800x32, .f32⟩
  | .local _ .vmem, ⟨1, _⟩ => ⟨S800x32, .f32⟩
  | .local _ .vmem, ⟨2, _⟩ => ⟨S800x32, .f32⟩
  | .local _ .vmem, ⟨3, _⟩ => ⟨S800x32, .f32⟩
  | .local _ .vmem, ⟨4, _⟩ => ⟨S800x32, .f32⟩
  | .local _ .vmem, ⟨5, _⟩ => ⟨S800x32, .f32⟩
  | .local _ .vmem, ⟨6, _⟩ => ⟨S32x320, .f32⟩
  | .local _ .vmem, ⟨7, _⟩ => ⟨S32x320, .f32⟩
  | .local _ .vmem, ⟨8, _⟩ => ⟨S10x32, .f32⟩
  | .local _ .vmem, ⟨9, _⟩ => ⟨S10x32, .f32⟩
  | .local _ .vmem, ⟨10, _⟩ => ⟨S1x10, .f32⟩
  | .local _ .vmem, ⟨11, _⟩ => ⟨S1x10, .f32⟩
  | .local _ .vmem, ⟨12, _⟩ => ⟨S800x10x32, .f32⟩
  | .local _ .vmem, ⟨13, _⟩ => ⟨S800x10x32, .f32⟩
  | _, _ => ⟨S25000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S800x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S800x10x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  slices_S64x320_S32x320_0_0 : S64x320.Slices ![0, 0] S32x320
  slices_S64x320_S32x320_32_0 : S64x320.Slices ![32, 0] S32x320
  slices_S1x10x64_S1x10x32_0_0_0 : S1x10x64.Slices ![0, 0, 0] S1x10x32
  shapeCasts_S1x10x32_S10x32 : S1x10x32.ShapeCasts S10x32
  slices_S1x10x64_S1x10x32_0_0_32 : S1x10x64.Slices ![0, 0, 32] S1x10x32
  bcast_S_S10 : S_.BroadcastsInDim S10 (![] : Fin 0 → Fin S10.rank)
  shapeCasts_S10_S1x10 : S10.ShapeCasts S1x10
  inb_S800x32_S800x32_0_0 : ∀ a, (![0, 0] : Fin 2 → Nat) a + S800x32.size a ≤ S800x32.size a
  h_S800x32 : 0 < S800x32.numel
  shapeCasts_S800x32_S800x32 : S800x32.ShapeCasts S800x32
  bitsLt_bf16_f32 : FTy.bits .bf16 < FTy.bits .f32
  inb_S32x320_S32x320_0_0 : ∀ a, (![0, 0] : Fin 2 → Nat) a + S32x320.size a ≤ S32x320.size a
  h_S32x320 : 0 < S32x320.numel
  shapeCasts_S32x320_S32x320 : S32x320.ShapeCasts S32x320
  shapeCasts_S800x320_S800x10x32 : S800x320.ShapeCasts S800x10x32
  inb_S10x32_S10x32_0_0 : ∀ a, (![0, 0] : Fin 2 → Nat) a + S10x32.size a ≤ S10x32.size a
  h_S10x32 : 0 < S10x32.numel
  shapeCasts_S10x32_S10x32 : S10x32.ShapeCasts S10x32
  shapeCasts_S10x32_S1x10x32 : S10x32.ShapeCasts S1x10x32
  broadcasts_S1x10x32_S800x10x32 : S1x10x32.Broadcasts S800x10x32
  reduces_S800x10x32_S800x10 : S800x10x32.Reduces [2] S800x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S800x10 : S1x10.Broadcasts S800x10
  reduces_S800x10_S800 : S800x10.Reduces [1] S800
  shapeCasts_S800_S800x1 : S800.ShapeCasts S800x1
  broadcasts_S800x1_S800x10 : S800x1.Broadcasts S800x10
  shapeCasts_S800x10_S800x10x1 : S800x10.ShapeCasts S800x10x1
  broadcasts_S800x10x1_S800x10x32 : S800x10x1.Broadcasts S800x10x32
  inb_S800x10x32_S800x10x32_0_0_0 : ∀ a, (![0, 0, 0] : Fin 3 → Nat) a + S800x10x32.size a ≤ S800x10x32.size a
  h_S800x10x32 : 0 < S800x10x32.numel
  transposes_S400000x10x32_S10x400000x32_1_0_2 : S400000x10x32.Transposes [1, 0, 2] S10x400000x32
  shapeCasts_S10x400000x32_S400000x320 : S10x400000x32.ShapeCasts S400000x320
  bcast_S_S25000x320 : S_.BroadcastsInDim S25000x320 (![] : Fin 0 → Fin S25000x320.rank)
  shapeCasts_S25000x320_S25000x10x32 : S25000x320.ShapeCasts S25000x10x32
  reducesTo_S25000x10x32_S25000x32_d1 : S25000x10x32.ReducesTo [1] S25000x32
  h_S_ : 0 < S_.numel
  bcast_S_S25000x32 : S_.BroadcastsInDim S25000x32 (![] : Fin 0 → Fin S25000x32.rank)
  bcast_S32_S1x32_1 : S32.BroadcastsInDim S1x32 (![1] : Fin 1 → Fin S1x32.rank)
  bcast_S1x32_S25000x32_0_1 : S1x32.BroadcastsInDim S25000x32 (![0, 1] : Fin 2 → Fin S25000x32.rank)
  gather_S25000x32_S400000x1_S400000x32_1_0_n_n_0_1_132_wf : GatherDims.WF S25000x32 S400000x1 S400000x32 [1] [0] [] [0] [] 1 ![1, 32]
  dot_S800x32_S32x320_S800x320_1_0_0_1_n_n_wf : DotDims.WF S800x32 S32x320 S800x320 [1] [0] [0] [1] [] []
  scatter_S25000x320_S400000x1_S400000x320_1_0_0_1_wf : ScatterDims.WF S25000x320 S400000x1 S400000x320 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x32.size a ≤ S400000x32.size a
  hwx0_0 : ∀ i : grid0.Coords, EltTy.bits .f32 = 32 ∨ (Rect.block (s := S400000x32) S800x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x32.size a ≤ S400000x32.size a
  hwx0_1 : ∀ i : grid0.Coords, EltTy.bits .f32 = 32 ∨ (Rect.block (s := S400000x32) S800x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x32.size a ≤ S400000x32.size a
  hwx0_2 : ∀ i : grid0.Coords, EltTy.bits .f32 = 32 ∨ (Rect.block (s := S400000x32) S800x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x320.size a ≤ S32x320.size a
  hwx0_3 : ∀ i : grid0.Coords, EltTy.bits .f32 = 32 ∨ (Rect.block (s := S32x320) S32x320.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x320.size a ≤ S32x320.size a
  hwx0_4 : ∀ i : grid0.Coords, EltTy.bits .f32 = 32 ∨ (Rect.block (s := S32x320) S32x320.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x32.size a ≤ S10x32.size a
  hwx0_5 : ∀ i : grid0.Coords, EltTy.bits .f32 = 32 ∨ (Rect.block (s := S10x32) S10x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x32.size a ≤ S10x32.size a
  hwx0_6 : ∀ i : grid0.Coords, EltTy.bits .f32 = 32 ∨ (Rect.block (s := S10x32) S10x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S800x10x32.size a ≤ S400000x10x32.size a
  hwx0_9 : ∀ i : grid0.Coords, EltTy.bits .f32 = 32 ∨ (Rect.block (s := S400000x10x32) S800x10x32.size (cc0_transform_9 i) (hinb0_9 i)).WholeWords (EltTy.packing .f32)

variable [Facts₀]

def gather_S25000x32_S400000x1_S400000x32_1_0_n_n_0_1_132 : GatherDims S25000x32 S400000x1 S400000x32 where
  offsetDims := [1]
  collapsedSliceDims := [0]
  operandBatchingDims := []
  startIndicesBatchingDims := []
  startIndexMap := [0]
  indexVectorDim := 1
  sliceSizes := ![1, 32]
  wf := gather_S25000x32_S400000x1_S400000x32_1_0_n_n_0_1_132_wf
def dot_S800x32_S32x320_S800x320_1_0_0_1_n_n : DotDims S800x32 S32x320 S800x320 where
  lhsContracting := [1]
  rhsContracting := [0]
  lhsNonContracting := [0]
  rhsNonContracting := [1]
  lhsBatch := []
  rhsBatch := []
  wf := dot_S800x32_S32x320_S800x320_1_0_0_1_n_n_wf
def scatter_S25000x320_S400000x1_S400000x320_1_0_0_1 : ScatterDims S25000x320 S400000x1 S400000x320 where
  updateWindowDims := [1]
  insertedWindowDims := [0]
  scatterDimsToOperandDims := [0]
  indexVectorDim := 1
  wf := scatter_S25000x320_S400000x1_S400000x320_1_0_0_1_wf

abbrev win0_0 : Pipeline.Window sig grid0 :=
  Pipeline.Window.ofSpec (Memref.whole main_v10) S800x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S800x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S800x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S32x320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S32x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S10x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S10x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S800x10x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S25000x32 : Shape := ⟨2, ![25000, 32]⟩
abbrev S2x400000 : Shape := ⟨2, ![2, 400000]⟩
abbrev S400000x32 : Shape := ⟨2, ![400000, 32]⟩
abbrev S64x320 : Shape := ⟨2, ![64, 320]⟩
abbrev S1x10x64 : Shape := ⟨3, ![1, 10, 64]⟩
abbrev S32 : Shape := ⟨1, ![32]⟩
abbrev S10 : Shape := ⟨1, ![10]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S400000x320 : Shape := ⟨2, ![400000, 320]⟩
abbrev S400000x10x32 : Shape := ⟨3, ![400000, 10, 32]⟩
abbrev S400000x10x64 : Shape := ⟨3, ![400000, 10, 64]⟩
abbrev S400000x10 : Shape := ⟨2, ![400000, 10]⟩
abbrev S400000x10x1 : Shape := ⟨3, ![400000, 10, 1]⟩
abbrev S1x10x1 : Shape := ⟨3, ![1, 10, 1]⟩
abbrev S1x10 : Shape := ⟨2, ![1, 10]⟩
abbrev S10x400000x32 : Shape := ⟨3, ![10, 400000, 32]⟩
abbrev S25000x320 : Shape := ⟨2, ![25000, 320]⟩
abbrev S25000x10x32 : Shape := ⟨3, ![25000, 10, 32]⟩
abbrev S1x32 : Shape := ⟨2, ![1, 32]⟩

abbrev nBuf : Space → Nat
  | .hbm => 114
  | .vmem => 0
  | .smem => 0
  | _ => 0

abbrev bufTy : (tb : Table) → Fin (tcTables nBuf tb) → BufTy
  | .hbm, ⟨0, _⟩ => ⟨S25000x32, .f32⟩
  | .hbm, ⟨1, _⟩ => ⟨S2x400000, .i32⟩
  | .hbm, ⟨2, _⟩ => ⟨S400000x32, .f32⟩
  | .hbm, ⟨3, _⟩ => ⟨S64x320, .f32⟩
  | .hbm, ⟨4, _⟩ => ⟨S1x10x64, .f32⟩
  | .hbm, ⟨5, _⟩ => ⟨S32, .f32⟩
  | .hbm, ⟨6, _⟩ => ⟨S10, .f32⟩
  | .hbm, ⟨7, _⟩ => ⟨S10, .f32⟩
  | .hbm, ⟨8, _⟩ => ⟨S10, .f32⟩
  | .hbm, ⟨9, _⟩ => ⟨S10, .f32⟩
  | .hbm, ⟨10, _⟩ => ⟨S1x400000, .i32⟩
  | .hbm, ⟨11, _⟩ => ⟨S400000, .i32⟩
  | .hbm, ⟨12, _⟩ => ⟨S1x400000, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x32, .f32⟩
  | .hbm, ⟨23, _⟩ => ⟨S400000x64, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x32, .f32⟩
  | .hbm, ⟨33, _⟩ => ⟨S400000x64, .f32⟩
  | .hbm, ⟨34, _⟩ => ⟨S400000x320, .f32⟩
  | .hbm, ⟨35, _⟩ => ⟨S_, .f32⟩
  | .hbm, ⟨36, _⟩ => ⟨S400000x320, .f32⟩
  | .hbm, ⟨37, _⟩ => ⟨S400000x320, .i1⟩
  | .hbm, ⟨38, _⟩ => ⟨S_, .f32⟩
  | .hbm, ⟨39, _⟩ => ⟨S400000x320, .f32⟩
  | .hbm, ⟨40, _⟩ => ⟨S400000x320, .f32⟩
  | .hbm, ⟨41, _⟩ => ⟨S400000x320, .f32⟩
  | .hbm, ⟨42, _⟩ => ⟨S400000x10x32, .f32⟩
  | .hbm, ⟨43, _⟩ => ⟨S400000x320, .f32⟩
  | .hbm, ⟨44, _⟩ => ⟨S_, .f32⟩
  | .hbm, ⟨45, _⟩ => ⟨S400000x320, .f32⟩
  | .hbm, ⟨46, _⟩ => ⟨S400000x320, .i1⟩
  | .hbm, ⟨47, _⟩ => ⟨S_, .f32⟩
  | .hbm, ⟨48, _⟩ => ⟨S400000x320, .f32⟩
  | .hbm, ⟨49, _⟩ => ⟨S400000x320, .f32⟩
  | .hbm, ⟨50, _⟩ => ⟨S400000x320, .f32⟩
  | .hbm, ⟨51, _⟩ => ⟨S400000x10x32, .f32⟩
  | .hbm, ⟨52, _⟩ => ⟨S400000x10x64, .f32⟩
  | .hbm, ⟨53, _⟩ => ⟨S400000x10x64, .f32⟩
  | .hbm, ⟨54, _⟩ => ⟨S400000x10x64, .f32⟩
  | .hbm, ⟨55, _⟩ => ⟨S_, .f32⟩
  | .hbm, ⟨56, _⟩ => ⟨S400000x10, .f32⟩
  | .hbm, ⟨57, _⟩ => ⟨S_, .f32⟩
  | .hbm, ⟨58, _⟩ => ⟨S400000x10, .f32⟩
  | .hbm, ⟨59, _⟩ => ⟨S400000x10, .i1⟩
  | .hbm, ⟨60, _⟩ => ⟨S_, .f32⟩
  | .hbm, ⟨61, _⟩ => ⟨S400000x10, .f32⟩
  | .hbm, ⟨62, _⟩ => ⟨S400000x10, .f32⟩
  | .hbm, ⟨63, _⟩ => ⟨S400000x10, .f32⟩
  | .hbm, ⟨64, _⟩ => ⟨S400000x10x1, .f32⟩
  | .hbm, ⟨65, _⟩ => ⟨S1x10x1, .f32⟩
  | .hbm, ⟨66, _⟩ => ⟨S400000x10x1, .f32⟩
  | .hbm, ⟨67, _⟩ => ⟨S400000x10x1, .f32⟩
  | .hbm, ⟨68, _⟩ => ⟨S_, .f32⟩
  | .hbm, ⟨69, _⟩ => ⟨S10, .f32⟩
  | .hbm, ⟨70, _⟩ => ⟨S10, .f32⟩
  | .hbm, ⟨71, _⟩ => ⟨S10, .f32⟩
  | .hbm, ⟨72, _⟩ => ⟨S1x10x1, .f32⟩
  | .hbm, ⟨73, _⟩ => ⟨S400000x10x1, .f32⟩
  | .hbm, ⟨74, _⟩ => ⟨S400000x10x1, .f32⟩
  | .hbm, ⟨75, _⟩ => ⟨S400000x10, .f32⟩
  | .hbm, ⟨76, _⟩ => ⟨S1x10, .f32⟩
  | .hbm, ⟨77, _⟩ => ⟨S400000x10, .f32⟩
  | .hbm, ⟨78, _⟩ => ⟨S400000x10, .f32⟩
  | .hbm, ⟨79, _⟩ => ⟨S1x10, .f32⟩
  | .hbm, ⟨80, _⟩ => ⟨S400000x10, .f32⟩
  | .hbm, ⟨81, _⟩ => ⟨S400000x10, .f32⟩
  | .hbm, ⟨82, _⟩ => ⟨S_, .f32⟩
  | .hbm, ⟨83, _⟩ => ⟨S400000, .f32⟩
  | .hbm, ⟨84, _⟩ => ⟨S_, .f32⟩
  | .hbm, ⟨85, _⟩ => ⟨S400000, .f32⟩
  | .hbm, ⟨86, _⟩ => ⟨S400000, .f32⟩
  | .hbm, ⟨87, _⟩ => ⟨S400000x1, .f32⟩
  | .hbm, ⟨88, _⟩ => ⟨S400000x10, .f32⟩
  | .hbm, ⟨89, _⟩ => ⟨S400000x10, .f32⟩
  | .hbm, ⟨90, _⟩ => ⟨S400000x10, .f32⟩
  | .hbm, ⟨91, _⟩ => ⟨S_, .f32⟩
  | .hbm, ⟨92, _⟩ => ⟨S400000, .f32⟩
  | .hbm, ⟨93, _⟩ => ⟨S400000x1, .f32⟩
  | .hbm, ⟨94, _⟩ => ⟨S400000x10, .f32⟩
  | .hbm, ⟨95, _⟩ => ⟨S400000x10, .f32⟩
  | .hbm, ⟨96, _⟩ => ⟨S400000x10x1, .f32⟩
  | .hbm, ⟨97, _⟩ => ⟨S400000x10x32, .f32⟩
  | .hbm, ⟨98, _⟩ => ⟨S400000x10x32, .f32⟩
  | .hbm, ⟨99, _⟩ => ⟨S10x400000x32, .f32⟩
  | .hbm, ⟨100, _⟩ => ⟨S400000x320, .f32⟩
  | .hbm, ⟨101, _⟩ => ⟨S_, .f32⟩
  | .hbm, ⟨102, _⟩ => ⟨S25000x320, .f32⟩
  | .hbm, ⟨103, _⟩ => ⟨S400000x1, .i32⟩
  | .hbm, ⟨104, _⟩ => ⟨S25000x320, .f32⟩
  | .hbm, ⟨105, _⟩ => ⟨S25000x10x32, .f32⟩
  | .hbm, ⟨106, _⟩ => ⟨S_, .f32⟩
  | .hbm, ⟨107, _⟩ => ⟨S25000x32, .f32⟩
  | .hbm, ⟨108, _⟩ => ⟨S_, .f32⟩
  | .hbm, ⟨109, _⟩ => ⟨S25000x32, .f32⟩
  | .hbm, ⟨110, _⟩ => ⟨S25000x32, .f32⟩
  | .hbm, ⟨111, _⟩ => ⟨S1x32, .f32⟩
  | .hbm, ⟨112, _⟩ => ⟨S25000x32, .f32⟩
  | .hbm, ⟨113, _⟩ => ⟨S25000x32, .f32⟩
  | _, _ => ⟨S25000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_14 : Ref sig .tc := ⟨.hbm, 106, rfl⟩
abbrev main_v80 : Ref sig .tc := ⟨.hbm, 107, rfl⟩
abbrev main_cst_15 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x32_S400000x32_S400000x64_d1 : Shape.Concatenates [S400000x32, S400000x32] S400000x64 1
  bcast_S_S400000x320 : S_.BroadcastsInDim S400000x320 (![] : Fin 0 → Fin S400000x320.rank)
  shapeCasts_S400000x320_S400000x10x32 : S400000x320.ShapeCasts S400000x10x32
  concatenates_S400000x10x32_S400000x10x32_S400000x10x64_d2 : Shape.Concatenates [S400000x10x32, S400000x10x32] S400000x10x64 2
  bcast_S1x10x64_S400000x10x64_0_1_2 : S1x10x64.BroadcastsInDim S400000x10x64 (![0, 1, 2] : Fin 3 → Fin S400000x10x64.rank)
  reducesTo_S400000x10x64_S400000x10_d2 : S400000x10x64.ReducesTo [2] S400000x10
  h_S_ : 0 < S_.numel
  bcast_S_S400000x10 : S_.BroadcastsInDim S400000x10 (![] : Fin 0 → Fin S400000x10.rank)
  shapeCasts_S400000x10_S400000x10x1 : S400000x10.ShapeCasts S400000x10x1
  bcast_S10_S1x10x1_1 : S10.BroadcastsInDim S1x10x1 (![1] : Fin 1 → Fin S1x10x1.rank)
  bcast_S1x10x1_S400000x10x1_0_1_2 : S1x10x1.BroadcastsInDim S400000x10x1 (![0, 1, 2] : Fin 3 → Fin S400000x10x1.rank)
  bcast_S_S10 : S_.BroadcastsInDim S10 (![] : Fin 0 → Fin S10.rank)
  shapeCasts_S400000x10x1_S400000x10 : S400000x10x1.ShapeCasts S400000x10
  bcast_S10_S1x10_1 : S10.BroadcastsInDim S1x10 (![1] : Fin 1 → Fin S1x10.rank)
  bcast_S1x10_S400000x10_0_1 : S1x10.BroadcastsInDim S400000x10 (![0, 1] : Fin 2 → Fin S400000x10.rank)
  reducesTo_S400000x10_S400000_d1 : S400000x10.ReducesTo [1] S400000
  bcast_S400000x1_S400000x10_0_1 : S400000x1.BroadcastsInDim S400000x10 (![0, 1] : Fin 2 → Fin S400000x10.rank)
  bcast_S400000x10_S400000x10x1_0_1 : S400000x10.BroadcastsInDim S400000x10x1 (![0, 1] : Fin 2 → Fin S400000x10x1.rank)
  bcast_S400000x10x1_S400000x10x32_0_1_2 : S400000x10x1.BroadcastsInDim S400000x10x32 (![0, 1, 2] : Fin 3 → Fin S400000x10x32.rank)
  transposes_S400000x10x32_S10x400000x32_1_0_2 : S400000x10x32.Transposes [1, 0, 2] S10x400000x32
  shapeCasts_S10x400000x32_S400000x320 : S10x400000x32.ShapeCasts S400000x320
  bcast_S_S25000x320 : S_.BroadcastsInDim S25000x320 (![] : Fin 0 → Fin S25000x320.rank)
  shapeCasts_S25000x320_S25000x10x32 : S25000x320.ShapeCasts S25000x10x32
  reducesTo_S25000x10x32_S25000x32_d1 : S25000x10x32.ReducesTo [1] S25000x32
  bcast_S_S25000x32 : S_.BroadcastsInDim S25000x32 (![] : Fin 0 → Fin S25000x32.rank)
  bcast_S32_S1x32_1 : S32.BroadcastsInDim S1x32 (![1] : Fin 1 → Fin S1x32.rank)
  bcast_S1x32_S25000x32_0_1 : S1x32.BroadcastsInDim S25000x32 (![0, 1] : Fin 2 → Fin S25000x32.rank)
  gather_S25000x32_S400000x1_S400000x32_1_0_n_n_0_1_132_wf : GatherDims.WF S25000x32 S400000x1 S400000x32 [1] [0] [] [0] [] 1 ![1, 32]
  dot_S400000x64_S64x320_S400000x320_1_0_0_1_n_n_wf : DotDims.WF S400000x64 S64x320 S400000x320 [1] [0] [0] [1] [] []
  scatter_S25000x320_S400000x1_S400000x320_1_0_0_1_wf : ScatterDims.WF S25000x320 S400000x1 S400000x320 [1] [0] [0] 1

variable [Facts₀]

def gather_S25000x32_S400000x1_S400000x32_1_0_n_n_0_1_132 : GatherDims S25000x32 S400000x1 S400000x32 where
  offsetDims := [1]
  collapsedSliceDims := [0]
  operandBatchingDims := []
  startIndicesBatchingDims := []
  startIndexMap := [0]
  indexVectorDim := 1
  sliceSizes := ![1, 32]
  wf := gather_S25000x32_S400000x1_S400000x32_1_0_n_n_0_1_132_wf
def dot_S400000x64_S64x320_S400000x320_1_0_0_1_n_n : DotDims S400000x64 S64x320 S400000x320 where
  lhsContracting := [1]
  rhsContracting := [0]
  lhsNonContracting := [0]
  rhsNonContracting := [1]
  lhsBatch := []
  rhsBatch := []
  wf := dot_S400000x64_S64x320_S400000x320_1_0_0_1_n_n_wf
def scatter_S25000x320_S400000x1_S400000x320_1_0_0_1 : ScatterDims S25000x320 S400000x1 S400000x320 where
  updateWindowDims := [1]
  insertedWindowDims := [0]
  scatterDimsToOperandDims := [0]
  indexVectorDim := 1
  wf := scatter_S25000x320_S400000x1_S400000x320_1_0_0_1_wf

class Facts : Prop extends Facts₀ where

variable [Facts]
-- ==== Proof.EdgeAttn.lean ====
/-
  The attention-weighted edge message of a graph-attention layer, as two pure functions on the extended reals.

  For an edge e with source row u = xr(e,·), target row w = xc(e,·) and edge features a = ea(e,·) (32 entries each), a
  weight matrix W of 64 rows and 320 = 10 × 32 columns, an attention table att of 10 heads × 64 entries, and per-head
  normalisation data γ, β, μ, v:

    feature(u)(h,k)  = leaky( Σ_{q<64} [u ‖ a](q) · W(q, 32h + k) )
    logit0(h)        = Σ_{q<64} [feature(u)(h,·) ‖ feature(w)(h,·)](q) · att(h, q)
    logit(h)         = ((leaky(logit0(h)) − μ(h)) · rsqrt(v(h) + ε)) · γ(h) + β(h)
    weight(h)        = exp(logit(h) − max_h logit) / Σ_h exp(logit(h) − max_h logit)
    message(h,k)     = feature(w)(h,k) · weight(h)

  The "joined" form below (`rOut`) is this text read literally: every sum runs over the 64 joined positions and the
  normalisation is applied as written.  The "split" form (`kOut`) computes every sum over 64 positions as the sum of its
  two halves of 32, and applies the normalisation as one multiply-add with the folded scale γ·rsqrt(v+ε) and shift
  β − μ·(γ·rsqrt(v+ε)).  The halves regroup in any commutative monoid; the folded multiply-add agrees with the written
  normalisation where every quantity is a real number (distributivity fails at the infinities).
-/
import Idealize.ShloMosaic.PureOps.Ideal.Laws
import Idealize.ShloMosaic.Lib.ValueIdx

noncomputable section

namespace Cert.EdgeAttn

open Idealize.ShloMosaic Idealize.ShloMosaic.ValueIdx

/-- Position `k` of the first half of a joined row of 64. -/
def lo (k : Fin 32) : Fin 64 := ⟨k.val, by omega⟩
/-- Position `k` of the second half of a joined row of 64. -/
def hi (k : Fin 32) : Fin 64 := ⟨32 + k.val, by omega⟩
/-- Column `32·h + k` of 320: entry `k` of head `h`. -/
def col (h : Fin 10) (k : Fin 32) : Fin 320 := ⟨h.val * 32 + k.val, by omega⟩

/-- The leaky rectifier with slope 0.2 (as an f32 word) below zero: `z` where `z ≥ 0`, else `0.2·z`. -/
def leaky (z : EReal) : EReal :=
  Scalar.select (Ideal.cmp .oge z (Ideal.ofBits .f32 0x00000000#32)) z (Ideal.ofBits .f32 0x3E4CCCCD#32 * z)

/-- The largest of ten logits, folded from −∞. -/
def rowMax (a : Fin 10 → EReal) : EReal :=
  (Finset.univ : Finset (Fin 10)).fold max (Ideal.ofBits .f32 0xFF800000#32) a

/-- The softmax weight of head `h` among ten logits, shifted by their maximum. -/
def attnWeight (a : Fin 10 → EReal) (h : Fin 10) : EReal :=
  Ideal.div (Ideal.exp (a h - rowMax a)) (∑ h' : Fin 10, Ideal.exp (a h' - rowMax a))

/-- The reciprocal standard deviation of head `h`: `rsqrt(v(h) + ε)`, ε the f32 word of 1e-5. -/
def rstd (v : (⟨1, ![10]⟩ : Shape).Idx → EReal) (h : Fin 10) : EReal :=
  Ideal.rsqrt (v (ix1 h) + Ideal.ofBits .f32 0x3727C5AC#32)

variable (xr xc ea : (⟨2, ![400000, 32]⟩ : Shape).Idx → EReal) (W : (⟨2, ![64, 320]⟩ : Shape).Idx → EReal)
  (att : (⟨3, ![1, 10, 64]⟩ : Shape).Idx → EReal) (γ β μ v : (⟨1, ![10]⟩ : Shape).Idx → EReal)

/-! ## The split form: every sum over 64 positions as two sums over 32, the normalisation folded -/

/-- Column `j` of the projection of edge `e`'s endpoint row `u(e,·)` joined with its edge features, before the rectifier. -/
def kLin (u : (⟨2, ![400000, 32]⟩ : Shape).Idx → EReal) (e : Fin 400000) (j : Fin 320) : EReal :=
  (∑ k : Fin 32, u (ix2 e k) * W (ix2 (lo k) j)) + (∑ k : Fin 32, ea (ix2 e k) * W (ix2 (hi k) j))

def kFeat (u : (⟨2, ![400000, 32]⟩ : Shape).Idx → EReal) (e : Fin 400000) (j : Fin 320) : EReal :=
  leaky (kLin ea W u e j)

def kLogit0 (e : Fin 400000) (h : Fin 10) : EReal :=
  (∑ k : Fin 32, kFeat ea W xr e (col h k) * att (ix3 0 h (lo k)))
    + (∑ k : Fin 32, kFeat ea W xc e (col h k) * att (ix3 0 h (hi k)))

def kScale (h : Fin 10) : EReal := γ (ix1 h) * rstd v h
def kShift (h : Fin 10) : EReal := β (ix1 h) - μ (ix1 h) * kScale γ v h

def kLogit (e : Fin 400000) (h : Fin 10) : EReal :=
  leaky (kLogit0 xr xc ea W att e h) * kScale γ v h + kShift γ β μ v h

/-- The message of edge `i 0`, head `i 1`, entry `i 2`, in the split form. -/
def kOut (i : (⟨3, ![400000, 10, 32]⟩ : Shape).Idx) : EReal :=
  kFeat ea W xc (i 0) (col (i 1) (i 2)) * attnWeight (fun h => kLogit xr xc ea W att γ β μ v (i 0) h) (i 1)

/-! ## The joined form: the sums over all 64 positions, the normalisation as written -/

/-- Entry `q` of edge `e`'s endpoint row joined with its edge features. -/
def joinRow (u : (⟨2, ![400000, 32]⟩ : Shape).Idx → EReal) (e : Fin 400000) (q : Fin 64) : EReal :=
  if hq : q.val < 32 then u (ix2 e ⟨q.val, hq⟩) else ea (ix2 e ⟨q.val - 32, by omega⟩)

def rLin (u : (⟨2, ![400000, 32]⟩ : Shape).Idx → EReal) (e : Fin 400000) (j : Fin 320) : EReal :=
  ∑ q : Fin 64, joinRow ea u e q * W (ix2 q j)

def rFeat (u : (⟨2, ![400000, 32]⟩ : Shape).Idx → EReal) (e : Fin 400000) (j : Fin 320) : EReal :=
  leaky (rLin ea W u e j)

/-- Entry `q` of head `h`'s source features joined with its target features. -/
def joinFeat (e : Fin 400000) (h : Fin 10) (q : Fin 64) : EReal :=
  if hq : q.val < 32 then rFeat ea W xr e (col h ⟨q.val, hq⟩) else rFeat ea W xc e (col h ⟨q.val - 32, by omega⟩)

def rLogit0 (e : Fin 400000) (h : Fin 10) : EReal :=
  ∑ q : Fin 64, joinFeat xr xc ea W e h q * att (ix3 0 h q)

def rLogit (e : Fin 400000) (h : Fin 10) : EReal :=
  ((leaky (rLogit0 xr xc ea W att e h) - μ (ix1 h)) * rstd v h) * γ (ix1 h) + β (ix1 h)

/-- The message of edge `i 0`, head `i 1`, entry `i 2`, in the joined form. -/
def rOut (i : (⟨3, ![400000, 10, 32]⟩ : Shape).Idx) : EReal :=
  rFeat ea W xc (i 0) (col (i 1) (i 2)) * attnWeight (fun h => rLogit xr xc ea W att γ β μ v (i 0) h) (i 1)

end Cert.EdgeAttn

end
-- ==== Proof.EdgeRow.lean ====
/-
  One edge's message from its own three rows.

  The attention-weighted message of an edge depends on the edge only through three rows of 32 numbers — its source row u,
  its target row c and its edge features a — and on small operands shared by all edges: the two halves W1, W2 (32 × 320
  each) of the weight matrix, the two halves ati, atj (10 × 32 each) of the attention table, and the folded scale and
  shift rows (1 × 10 each).  This module states that dependence as one function of those rows, in the split form (two
  sums over 32 for every sum over 64, the normalisation as one multiply-add).
-/
import proofs.«173645_j47974784696359_2_alg».proof.Proof.EdgeAttn

noncomputable section

namespace Cert.EdgeAttn

open Idealize.ShloMosaic Idealize.ShloMosaic.ValueIdx

variable (u c a : Fin 32 → EReal) (W1 W2 : (⟨2, ![32, 320]⟩ : Shape).Idx → EReal)
  (ati atj : (⟨2, ![10, 32]⟩ : Shape).Idx → EReal) (sc sh : (⟨2, ![1, 10]⟩ : Shape).Idx → EReal)

/-- Column `j` of the projection of the row `u` joined with the edge features `a`, as the sum of the two half products. -/
def rowLin (u a : Fin 32 → EReal) (j : Fin 320) : EReal :=
  (∑ k : Fin 32, u k * W1 (ix2 k j)) + (∑ k : Fin 32, a k * W2 (ix2 k j))

def rowFeat (u a : Fin 32 → EReal) (j : Fin 320) : EReal := leaky (rowLin W1 W2 u a j)

/-- The normalised logit of head `h`: the two half dot products with the attention table, rectified, times the folded
    scale plus the folded shift. -/
def rowLogit (h : Fin 10) : EReal :=
  leaky ((∑ k : Fin 32, rowFeat W1 W2 u a (col h k) * ati (ix2 h k))
      + (∑ k : Fin 32, rowFeat W1 W2 c a (col h k) * atj (ix2 h k))) * sc (ix2 0 h) + sh (ix2 0 h)

/-- Entry `k` of head `h` of the edge's message. -/
def rowOut (h : Fin 10) (k : Fin 32) : EReal :=
  rowFeat W1 W2 c a (col h k) * attnWeight (rowLogit u c a W1 W2 ati atj sc sh) h

/-! ## The per-row form over sliced operands is the split form over the whole operands -/

section Link

variable (xr xc ea : (⟨2, ![400000, 32]⟩ : Shape).Idx → EReal) (W : (⟨2, ![64, 320]⟩ : Shape).Idx → EReal)
  (att : (⟨3, ![1, 10, 64]⟩ : Shape).Idx → EReal) (γ β μ v : (⟨1, ![10]⟩ : Shape).Idx → EReal)
  (W1 W2 : (⟨2, ![32, 320]⟩ : Shape).Idx → EReal) (ati atj : (⟨2, ![10, 32]⟩ : Shape).Idx → EReal)
  (sc sh : (⟨2, ![1, 10]⟩ : Shape).Idx → EReal)

/-- When W1, W2 are the two halves of W's rows, ati, atj the two halves of the attention table's entries, and sc, sh the
    folded scale and shift, the per-row message of edge e's rows is the split form's message at (e, h, k). -/
theorem rowOut_eq_kOut
    (hW1 : ∀ k j, W1 (ix2 k j) = W (ix2 (lo k) j)) (hW2 : ∀ k j, W2 (ix2 k j) = W (ix2 (hi k) j))
    (hati : ∀ h k, ati (ix2 h k) = att (ix3 0 h (lo k))) (hatj : ∀ h k, atj (ix2 h k) = att (ix3 0 h (hi k)))
    (hsc : ∀ h, sc (ix2 0 h) = kScale γ v h) (hsh : ∀ h, sh (ix2 0 h) = kShift γ β μ v h)
    (e : Fin 400000) (h : Fin 10) (k : Fin 32) :
    rowOut (fun q => xr (ix2 e q)) (fun q => xc (ix2 e q)) (fun q => ea (ix2 e q)) W1 W2 ati atj sc sh h k
      = kOut xr xc ea W att γ β μ v (ix3 e h k) := by
  have hfeat : ∀ (u : (⟨2, ![400000, 32]⟩ : Shape).Idx → EReal) (j : Fin 320),
      rowFeat W1 W2 (fun q => u (ix2 e q)) (fun q => ea (ix2 e q)) j = kFeat ea W u e j := fun u j => by
    unfold rowFeat kFeat rowLin kLin
    simp only [hW1, hW2]
  have hlog : ∀ h' : Fin 10, rowLogit (fun q => xr (ix2 e q)) (fun q => xc (ix2 e q)) (fun q => ea (ix2 e q)) W1 W2 ati atj sc sh h'
      = kLogit xr xc ea W att γ β μ v e h' := fun h' => by
    unfold rowLogit kLogit kLogit0
    simp only [hfeat, hati, hatj, hsc, hsh]
  unfold rowOut
  rw [hfeat, show rowLogit (fun q => xr (ix2 e q)) (fun q => xc (ix2 e q)) (fun q => ea (ix2 e q)) W1 W2 ati atj sc sh
      = fun h' => kLogit xr xc ea W att γ β μ v e h' from funext hlog]
  rfl

end Link

end Cert.EdgeAttn

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«173645_j47974784696359_2_alg».proof.Proof.LibContract
import proofs.«173645_j47974784696359_2_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.LibLayout3.lean ====
/-
  Layout operations of rank-2 and rank-3 arrays read at an index by coordinates, for any extents:
  a trailing or middle unit axis added to a matrix; a unit axis broadcast; a vector laid along the last axis of a rank-3 array;
  the two leading axes of a rank-3 array merged into one (row-major) and split again.
-/
import Idealize.ShloMosaic.Lib.Pipeline.Value
import Idealize.ShloMosaic.Lib.ValueIdx
import Idealize.ShloMosaic.Lib.ValueLayout

namespace Idealize.ShloMosaic.Layout3

open Idealize.ShloMosaic Idealize.ShloMosaic.ValueIdx

variable {α : Type}

/-- An `[a, b]` array cast to `[a, b, 1]` reads at `(i, j, u)` the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads at `(i, u, k)` the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads at `(u, v, k)` the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]; simp)

/-- An `[a, b, 1]` array broadcast to `[a, b, c]` reads at `(i, j, k)` the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (by
    intro d
    match d with
    | ⟨0, _⟩ =>
      show i.val = if a = 1 then 0 else i.val
      split
      · next e => have := i.isLt; omega
      · rfl
    | ⟨1, _⟩ =>
      show j.val = if b = 1 then 0 else j.val
      split
      · next e => have := j.isLt; omega
      · rfl
    | ⟨2, _⟩ => show (0 : ℕ) = if (1 : ℕ) = 1 then 0 else k.val; rw [if_pos rfl])

/-- An `[a, 1, c]` array broadcast to `[a, b, c]` reads at `(i, j, k)` the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (by
    intro d
    match d with
    | ⟨0, _⟩ =>
      show i.val = if a = 1 then 0 else i.val
      split
      · next e => have := i.isLt; omega
      · rfl
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- A `[1, 1, c]` array broadcast to `[a, b, c]` reads at `(i, j, k)` the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) :=
  broadcastTo_apply x h _ _ (by
    intro d
    match d with
    | ⟨0, _⟩ => show (0 : ℕ) = if (1 : ℕ) = 1 then 0 else i.val; rw [if_pos rfl]
    | ⟨1, _⟩ => show (0 : ℕ) = if (1 : ℕ) = 1 then 0 else j.val; rw [if_pos rfl]
    | ⟨2, _⟩ =>
      show k.val = if c = 1 then 0 else k.val
      split
      · next e => have := k.isLt; omega
      · rfl)

/-- An `[a, b, c]` array with its two leading axes merged, `[n, c]` with `n = a·b`, reads at row `i·b + j` the operand at
    `(i, j, ·)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- And split again: an `[n, c]` array cast to `[a, b, c]` reads at `(i, j, k)` the operand at row `i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.Layout3
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibLane3.lean ====
/-
  Float lane reductions over the LAST axis of a rank-3 array, read at an index on the extended reals, for any extents:
  over [a, b, c] into [a, b], at (i, j), a lane sum into the zero accumulator is the sum of the c entries (i, j, ·), and a
  lane maximum is the fold of max from the accumulator's value over those entries.
-/
import Idealize.ShloMosaic.PureOps.Ideal.Laws
import Idealize.ShloMosaic.Lib.ValueIdx

noncomputable section

open scoped BigOperators

namespace Idealize.ShloMosaic.Lane3

open Idealize.ShloMosaic Idealize.ShloMosaic.ValueIdx

/-- The reduced index `(i, j)` with the last coordinate `k` put back is `(i, j, k)`. -/
theorem lift_last {a b c : ℕ} (h : (⟨3, ![a, b, c]⟩ : Shape).Reduces [2] ⟨2, ![a, b]⟩)
    (i : Fin a) (j : Fin b) (k : Fin c) : h.lift (ix2 i j) k = ix3 i j k :=
  funext fun x => Fin.ext (by match x with | ⟨0, _⟩ => rfl | ⟨1, _⟩ => rfl | ⟨2, _⟩ => rfl)

/-- A lane sum over the last axis of an `[a, b, c]` array, at `(i, j)`: the sum of the entries `(i, j, ·)`. -/
theorem multiReduction_add_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last h i j k))

/-- A lane maximum over the last axis of an `[a, b, c]` array, at `(i, j)`: the fold of max over the entries `(i, j, ·)`. -/
theorem multiReduction_max_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) :=
  (Ideal.multiReduction_maximumf_single src acc h hφ hacc (ix2 i j)).trans
    (Finset.fold_congr fun k _ => congrArg src (lift_last h i j k))

end Idealize.ShloMosaic.Lane3

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibLeadSpread.lean ====
/-
  A table spread over a new leading axis, read at an index.

  A [b, c] table viewed as [1, b, c] (a shape cast that adds a leading unit axis) and broadcast to [a, b, c] reads at
  (i, j, k) the table's entry (j, k), for any extents and any entry type.
-/
import Idealize.ShloMosaic.Lib.Pipeline.Value
import Idealize.ShloMosaic.Lib.ValueIdx
import Idealize.ShloMosaic.Lib.ValueLayout

namespace Idealize.ShloMosaic.LeadSpread

open Idealize.ShloMosaic Idealize.ShloMosaic.ValueIdx

variable {α : Type}

/-- A `[1, b, c]` array broadcast to `[a, b, c]` reads at `(i, j, k)` the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) :=
  broadcastTo_apply x h _ _ (by
    intro d
    match d with
    | ⟨0, _⟩ => show (0 : ℕ) = if (1 : ℕ) = 1 then 0 else i.val; rw [if_pos rfl]
    | ⟨1, _⟩ =>
      show j.val = if b = 1 then 0 else j.val
      split
      · next e => have := j.isLt; omega
      · rfl
    | ⟨2, _⟩ =>
      show k.val = if c = 1 then 0 else k.val
      split
      · next e => have := k.isLt; omega
      · rfl)

/-- A `[b, c]` table viewed `[1, b, c]` and broadcast to `[a, b, c]` reads at `(i, j, k)` the table at `(j, k)`. -/
theorem table_spread_apply {a b c : ℕ} (x : (⟨2, ![b, c]⟩ : Shape).Idx → α)
    (h1 : (⟨2, ![b, c]⟩ : Shape).ShapeCasts ⟨3, ![1, b, c]⟩)
    (h2 : (⟨3, ![1, b, c]⟩ : Shape).Broadcasts ⟨3, ![a, b, c]⟩) (i : Fin a) (j : Fin b) (k : Fin c) :
    broadcastTo ⟨3, ![a, b, c]⟩ (shapeCast ⟨3, ![1, b, c]⟩ x h1) h2 (ix3 i j k) = x (ix2 j k) :=
  (broadcastTo_1bc_abc_apply _ h2 i j k).trans (shapeCast_ab_1ab_apply x h1 (0 : Fin 1) j k)

end Idealize.ShloMosaic.LeadSpread
-- ==== Proof.KernelRow.lean ====
/-
  The kernel body's stored block, entry by entry, is the per-row message function of the loaded blocks.
-/
import proofs.«173645_j47974784696359_2_alg».proof.Proof.Gen.KernelIdeal.Frame
import proofs.«173645_j47974784696359_2_alg».proof.Proof.EdgeRow
import proofs.«173645_j47974784696359_2_alg».proof.Proof.LibDenseVec
import proofs.«173645_j47974784696359_2_alg».proof.Proof.LibRegroup
import proofs.«173645_j47974784696359_2_alg».proof.Proof.LibLayout3
import proofs.«173645_j47974784696359_2_alg».proof.Proof.LibColumn
import proofs.«173645_j47974784696359_2_alg».proof.Proof.LibLane3
import proofs.«173645_j47974784696359_2_alg».proof.Proof.LibGram
import proofs.«173645_j47974784696359_2_alg».proof.Proof.LibRowSum
import proofs.«173645_j47974784696359_2_alg».proof.Proof.LibLeadSpread
import Idealize.ShloMosaic.Lib.ValueLayout
import Idealize.ShloMosaic.Lib.Pipeline.Value
import Idealize.ShloMosaic.Lib.ValueIdx
import Idealize.ShloMosaic.PureOps.Ideal.Laws

noncomputable section

namespace Cert.KernelRow

open Cert.KernelIdeal Cert.KernelIdeal.Gen Idealize.ShloMosaic Idealize.ShloMosaic.ValueIdx Cert.EdgeAttn

/-- The body's matrix products contract left axis 1 with right axis 0. -/
theorem plainDot : DenseVec.Plain dot_S800x32_S32x320_S800x320_1_0_0_1_n_n :=
  ⟨rfl, fun _ => rfl, rfl, rfl, fun _ _ => rfl, fun _ _ => rfl⟩

theorem pay2_apply (w : Vec Ideal S32x320 .f32) (i : S32x320.Idx) : k0_pay2 w i = w i := by
  unfold k0_pay2
  rw [shapeCast_self]
  rfl

/-- The edge-feature half product at (p, j). -/
theorem pay3_apply (x : Vec Ideal S800x32 .f32) (w : Vec Ideal S32x320 .f32) (p : Fin 800) (j : Fin 320) :
    k0_pay3 x w (ix2 p j) = ∑ k : Fin 32, x (ix2 p k) * w (ix2 k j) := by
  unfold k0_pay3
  rw [shapeCast_self]
  exact DenseVec.matmul_zero_ix2 plainDot none _ _ p j

/-- The rectified projection of a block's rows, viewed [800, 10, 32], at (p, h, k): the per-row feature at column 32h + k. -/
theorem pay4_apply (c x : Vec Ideal S800x32 .f32) (w1 w2 : Vec Ideal S32x320 .f32) (p : Fin 800) (h : Fin 10) (k : Fin 32) :
    k0_pay4 c x w1 w2 (ix3 p h k)
      = rowFeat w1 w2 (fun q => c (ix2 p q)) (fun q => x (ix2 p q)) (col h k) := by
  unfold k0_pay4
  rw [Regroup.shapeCast_splitLast_apply (by norm_num : 320 = 10 * 32) _ _ p h k (col h k) rfl]
  refine congrArg leaky ?_
  refine congrArg₂ (· + ·) ?_ (pay3_apply x w2 p (col h k))
  rw [shapeCast_self]
  refine (DenseVec.matmul_zero_ix2 plainDot none _ _ p (col h k)).trans ?_
  exact Finset.sum_congr rfl fun q _ => congrArg (c (ix2 p q) * ·) (pay2_apply w1 (ix2 q (col h k)))

/-- The source features times the first half of the attention table, at (p, h, k). -/
theorem pay6_apply (u x : Vec Ideal S800x32 .f32) (w1 w2 : Vec Ideal S32x320 .f32) (ati : Vec Ideal S10x32 .f32)
    (p : Fin 800) (h : Fin 10) (k : Fin 32) :
    k0_pay6 u x w1 w2 ati (ix3 p h k)
      = rowFeat w1 w2 (fun q => u (ix2 p q)) (fun q => x (ix2 p q)) (col h k) * ati (ix2 h k) := by
  unfold k0_pay6
  refine congrArg₂ (· * ·) ?_ ?_
  · rw [Regroup.shapeCast_splitLast_apply (by norm_num : 320 = 10 * 32) _ _ p h k (col h k) rfl]
    refine congrArg leaky ?_
    refine congrArg₂ (· + ·) ?_ (pay3_apply x w2 p (col h k))
    rw [shapeCast_self]
    refine (DenseVec.matmul_zero_ix2 plainDot none _ _ p (col h k)).trans ?_
    exact Finset.sum_congr rfl fun q _ => congrArg (u (ix2 p q) * ·) (pay2_apply w1 (ix2 q (col h k)))
  · rw [LeadSpread.table_spread_apply, shapeCast_self]

/-- The softmax of the ten columns of an `[n, 10]` matrix of logits as a vector program computes it — row maximum from −∞,
    shift, exponential, row sum, quotient — read at (p, h): the softmax weight of head h among row p's logits. -/
theorem weights_apply {n : ℕ} (z : FVec Ideal ⟨2, ![n, 10]⟩ .f32)
    (hr : (⟨2, ![n, 10]⟩ : Shape).Reduces [1] ⟨1, ![n]⟩) (hφ : FKind.Formats .f32)
    (hmax : (0xFF800000#32 : BitVec 32) = FKind.maximumf.neutral .f32 hφ)
    (hadd : (0x00000000#32 : BitVec 32) = FKind.add.neutral .f32 hφ)
    (c1 : (⟨1, ![n]⟩ : Shape).ShapeCasts ⟨2, ![n, 1]⟩) (b1 : (⟨2, ![n, 1]⟩ : Shape).Broadcasts ⟨2, ![n, 10]⟩)
    (p : Fin n) (h : Fin 10) :
    divf (exp (subf z (broadcastTo ⟨2, ![n, 10]⟩ (shapeCast ⟨2, ![n, 1]⟩
            (multiReduction .maximumf [1] ⟨1, ![n]⟩ z 0xFF800000#32 hr hφ hmax) c1) b1)))
        (broadcastTo ⟨2, ![n, 10]⟩ (shapeCast ⟨2, ![n, 1]⟩
          (multiReduction .add [1] ⟨1, ![n]⟩
            (exp (subf z (broadcastTo ⟨2, ![n, 10]⟩ (shapeCast ⟨2, ![n, 1]⟩
              (multiReduction .maximumf [1] ⟨1, ![n]⟩ z 0xFF800000#32 hr hφ hmax) c1) b1)))
            0x00000000#32 hr hφ hadd) c1) b1) (ix2 p h)
      = attnWeight (fun h' => z (ix2 p h')) h := by
  have hm : ∀ c : Fin 10, broadcastTo ⟨2, ![n, 10]⟩ (shapeCast ⟨2, ![n, 1]⟩
      (multiReduction .maximumf [1] ⟨1, ![n]⟩ z 0xFF800000#32 hr hφ hmax) c1) b1 (ix2 p c)
        = rowMax (fun h' => z (ix2 p h')) := fun c =>
    (broadcastTo_a1_ab_apply _ b1 p c).trans ((shapeCast_a_a1_apply _ c1 p (0 : Fin 1)).trans
      (Gram.multiReduction_max_rows_apply z _ hr hφ hmax p))
  have he : ∀ c : Fin 10, exp (subf z (broadcastTo ⟨2, ![n, 10]⟩ (shapeCast ⟨2, ![n, 1]⟩
      (multiReduction .maximumf [1] ⟨1, ![n]⟩ z 0xFF800000#32 hr hφ hmax) c1) b1)) (ix2 p c)
        = Ideal.exp (z (ix2 p c) - rowMax (fun h' => z (ix2 p h'))) := fun c =>
    congrArg (fun t => Ideal.exp (z (ix2 p c) - t)) (hm c)
  unfold attnWeight
  refine congrArg₂ Ideal.div (he h) ?_
  exact (broadcastTo_a1_ab_apply _ b1 p h).trans ((shapeCast_a_a1_apply _ c1 p (0 : Fin 1)).trans
    ((multiReduction_add_rows_apply _ hr hφ hadd p).trans (Finset.sum_congr rfl fun c _ => he c)))

/-- The stored value at (p, h, k): the target features times the softmax weight of head h among the row's normalised
    logits, each logit the rectified sum of the two half dot products times the scale plus the shift. -/
theorem pay1_apply (xj : FVec Ideal S800x10x32 .f32) (atj : FVec Ideal S10x32 .f32) (xa : FVec Ideal S800x10x32 .f32)
    (sc sh : Vec Ideal S1x10 .f32) (p : Fin 800) (h : Fin 10) (k : Fin 32) :
    k0_pay1 xj atj xa sc sh (ix3 p h k)
      = xj (ix3 p h k) * attnWeight (fun h' => leaky ((∑ k' : Fin 32, xa (ix3 p h' k'))
          + (∑ k' : Fin 32, xj (ix3 p h' k') * atj (ix2 h' k'))) * sc (ix2 0 h') + sh (ix2 0 h')) h := by
  unfold k0_pay1
  refine congrArg (xj (ix3 p h k) * ·) ?_
  refine (Layout3.broadcastTo_ab1_abc_apply _ _ p h k).trans ?_
  refine (Layout3.shapeCast_ab_ab1_apply _ _ p h (0 : Fin 1)).trans ?_
  refine (weights_apply _ _ _ _ _ _ _ p h).trans ?_
  refine congrArg (fun f => attnWeight f h) (funext fun h' => ?_)
  refine congrArg₂ (· + ·) (congrArg₂ (· * ·) (congrArg leaky ?_) ?_) ?_
  · refine congrArg₂ (· + ·) (Lane3.multiReduction_add_last_apply xa _ _ _ _ p h') ?_
    refine (Lane3.multiReduction_add_last_apply _ _ _ _ _ p h').trans ?_
    exact Finset.sum_congr rfl fun k' _ => congrArg (xj (ix3 p h' k') * ·) (LeadSpread.table_spread_apply atj _ _ p h' k')
  · rw [shapeCast_self]; exact broadcastTo_1b_ab_apply sc _ p h'
  · rw [shapeCast_self]; exact broadcastTo_1b_ab_apply sh _ p h'

theorem hz2 : (![0, 0] : Fin 2 → Nat) = fun _ => 0 := funext fun a => by fin_cases a <;> rfl
theorem hz3 : (![0, 0, 0] : Fin 3 → Nat) = fun _ => 0 := funext fun a => by fin_cases a <;> rfl

theorem pay5_apply (x : Vec Ideal S10x32 .f32) (i : S10x32.Idx) : k0_pay5 x i = x i := by
  unfold k0_pay5
  rw [shapeCast_self]

/-- WHAT THE BODY STORES: entry (p, h, k) of the output block is the message of the edge whose rows are row p of the
    three loaded row blocks, head h, entry k. -/
theorem out0_9_apply (x0 x1 x2 : Vec Ideal S800x32 .f32) (x3 x4 : Vec Ideal S32x320 .f32) (x5 x6 : Vec Ideal S10x32 .f32)
    (x7 x8 : Vec Ideal S1x10 .f32) (p : Fin 800) (h : Fin 10) (k : Fin 32) :
    out0_9 x0 x1 x2 x3 x4 x5 x6 x7 x8 (ix3 p h k)
      = rowOut (fun q => x0 (ix2 p q)) (fun q => x1 (ix2 p q)) (fun q => x2 (ix2 p q)) x3 x4 x5 x6 x7 x8 h k := by
  unfold out0_9
  rw [View.canon_unit_zero hz3]
  simp only [View.ld_unit_zero (S := S800x32) hz2, View.ld_unit_zero (S := S32x320) hz2,
    View.ld_unit_zero (S := S10x32) hz2, View.ld_unit_zero (S := S1x10) hz2]
  refine (pay1_apply _ _ _ _ _ p h k).trans ?_
  unfold rowOut
  refine congrArg₂ (· * ·) (pay4_apply x1 x2 x3 x4 p h k) (congrArg (fun f => attnWeight f h) (funext fun h' => ?_))
  unfold rowLogit
  refine congrArg (fun t => leaky t * x7 (ix2 0 h') + x8 (ix2 0 h')) ?_
  exact congrArg₂ (· + ·) (Finset.sum_congr rfl fun k' _ => pay6_apply x0 x2 x3 x4 x5 p h' k')
    (Finset.sum_congr rfl fun k' _ => congrArg₂ (· * ·) (pay4_apply x1 x2 x3 x4 p h' k') (pay5_apply x6 (ix2 h' k')))

end Cert.KernelRow

end
-- ==== Proof.KernelArray.lean ====
/-
  From blocks to the array: the kernel's output array after the run is, edge by edge, the per-row message function of
  the arrays its windows read.

  The grid has 500 points; point t reads rows 800t … 800t + 799 of the three row arrays (source rows, target rows, edge
  features), the whole of the six small operands, and writes rows 800t … 800t + 799 of the [400000, 10, 32] output.
  Every output row is in exactly the block of point ⌊row / 800⌋, so the blocks cover the array.
-/
import proofs.«173645_j47974784696359_2_alg».proof.Proof.Gen.KernelIdeal.Frame
import proofs.«173645_j47974784696359_2_alg».proof.Proof.KernelRow
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelArray

open Cert.KernelIdeal Cert.KernelIdeal.Gen Idealize.ShloMosaic.ValueIdx Cert.EdgeAttn

variable (m : (ℓ : Loc nD τ sig) → Buf (Elt Ideal) ℓ)

/-- The index maps of the three row windows and of the output, decided over the grid: block t on the row axis, block 0
    on the others. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 3) = t.val ∧ win0_9.index t (1 : Fin 3) = 0 ∧ win0_9.index t (2 : Fin 3) = 0 :=
  (by decide +kernel : ∀ t : Fin grid0.N, _)

/-- The six resident windows sit at block (0, 0) at every point. -/
theorem idx_res : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The edge that row p of point t's blocks belongs to. -/
def edge (t : Fin cfg0.N) (p : Fin 800) : Fin 400000 :=
  ⟨800 * t.val + p.val, by have hN : cfg0.N = 500 := N_0; have ht := t.isLt; have hp := p.isLt; omega⟩

theorem rows0 (c : Dev nD) (t : Fin cfg0.N) (p : Fin 800) (q : Fin 32) :
    (iblk m c 0 t : Vec Ideal S800x32 .f32) (ix2 p q) = (V m c main_v10 : S400000x32.Idx → EReal) (ix2 (edge t p) q) := by
  have h0 : win0_0.index t (0 : Fin 2) = t.val := (idx_rows t).1
  have h1 : win0_0.index t (1 : Fin 2) = 0 := (idx_rows t).2.1
  unfold iblk
  rw [View.read_apply]
  refine congrArg (V m c main_v10 : S400000x32.Idx → EReal) (funext fun a => Fin.ext ?_)
  match a with
  | ⟨0, _⟩ => show win0_0.index t (0 : Fin 2) * 800 + 1 * p.val = 800 * t.val + p.val; rw [h0]; omega
  | ⟨1, _⟩ => show win0_0.index t (1 : Fin 2) * 32 + 1 * q.val = q.val; rw [h1]; omega

theorem rows1 (c : Dev nD) (t : Fin cfg0.N) (p : Fin 800) (q : Fin 32) :
    (iblk m c 1 t : Vec Ideal S800x32 .f32) (ix2 p q) = (V m c main_v17 : S400000x32.Idx → EReal) (ix2 (edge t p) q) := by
  have h0 : win0_1.index t (0 : Fin 2) = t.val := (idx_rows t).2.2.1
  have h1 : win0_1.index t (1 : Fin 2) = 0 := (idx_rows t).2.2.2.1
  unfold iblk
  rw [View.read_apply]
  refine congrArg (V m c main_v17 : S400000x32.Idx → EReal) (funext fun a => Fin.ext ?_)
  match a with
  | ⟨0, _⟩ => show win0_1.index t (0 : Fin 2) * 800 + 1 * p.val = 800 * t.val + p.val; rw [h0]; omega
  | ⟨1, _⟩ => show win0_1.index t (1 : Fin 2) * 32 + 1 * q.val = q.val; rw [h1]; omega

theorem rows2 (c : Dev nD) (t : Fin cfg0.N) (p : Fin 800) (q : Fin 32) :
    (iblk m c 2 t : Vec Ideal S800x32 .f32) (ix2 p q) = (V m c main_arg2 : S400000x32.Idx → EReal) (ix2 (edge t p) q) := by
  have h0 : win0_2.index t (0 : Fin 2) = t.val := (idx_rows t).2.2.2.2.1
  have h1 : win0_2.index t (1 : Fin 2) = 0 := (idx_rows t).2.2.2.2.2.1
  unfold iblk
  rw [View.read_apply]
  refine congrArg (V m c main_arg2 : S400000x32.Idx → EReal) (funext fun a => Fin.ext ?_)
  match a with
  | ⟨0, _⟩ => show win0_2.index t (0 : Fin 2) * 800 + 1 * p.val = 800 * t.val + p.val; rw [h0]; omega
  | ⟨1, _⟩ => show win0_2.index t (1 : Fin 2) * 32 + 1 * q.val = q.val; rw [h1]; omega

theorem whole3 (c : Dev nD) (t : Fin cfg0.N) :
    (iblk m c 3 t : Vec Ideal S32x320 .f32) = (V m c main_v18 : S32x320.Idx → EReal) := by
  have h0 : win0_3.index t (0 : Fin 2) = 0 := (idx_res t).1
  have h1 : win0_3.index t (1 : Fin 2) = 0 := (idx_res t).2.1
  funext y
  unfold iblk
  rw [View.read_apply]
  refine congrArg (V m c main_v18 : S32x320.Idx → EReal) (funext fun a => Fin.ext ?_)
  match a with
  | ⟨0, _⟩ => show win0_3.index t (0 : Fin 2) * 32 + 1 * (y 0).val = (y 0).val; rw [h0]; omega
  | ⟨1, _⟩ => show win0_3.index t (1 : Fin 2) * 320 + 1 * (y 1).val = (y 1).val; rw [h1]; omega

theorem whole4 (c : Dev nD) (t : Fin cfg0.N) :
    (iblk m c 4 t : Vec Ideal S32x320 .f32) = (V m c main_v19 : S32x320.Idx → EReal) := by
  have h0 : win0_4.index t (0 : Fin 2) = 0 := (idx_res t).2.2.1
  have h1 : win0_4.index t (1 : Fin 2) = 0 := (idx_res t).2.2.2.1
  funext y
  unfold iblk
  rw [View.read_apply]
  refine congrArg (V m c main_v19 : S32x320.Idx → EReal) (funext fun a => Fin.ext ?_)
  match a with
  | ⟨0, _⟩ => show win0_4.index t (0 : Fin 2) * 32 + 1 * (y 0).val = (y 0).val; rw [h0]; omega
  | ⟨1, _⟩ => show win0_4.index t (1 : Fin 2) * 320 + 1 * (y 1).val = (y 1).val; rw [h1]; omega

theorem whole5 (c : Dev nD) (t : Fin cfg0.N) :
    (iblk m c 5 t : Vec Ideal S10x32 .f32) = (V m c main_v21 : S10x32.Idx → EReal) := by
  have h0 : win0_5.index t (0 : Fin 2) = 0 := (idx_res t).2.2.2.2.1
  have h1 : win0_5.index t (1 : Fin 2) = 0 := (idx_res t).2.2.2.2.2.1
  funext y
  unfold iblk
  rw [View.read_apply]
  refine congrArg (V m c main_v21 : S10x32.Idx → EReal) (funext fun a => Fin.ext ?_)
  match a with
  | ⟨0, _⟩ => show win0_5.index t (0 : Fin 2) * 10 + 1 * (y 0).val = (y 0).val; rw [h0]; omega
  | ⟨1, _⟩ => show win0_5.index t (1 : Fin 2) * 32 + 1 * (y 1).val = (y 1).val; rw [h1]; omega

theorem whole6 (c : Dev nD) (t : Fin cfg0.N) :
    (iblk m c 6 t : Vec Ideal S10x32 .f32) = (V m c main_v23 : S10x32.Idx → EReal) := by
  have h0 : win0_6.index t (0 : Fin 2) = 0 := (idx_res t).2.2.2.2.2.2.1
  have h1 : win0_6.index t (1 : Fin 2) = 0 := (idx_res t).2.2.2.2.2.2.2.1
  funext y
  unfold iblk
  rw [View.read_apply]
  refine congrArg (V m c main_v23 : S10x32.Idx → EReal) (funext fun a => Fin.ext ?_)
  match a with
  | ⟨0, _⟩ => show win0_6.index t (0 : Fin 2) * 10 + 1 * (y 0).val = (y 0).val; rw [h0]; omega
  | ⟨1, _⟩ => show win0_6.index t (1 : Fin 2) * 32 + 1 * (y 1).val = (y 1).val; rw [h1]; omega

theorem whole7 (c : Dev nD) (t : Fin cfg0.N) :
    (iblk m c 7 t : Vec Ideal S1x10 .f32) = (V m c main_v30 : S1x10.Idx → EReal) := by
  have h0 : win0_7.index t (0 : Fin 2) = 0 := (idx_res t).2.2.2.2.2.2.2.2.1
  have h1 : win0_7.index t (1 : Fin 2) = 0 := (idx_res t).2.2.2.2.2.2.2.2.2.1
  funext y
  unfold iblk
  rw [View.read_apply]
  refine congrArg (V m c main_v30 : S1x10.Idx → EReal) (funext fun a => Fin.ext ?_)
  match a with
  | ⟨0, _⟩ => show win0_7.index t (0 : Fin 2) * 1 + 1 * (y 0).val = (y 0).val; rw [h0]; omega
  | ⟨1, _⟩ => show win0_7.index t (1 : Fin 2) * 10 + 1 * (y 1).val = (y 1).val; rw [h1]; omega

theorem whole8 (c : Dev nD) (t : Fin cfg0.N) :
    (iblk m c 8 t : Vec Ideal S1x10 .f32) = (V m c main_v31 : S1x10.Idx → EReal) := by
  have h0 : win0_8.index t (0 : Fin 2) = 0 := (idx_res t).2.2.2.2.2.2.2.2.2.2.1
  have h1 : win0_8.index t (1 : Fin 2) = 0 := (idx_res t).2.2.2.2.2.2.2.2.2.2.2
  funext y
  unfold iblk
  rw [View.read_apply]
  refine congrArg (V m c main_v31 : S1x10.Idx → EReal) (funext fun a => Fin.ext ?_)
  match a with
  | ⟨0, _⟩ => show win0_8.index t (0 : Fin 2) * 1 + 1 * (y 0).val = (y 0).val; rw [h0]; omega
  | ⟨1, _⟩ => show win0_8.index t (1 : Fin 2) * 10 + 1 * (y 1).val = (y 1).val; rw [h1]; omega

/-- The output array as one function of the arrays the windows read: entry (e, h, k) is the message of the edge whose
    rows are row e of the three row arrays. -/
def msgArray (XR XC EA : S400000x32.Idx → EReal) (W1 W2 : S32x320.Idx → EReal) (ati atj : S10x32.Idx → EReal)
    (sc sh : S1x10.Idx → EReal) : S400000x10x32.Idx → EReal :=
  fun i => rowOut (fun q => XR (ix2 (i 0) q)) (fun q => XC (ix2 (i 0) q)) (fun q => EA (ix2 (i 0) q)) W1 W2 ati atj sc sh
    (i 1) (i 2)

/-- The array of messages built from the arrays as the region finds them. -/
abbrev messages (c : Dev nD) : S400000x10x32.Idx → EReal :=
  msgArray (V m c main_v10) (V m c main_v17) (V m c main_arg2) (V m c main_v18) (V m c main_v19) (V m c main_v21)
    (V m c main_v23) (V m c main_v30) (V m c main_v31)

/-- Entry (p, h, k) of point t's output block sits at (800t + p, h, k) of the array. -/
theorem emb9 (t : Fin cfg0.N) (p : Fin 800) (h : Fin 10) (k : Fin 32) :
    ((cfg0.win 9).blk t).view.emb (ix3 p h k) = ix3 (edge t p) h k := by
  have h0 : win0_9.index t (0 : Fin 3) = t.val := (idx_rows t).2.2.2.2.2.2.1
  have h1 : win0_9.index t (1 : Fin 3) = 0 := (idx_rows t).2.2.2.2.2.2.2.1
  have h2 : win0_9.index t (2 : Fin 3) = 0 := (idx_rows t).2.2.2.2.2.2.2.2
  funext a
  apply Fin.ext
  match a with
  | ⟨0, _⟩ => show win0_9.index t (0 : Fin 3) * 800 + 1 * p.val = 800 * t.val + p.val; rw [h0]; omega
  | ⟨1, _⟩ => show win0_9.index t (1 : Fin 3) * 10 + 1 * h.val = h.val; rw [h1]; omega
  | ⟨2, _⟩ => show win0_9.index t (2 : Fin 3) * 32 + 1 * k.val = k.val; rw [h2]; omega

/-- WHAT POINT t WRITES BACK is block t of the array of messages. -/
theorem flushed_eq (c : Dev nD) (t : Fin cfg0.N) :
    (dats m 0 c).flushed 9 t = ((cfg0.win 9).blk t).view.read (Elt Ideal) (messages m c) := by
  show (cfg0.win 9).cut (grid0.coords t) ((dats m 0 c).after 9 t) = _
  rw [after0_9]
  funext j
  obtain ⟨p, h, k, rfl⟩ : ∃ (p : Fin 800) (h : Fin 10) (k : Fin 32), j = ix3 p h k := ⟨j 0, j 1, j 2, eq_ix3 j⟩
  rw [View.read_apply, emb9]
  refine (KernelRow.out0_9_apply (iblk m c 0 t) (iblk m c 1 t) (iblk m c 2 t) (iblk m c 3 t) (iblk m c 4 t)
    (iblk m c 5 t) (iblk m c 6 t) (iblk m c 7 t) (iblk m c 8 t) p h k).trans ?_
  rw [whole3 m c t, whole4 m c t, whole5 m c t, whole6 m c t, whole7 m c t, whole8 m c t,
    show (fun q => (iblk m c 0 t : Vec Ideal S800x32 .f32) (ix2 p q)) = fun q => (V m c main_v10 : S400000x32.Idx → EReal) (ix2 (edge t p) q)
      from funext fun q => rows0 m c t p q,
    show (fun q => (iblk m c 1 t : Vec Ideal S800x32 .f32) (ix2 p q)) = fun q => (V m c main_v17 : S400000x32.Idx → EReal) (ix2 (edge t p) q)
      from funext fun q => rows1 m c t p q,
    show (fun q => (iblk m c 2 t : Vec Ideal S800x32 .f32) (ix2 p q)) = fun q => (V m c main_arg2 : S400000x32.Idx → EReal) (ix2 (edge t p) q)
      from funext fun q => rows2 m c t p q]
  rfl

/-- An index of the output array is in point t's block iff each coordinate is in the block's range on its axis. -/
theorem mem_blk9 (t : Fin cfg0.N) (i : S400000x10x32.Idx) :
    i ∈ ((cfg0.win 9).blk t).view.set ↔ ∀ a : Fin 3, win0_9.index t a * S800x10x32.size a ≤ (i a).val
      ∧ (i a).val < win0_9.index t a * S800x10x32.size a + S800x10x32.size a := by
  show i ∈ ((View.whole main_v32).slice (win0_9.rect t)).set ↔ _
  rw [View.set_slice_whole, Rect.mem_set_unit]
  exact Iff.rfl

/-- Row e of the output is in the block of point ⌊e / 800⌋: the 500 blocks cover the array. -/
theorem cover (i : S400000x10x32.Idx) :
    ∃ t : Fin cfg0.N, (cfg0.win 9).flush t = true ∧ i ∈ ((cfg0.win 9).blk t).view.set := by
  have hi0 : (i 0).val < 400000 := (i 0).isLt
  have hi1 : (i 1).val < 10 := (i 1).isLt
  have hi2 : (i 2).val < 32 := (i 2).isLt
  have hN : cfg0.N = 500 := N_0
  have hlt : (i 0).val / 800 < cfg0.N := by rw [hN]; omega
  refine ⟨⟨(i 0).val / 800, hlt⟩, flush0_9 _, ?_⟩
  rw [mem_blk9]
  obtain ⟨-, -, -, -, -, -, h0, h1, h2⟩ := idx_rows ⟨(i 0).val / 800, hlt⟩
  intro a
  match a with
  | ⟨0, _⟩ =>
    show win0_9.index ⟨(i 0).val / 800, hlt⟩ (0 : Fin 3) * 800 ≤ (i 0).val
      ∧ (i 0).val < win0_9.index ⟨(i 0).val / 800, hlt⟩ (0 : Fin 3) * 800 + 800
    rw [h0]; show (i 0).val / 800 * 800 ≤ (i 0).val ∧ (i 0).val < (i 0).val / 800 * 800 + 800; omega
  | ⟨1, _⟩ =>
    show win0_9.index ⟨(i 0).val / 800, hlt⟩ (1 : Fin 3) * 10 ≤ (i 1).val
      ∧ (i 1).val < win0_9.index ⟨(i 0).val / 800, hlt⟩ (1 : Fin 3) * 10 + 10
    rw [h1]; omega
  | ⟨2, _⟩ =>
    show win0_9.index ⟨(i 0).val / 800, hlt⟩ (2 : Fin 3) * 32 ≤ (i 2).val
      ∧ (i 2).val < win0_9.index ⟨(i 0).val / 800, hlt⟩ (2 : Fin 3) * 32 + 32
    rw [h2]; omega

/-- THE OUTPUT ARRAY after the run is the array of messages. -/
theorem final (c : Dev nD) : (dats m 0 c).arrAt 9 cfg0.N = messages m c :=
  (dats m 0 c).arrAt_eq_of_cover 9 (messages m c) (fun t _ => flushed_eq m c t) cover

end Cert.KernelArray

end
-- ==== Proof.KernelPrefix.lean ====
/-
  What the host operations before the region leave in the buffers the region's windows read.

  Before its one region the program computes, from its ten arguments:
    • the two halves (rows 0–31 and rows 32–63) of the 64 × 320 weight matrix;
    • the two halves (entries 0–31 and 32–63 of each head) of the 1 × 10 × 64 attention table, as 10 × 32 matrices;
    • the folded normalisation scale γ · rsqrt(v + ε) and shift β − μ · (γ · rsqrt(v + ε)) of each of the ten heads,
      as 1 × 10 rows;
    • the node rows gathered at the edges' source and target indices (a negative index is first moved up by the
      number of nodes, 25000).
  Each is read here off the sequence of operations: the buffer's contents when the region is entered are the
  operations' composed term over the launch contents of the arguments, and that term is then read entry by entry.
-/
import proofs.«173645_j47974784696359_2_alg».proof.Proof.Gen.KernelIdeal.Frame
import proofs.«173645_j47974784696359_2_alg».proof.Proof.EdgeAttn
import Idealize.ShloMosaic.Lib.ValueLayout
import Idealize.ShloMosaic.Lib.ValueIdx

noncomputable section

namespace Cert.KernelPrefix

open Idealize.ShloMosaic Idealize.ShloMosaic.ValueIdx Idealize.ShloMosaic.TcCoe Idealize.ShloMosaic.Tactic
open Idealize.SL.Sem
open Cert.KernelIdeal Cert.KernelIdeal.Gen

/-! ## The gathered node rows, as named terms -/

/-- Row `r` (0: sources, 1: targets) of the 2 × 400000 index array as a vector of 400000 indices, a negative index moved
    up by 25000, as a 400000 × 1 column of start indices. -/
def startsOf (r : IVec S400000 32) : IVec S400000x1 32 :=
  broadcastInDim S400000x1 ![0] Facts₀.bcast_S400000_S400000x1_0
    (select (cmpi .slt r (broadcastInDim S400000 ![] Facts₀.bcast_S_S400000 (constantI S_ 32 0#32)))
      (addi r (broadcastInDim S400000 ![] Facts₀.bcast_S_S400000 (constantI S_ 32 25000#32)))
      r)

/-- The node rows gathered at the edges' SOURCE indices (row 0 of the index array). -/
def rowsAt (x : FVec Ideal S25000x32 .f32) (idx : IVec S2x400000 32) : FVec Ideal S400000x32 .f32 :=
  Host.gather gather_S25000x32_S400000x1_S400000x32_1_0_n_n_0_1_132 x
    (startsOf (shapeCast S400000 (extractStridedSlice S1x400000 ![0, 0] idx Facts₀.slices_S2x400000_S1x400000_0_0)
      Facts₀.shapeCasts_S1x400000_S400000))

/-- The node rows gathered at the edges' TARGET indices (row 1 of the index array). -/
def colsAt (x : FVec Ideal S25000x32 .f32) (idx : IVec S2x400000 32) : FVec Ideal S400000x32 .f32 :=
  Host.gather gather_S25000x32_S400000x1_S400000x32_1_0_n_n_0_1_132 x
    (startsOf (shapeCast S400000 (extractStridedSlice S1x400000 ![1, 0] idx Facts₀.slices_S2x400000_S1x400000_1_0)
      Facts₀.shapeCasts_S1x400000_S400000))

variable (m : (ℓ : Loc nD τ sig) → Buf (Elt Ideal) ℓ) (c : Dev nD)

/-- The buffer of the source rows holds `rowsAt` of the node array and the index array as launched. -/
theorem V_main_v10 : (V m c main_v10 : S400000x32.Idx → EReal)
    = rowsAt (m ((c : Thread nD τ).loc main_arg0)) (m ((c : Thread nD τ).loc main_arg1)) := by
  show StableHlo.after hostOps0 (fun b => m (c, b)) (Proc.devRef .tc main_v10) = _
  after_results_simp <;> rfl

/-- The buffer of the target rows holds `colsAt` of the node array and the index array as launched. -/
theorem V_main_v17 : (V m c main_v17 : S400000x32.Idx → EReal)
    = colsAt (m ((c : Thread nD τ).loc main_arg0)) (m ((c : Thread nD τ).loc main_arg1)) := by
  show StableHlo.after hostOps0 (fun b => m (c, b)) (Proc.devRef .tc main_v17) = _
  after_results_simp <;> rfl

/-! ## The two halves of the weight matrix -/

theorem V_main_v18_eq : (V m c main_v18 : S32x320.Idx → EReal)
    = extractStridedSlice S32x320 ![0, 0] (m ((c : Thread nD τ).loc main_arg3) : S64x320.Idx → EReal)
        Facts₀.slices_S64x320_S32x320_0_0 := by
  show StableHlo.after hostOps0 (fun b => m (c, b)) (Proc.devRef .tc main_v18) = _
  after_results_simp <;> rfl

/-- Rows 0–31 of the weight matrix. -/
theorem V_main_v18 (k : Fin 32) (j : Fin 320) : (V m c main_v18 : S32x320.Idx → EReal) (ix2 k j)
    = (m ((c : Thread nD τ).loc main_arg3) : S64x320.Idx → EReal) (ix2 (Cert.EdgeAttn.lo k) j) :=
  (congrFun (V_main_v18_eq m c) (ix2 k j)).trans
    (slice2_axis0_apply 0 _ _ k j (Cert.EdgeAttn.lo k) (Nat.zero_add _).symm)

theorem V_main_v19_eq : (V m c main_v19 : S32x320.Idx → EReal)
    = extractStridedSlice S32x320 ![32, 0] (m ((c : Thread nD τ).loc main_arg3) : S64x320.Idx → EReal)
        Facts₀.slices_S64x320_S32x320_32_0 := by
  show StableHlo.after hostOps0 (fun b => m (c, b)) (Proc.devRef .tc main_v19) = _
  after_results_simp <;> rfl

/-- Rows 32–63 of the weight matrix. -/
theorem V_main_v19 (k : Fin 32) (j : Fin 320) : (V m c main_v19 : S32x320.Idx → EReal) (ix2 k j)
    = (m ((c : Thread nD τ).loc main_arg3) : S64x320.Idx → EReal) (ix2 (Cert.EdgeAttn.hi k) j) :=
  (congrFun (V_main_v19_eq m c) (ix2 k j)).trans
    (slice2_axis0_apply 32 _ _ k j (Cert.EdgeAttn.hi k) rfl)

/-! ## The two halves of the attention table -/

/-- A 1 × 10 × 64 array cut along its last axis from `o` reads, at `(a, h, k)`, the source at `(a, h, q)` with
    `q = o + k`. -/
theorem slice3_axis2_apply {α : Type} {n0 n1 n2 w : Nat} (o : Nat) (X : (⟨3, ![n0, n1, n2]⟩ : Shape).Idx → α)
    (h : (⟨3, ![n0, n1, n2]⟩ : Shape).Slices ![0, 0, o] ⟨3, ![n0, n1, w]⟩)
    (a : Fin n0) (b : Fin n1) (k : Fin w) (q : Fin n2) (hq : q.val = o + k.val) :
    extractStridedSlice ⟨3, ![n0, n1, w]⟩ ![0, 0, o] X h (ix3 a b k) = X (ix3 a b q) :=
  extractStridedSlice_apply _ _ _ _ _ (fun ax => by
    match ax with
    | ⟨0, _⟩ => exact (Nat.zero_add _).symm
    | ⟨1, _⟩ => exact (Nat.zero_add _).symm
    | ⟨2, _⟩ => exact hq)

theorem V_main_v21_eq : (V m c main_v21 : S10x32.Idx → EReal)
    = shapeCast S10x32 (extractStridedSlice S1x10x32 ![0, 0, 0]
        (m ((c : Thread nD τ).loc main_arg4) : S1x10x64.Idx → EReal) Facts₀.slices_S1x10x64_S1x10x32_0_0_0)
        Facts₀.shapeCasts_S1x10x32_S10x32 := by
  show StableHlo.after hostOps0 (fun b => m (c, b)) (Proc.devRef .tc main_v21) = _
  after_results_simp <;> rfl

/-- Entries 0–31 of each head of the attention table. -/
theorem V_main_v21 (h : Fin 10) (k : Fin 32) : (V m c main_v21 : S10x32.Idx → EReal) (ix2 h k)
    = (m ((c : Thread nD τ).loc main_arg4) : S1x10x64.Idx → EReal) (ix3 0 h (Cert.EdgeAttn.lo k)) :=
  (congrFun (V_main_v21_eq m c) (ix2 h k)).trans
    ((shapeCast_1ab_ab_apply _ _ h k).trans
      (slice3_axis2_apply 0 _ _ (0 : Fin 1) h k (Cert.EdgeAttn.lo k) (Nat.zero_add _).symm))

theorem V_main_v23_eq : (V m c main_v23 : S10x32.Idx → EReal)
    = shapeCast S10x32 (extractStridedSlice S1x10x32 ![0, 0, 32]
        (m ((c : Thread nD τ).loc main_arg4) : S1x10x64.Idx → EReal) Facts₀.slices_S1x10x64_S1x10x32_0_0_32)
        Facts₀.shapeCasts_S1x10x32_S10x32 := by
  show StableHlo.after hostOps0 (fun b => m (c, b)) (Proc.devRef .tc main_v23) = _
  after_results_simp <;> rfl

/-- Entries 32–63 of each head of the attention table. -/
theorem V_main_v23 (h : Fin 10) (k : Fin 32) : (V m c main_v23 : S10x32.Idx → EReal) (ix2 h k)
    = (m ((c : Thread nD τ).loc main_arg4) : S1x10x64.Idx → EReal) (ix3 0 h (Cert.EdgeAttn.hi k)) :=
  (congrFun (V_main_v23_eq m c) (ix2 h k)).trans
    ((shapeCast_1ab_ab_apply _ _ h k).trans
      (slice3_axis2_apply 32 _ _ (0 : Fin 1) h k (Cert.EdgeAttn.hi k) rfl))

/-! ## The folded normalisation: scale and shift of each head -/

theorem V_main_v30_eq : (V m c main_v30 : S1x10.Idx → EReal)
    = shapeCast S1x10
        (mulf (m ((c : Thread nD τ).loc main_arg6) : FVec Ideal S10 .f32)
          (Host.rsqrt (addf (m ((c : Thread nD τ).loc main_arg9) : FVec Ideal S10 .f32)
            (broadcastInDim S10 ![] Facts₀.bcast_S_S10 (constant (F := Ideal) S_ .f32 0x3727C5AC#32)))))
        Facts₀.shapeCasts_S10_S1x10 := by
  show StableHlo.after hostOps0 (fun b => m (c, b)) (Proc.devRef .tc main_v30) = _
  after_results_simp <;> rfl

/-- The scale γ · rsqrt(v + ε) of head `h`. -/
theorem V_main_v30 (h : Fin 10) : (V m c main_v30 : S1x10.Idx → EReal) (ix2 0 h)
    = Cert.EdgeAttn.kScale (m ((c : Thread nD τ).loc main_arg6)) (m ((c : Thread nD τ).loc main_arg9)) h :=
  (congrFun (V_main_v30_eq m c) (ix2 0 h)).trans ((shapeCast_a_1a_apply _ _ (0 : Fin 1) h).trans rfl)

theorem V_main_v31_eq : (V m c main_v31 : S1x10.Idx → EReal)
    = shapeCast S1x10
        (subf (m ((c : Thread nD τ).loc main_arg7) : FVec Ideal S10 .f32)
          (mulf (m ((c : Thread nD τ).loc main_arg8) : FVec Ideal S10 .f32)
            (mulf (m ((c : Thread nD τ).loc main_arg6) : FVec Ideal S10 .f32)
              (Host.rsqrt (addf (m ((c : Thread nD τ).loc main_arg9) : FVec Ideal S10 .f32)
                (broadcastInDim S10 ![] Facts₀.bcast_S_S10 (constant (F := Ideal) S_ .f32 0x3727C5AC#32)))))))
        Facts₀.shapeCasts_S10_S1x10 := by
  show StableHlo.after hostOps0 (fun b => m (c, b)) (Proc.devRef .tc main_v31) = _
  after_results_simp <;> rfl

/-- The shift β − μ · (γ · rsqrt(v + ε)) of head `h`. -/
theorem V_main_v31 (h : Fin 10) : (V m c main_v31 : S1x10.Idx → EReal) (ix2 0 h)
    = Cert.EdgeAttn.kShift (m ((c : Thread nD τ).loc main_arg6)) (m ((c : Thread nD τ).loc main_arg7))
        (m ((c : Thread nD τ).loc main_arg8)) (m ((c : Thread nD τ).loc main_arg9)) h :=
  (congrFun (V_main_v31_eq m c) (ix2 0 h)).trans ((shapeCast_a_1a_apply _ _ (0 : Fin 1) h).trans rfl)

end Cert.KernelPrefix

end
-- ==== Proof.KernelTail.lean ====
/-
  What the host operations after the region compute from the region's output.

  After its one region the program takes the region's output array (one message of 10 heads × 32 entries per edge),
  lays each edge's message out as one row of 320 entries, adds the rows into a zero table of 25000 × 320 at the edges'
  source-row indices (a scatter-add), reads the table as 25000 × 10 × 32, sums over the ten heads from zero, divides by
  ten, and adds the bias vector to every row.  The composed term of these operations is named here (`kernTail`), as a
  function of the message array, the row-index vector and the bias; the final contents of the result buffer are that
  term at the region's output array, the index array's row 0 and the bias as launched.  With the generated frame run
  this gives the program's run: the result buffer holds `kernTail` of those, and every argument buffer ends as launched.
-/
import proofs.«173645_j47974784696359_2_alg».proof.Proof.Gen.KernelIdeal.Frame
import Idealize.ShloMosaic.PureOps.Ideal

noncomputable section

namespace Cert.KernelTail

open Idealize.ShloMosaic Idealize.ShloMosaic.TcCoe Idealize.ShloMosaic.Tactic
open Idealize.SL.Sem
open Idealize.ShloMosaic.Pipeline (Dat)
open Cert.KernelIdeal Cert.KernelIdeal.Gen

/-- Row 0 of the 2 × 400000 index array as a vector of 400000 indices: the edges' source rows. -/
def rowIdx (idx : IVec S2x400000 32) : IVec S400000 32 :=
  shapeCast S400000 (extractStridedSlice S1x400000 ![0, 0] idx Facts₀.slices_S2x400000_S1x400000_0_0)
    Facts₀.shapeCasts_S1x400000_S400000

/-- The operations after the region, composed: the messages laid out one row of 320 per edge, scatter-added into a zero
    table at the row indices, summed over the ten heads, divided by ten, the bias added to every row. -/
def kernTail (msg : FVec Ideal S400000x10x32 .f32) (rows : IVec S400000 32) (bias : FVec Ideal S32 .f32) :
    FVec Ideal S25000x32 .f32 :=
  addf
    (Host.divf
      (Host.reduceAdd
        (shapeCast S25000x10x32
          (Host.scatterAdd scatter_S25000x320_S400000x1_S400000x320_1_0_0_1
            (broadcastInDim S25000x320 ![] Facts₀.bcast_S_S25000x320 (constant (F := Ideal) S_ .f32 0x00000000#32))
            (broadcastInDim S400000x1 ![0] Facts₀.bcast_S400000_S400000x1_0 rows)
            (shapeCast S400000x320
              (transpose S10x400000x32 [1, 0, 2] msg Facts₀.transposes_S400000x10x32_S10x400000x32_1_0_2)
              Facts₀.shapeCasts_S10x400000x32_S400000x320))
          Facts₀.shapeCasts_S25000x320_S25000x10x32)
        (constant (F := Ideal) S_ .f32 0x00000000#32) Facts₀.reducesTo_S25000x10x32_S25000x32_d1 Facts₀.h_S_)
      (broadcastInDim S25000x32 ![] Facts₀.bcast_S_S25000x32 (constant (F := Ideal) S_ .f32 0x41200000#32)))
    (broadcastInDim S25000x32 ![0, 1] Facts₀.bcast_S1x32_S25000x32_0_1
      (broadcastInDim S1x32 ![1] Facts₀.bcast_S32_S1x32_1 bias))

variable (m : (ℓ : Loc nD τ sig) → Buf (Elt Ideal) ℓ) (ρ : Dev nD → PrngReg) (c : Dev nD)

/-- When the region is entered the row-index buffer holds row 0 of the index array as launched. -/
theorem V_main_v1 : (V m c main_v1 : S400000.Idx → BitVec 32) = rowIdx (m ((c : Thread nD τ).loc main_arg1)) := by
  show StableHlo.after hostOps0 (fun b => m (c, b)) (Proc.devRef .tc main_v1) = _
  after_results_simp <;> rfl

/-- The result buffer after the operations that follow the region: `kernTail` of the region's output array, the
    row indices and the bias. The region's output array is the one array among the three buffers the operations read
    that the region writes; the row-index buffer and the bias are as the region found them. -/
theorem tail_eq : Pipeline.afterTail₀ cfgs (dats m) 0 (V0 m) [hostOps1] c main_v44
    = kernTail ((dats m 0 c).arrAt 9 cfg0.N) (rowIdx (m ((c : Thread nD τ).loc main_arg1)))
        (m ((c : Thread nD τ).loc main_arg5)) := by
  have h9 : Pipeline.withArrays (cfgs 0).spec c (V0 m c) (fun w => (dats m 0 c).arrAt w (cfgs 0).N)
      (Proc.devRef .tc main_v32) = (dats m 0 c).arrAt 9 cfg0.N :=
    Pipeline.withArrays_arr spec0 launch0.win.arr_inj c _ _ 9
  have h1 : Pipeline.withArrays (cfgs 0).spec c (V0 m c) (fun w => (dats m 0 c).arrAt w (cfgs 0).N)
      (Proc.devRef .tc main_v1) = rowIdx (m ((c : Thread nD τ).loc main_arg1)) :=
    (Pipeline.withArrays_of_ne _ c (V0 m c) _ main_v1
      (by exact (by decide : ∀ w, Pipeline.arrRef spec0 w ≠ main_v1))).trans (V_main_v1 m c)
  have h5 : Pipeline.withArrays (cfgs 0).spec c (V0 m c) (fun w => (dats m 0 c).arrAt w (cfgs 0).N)
      (Proc.devRef .tc main_arg5) = m ((c : Thread nD τ).loc main_arg5) :=
    (Pipeline.withArrays_of_ne _ c (V0 m c) _ main_arg5
      (by exact (by decide : ∀ w, Pipeline.arrRef spec0 w ≠ main_arg5))).trans (V_main_arg5 m c)
  unfold Pipeline.afterTail₀
  show StableHlo.after hostOps1 _ (Proc.devRef .tc main_v44) = _
  after_results_simp
  rw [h9, h1, h5]
  rfl

/-- THE RUN: every weakly fair execution of the program terminates; at the end the result buffer holds `kernTail` of the
    region's output array, the row indices and the bias, and every argument buffer holds what it was launched with. -/
theorem kernel_run : θ_run defs (onTc (τ := τ) (main (F := Ideal))) ⟨m, fun _ => 0, ρ⟩ (fun r => ∀ c : Dev nD,
      r.2.mem ((c.tc : Thread nD τ).loc main_v44)
        = kernTail ((dats m 0 c).arrAt 9 cfg0.N) (rowIdx (m ((c.tc : Thread nD τ).loc main_arg1)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v44 (Pipeline.mem_restRefs_of main_v44 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.KernelTail

end
-- ==== Proof.KernelValue.lean ====
/-
  The kernel program's result as a function of its arguments.

  The region's output array is the array of messages (one per edge, head and entry), each the split form of the
  attention-weighted message of the edge's gathered source row, gathered target row and edge features; the host
  operations after the region (regrouping by head, the sum over the edges of each node, the mean over heads, the bias)
  are applied to it as one function.
-/
import proofs.«173645_j47974784696359_2_alg».proof.Proof.KernelArray
import proofs.«173645_j47974784696359_2_alg».proof.Proof.KernelPrefix
import proofs.«173645_j47974784696359_2_alg».proof.Proof.KernelTail

noncomputable section

open Idealize.ShloMosaic Idealize.ShloMosaic.TcCoe Idealize.SL.Sem

namespace Cert.KernelValue

open Cert.KernelIdeal Cert.KernelIdeal.Gen Idealize.ShloMosaic.ValueIdx Cert.EdgeAttn

variable (m : (ℓ : Loc nD τ sig) → Buf (Elt Ideal) ℓ) (ρ : Dev nD → PrngReg)

/-- The array of messages, over the arguments: the window arrays are the two gathers of the node features, the edge
    features, the halves of the weight matrix and of the attention table, and the folded scale and shift. -/
theorem messages_eq (c : Dev nD) :
    KernelArray.messages m c = kOut (KernelPrefix.rowsAt (m ((c : Thread nD τ).loc main_arg0)) (m ((c : Thread nD τ).loc main_arg1))) (KernelPrefix.colsAt (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) := by
  funext i
  obtain ⟨e, h, k, rfl⟩ : ∃ (e : Fin 400000) (h : Fin 10) (k : Fin 32), i = ix3 e h k := ⟨i 0, i 1, i 2, eq_ix3 i⟩
  show rowOut (fun q => (V m c main_v10 : S400000x32.Idx → EReal) (ix2 e q)) (fun q => (V m c main_v17 : S400000x32.Idx → EReal) (ix2 e q))
    (fun q => (V m c main_arg2 : S400000x32.Idx → EReal) (ix2 e q)) (V m c main_v18) (V m c main_v19) (V m c main_v21) (V m c main_v23)
    (V m c main_v30) (V m c main_v31) h k = _
  rw [KernelPrefix.V_main_v10 m c, KernelPrefix.V_main_v17 m c, V_main_arg2 m c]
  exact rowOut_eq_kOut _ _ _ _ _ _ _ _ _ _ _ _ _ _ _ (KernelPrefix.V_main_v18 m c) (KernelPrefix.V_main_v19 m c)
    (KernelPrefix.V_main_v21 m c) (KernelPrefix.V_main_v23 m c) (KernelPrefix.V_main_v30 m c) (KernelPrefix.V_main_v31 m c) e h k

/-- THE RUN, READ: every weakly fair execution ends with the result at the tail of the array of messages, the arguments
    unchanged. -/
theorem run : θ_run defs (onTc (τ := τ) (main (F := Ideal))) ⟨m, fun _ => 0, ρ⟩ (fun r => ∀ c : Dev nD,
      r.2.mem ((c.tc : Thread nD τ).loc main_v44)
        = KernelTail.kernTail (kOut (KernelPrefix.rowsAt (m ((c.tc : Thread nD τ).loc main_arg0)) (m ((c.tc : Thread nD τ).loc main_arg1))) (KernelPrefix.colsAt (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)))
            (KernelTail.rowIdx (m ((c.tc : Thread nD τ).loc main_arg1))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (by rw [KernelArray.final m c, messages_eq m c]), (h c).2⟩)
    (KernelTail.kernel_run m ρ)

end Cert.KernelValue

end
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.LibHostRows.lean ====
/-
  The host's reductions along the rows of a matrix, read at a row, on the extended reals and for any extents.

  A `stablehlo.reduce` over axis 1 of an [n, k] matrix whose body takes the larger of two values is, at row r, the
  fold of max from the initial value over the row's k entries; one whose body adds is the initial value plus the sum
  of the row's k entries.
-/
import Idealize.ShloMosaic.PureOps.Ideal.Laws
import Idealize.ShloMosaic.Lib.ValueIdx

noncomputable section

open scoped BigOperators

namespace Idealize.ShloMosaic.HostRows

open Idealize.ShloMosaic Idealize.ShloMosaic.ValueIdx

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- On the extended reals the float maximum is the order's. -/
theorem maximumf_eq_max : (FloatOps.maximumf (F := Ideal) (φ := .f32)) = (max : EReal → EReal → EReal) := by
  funext x y; rfl

/-- A host reduce with max over the columns of an `[n, k]` matrix, at row `r`: the fold of max over that row. -/
theorem reduce_max_rows_apply {n k : ℕ} (z : (⟨2, ![n, k]⟩ : Shape).Idx → EReal) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce (max : EReal → EReal → EReal) z init h' hu (ix1 r)
      = (Finset.univ : Finset (Fin k)).fold max (init (Shape.Idx.first hu)) (fun c => z (ix2 r c)) :=
  (Host.reduce_eq_fold_single max z init h' h hu (ix1 r)).trans
    (Finset.fold_congr fun c _ => congrArg z (lift_rows h r c))

/-- A host reduce with add over the columns of an `[n, k]` matrix, at row `r`: the initial value plus the row's sum. -/
theorem reduceAdd_rows_apply {n k : ℕ} (x : FVec Ideal ⟨2, ![n, k]⟩ .f32) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduceAdd (F := Ideal) (φ := .f32) x init h' hu (ix1 r) = init (Shape.Idx.first hu) + ∑ c : Fin k, x (ix2 r c) := by
  show Ideal.hostReduceAdd h' x (init (Shape.Idx.first hu)) (ix1 r) = _
  rw [Ideal.hostReduceAdd_single h' h]
  exact congrArg (init (Shape.Idx.first hu) + ·) (Finset.sum_congr rfl fun c _ => congrArg x (lift_rows h r c))

end Idealize.ShloMosaic.HostRows

end
-- ==== Proof.RefMessage.lean ====
/-
  The reference program's array of messages, read index by index.

  For an edge e the program gathers the node features at the edge's two endpoints (the source row and the target row;
  both are kept here as opaque arrays `XR`, `XC` of the node features and the index rows), joins each with the edge's
  own features into a row of 64, multiplies by the 64 × 320 weight matrix, applies the leaky rectifier and regroups the
  320 columns row-major into 10 heads of 32 entries.  Per head it joins the source and target features into 64
  positions, weights them by the attention table and sums: the logit.  The logit is rectified and normalised as
  ((x − mean) · rsqrt(variance + ε)) · scale + shift, the ten logits of an edge go through a softmax shifted by their
  maximum, and the message of (edge, head, entry) is the target feature times the head's weight.

  Each step below reads one stage of that computation at explicit coordinates (e, h, k): a reshape by row-major
  arithmetic (entry (e, h, k) of [400000, 10, 32] is column 32·h + k of [400000, 320]), a broadcast by dropping the
  broadcast coordinates, a join by cases on the position being below 32, a sum from the zero word as the sum, and the
  row maximum as the fold of max — the program takes the maximum with the fold's starting word once more, which
  changes nothing because a fold of max is at least its starting value.  Chained, the stages give the joined form
  `rOut` of the attention-weighted edge message.  The rest of the program (from the messages to the result) is
  wrapped whole in `refTail` and not read.
-/
import proofs.«173645_j47974784696359_2_alg».proof.Proof.RefReadP
import proofs.«173645_j47974784696359_2_alg».proof.Proof.EdgeAttn
import proofs.«173645_j47974784696359_2_alg».proof.Proof.LibJoinCols
import proofs.«173645_j47974784696359_2_alg».proof.Proof.LibHostRows

noncomputable section

namespace Cert.RefMessage

open Cert.ReferenceIdeal Cert.ReferenceIdeal.Gen Cert.ReferenceIdeal.ReadP Idealize.ShloMosaic Idealize.ShloMosaic.ValueIdx Cert.EdgeAttn

variable (a0 : FVec Ideal S25000x32 .f32) (a1 : IVec S2x400000 32) (a2 : FVec Ideal S400000x32 .f32)
  (a3 : FVec Ideal S64x320 .f32) (a4 : FVec Ideal S1x10x64 .f32) (a5 : FVec Ideal S32 .f32)
  (a6 a7 a8 a9 : FVec Ideal S10 .f32)

/-! ## The endpoint rows, kept opaque -/

/-- The source rows: the node features gathered at the edges' first endpoints. -/
def XR : FVec Ideal S400000x32 .f32 := val_main_v10 (F := Ideal) a0 a1

/-- The target rows: the node features gathered at the edges' second endpoints. -/
def XC : FVec Ideal S400000x32 .f32 := val_main_v18 (F := Ideal) a0 a1

/-! ## The rectified projections -/

/-- The source rows joined with the edge features, at edge `e` and position `q`. -/
theorem joined_source (e : Fin 400000) (q : Fin 64) :
    val_main_v11 (F := Ideal) a0 a1 a2 (ix2 e q) = joinRow a2 (XR a0 a1) e q := by
  unfold val_main_v11 joinRow
  by_cases hq : q.val < 32
  · rw [dif_pos hq]
    exact JoinCols.pair_left (val_main_v10 (F := Ideal) a0 a1) a2 concatenates_S400000x32_S400000x32_S400000x64_d1 e
      ⟨q.val, hq⟩ q rfl
  · rw [dif_neg hq]
    exact JoinCols.pair_right (val_main_v10 (F := Ideal) a0 a1) a2 concatenates_S400000x32_S400000x32_S400000x64_d1 e
      ⟨q.val - 32, by omega⟩ q (by show q.val = 32 + (q.val - 32); omega)

/-- The target rows joined with the edge features, at edge `e` and position `q`. -/
theorem joined_target (e : Fin 400000) (q : Fin 64) :
    val_main_v19 (F := Ideal) a0 a1 a2 (ix2 e q) = joinRow a2 (XC a0 a1) e q := by
  unfold val_main_v19 joinRow
  by_cases hq : q.val < 32
  · rw [dif_pos hq]
    exact JoinCols.pair_left (val_main_v18 (F := Ideal) a0 a1) a2 concatenates_S400000x32_S400000x32_S400000x64_d1 e
      ⟨q.val, hq⟩ q rfl
  · rw [dif_neg hq]
    exact JoinCols.pair_right (val_main_v18 (F := Ideal) a0 a1) a2 concatenates_S400000x32_S400000x32_S400000x64_d1 e
      ⟨q.val - 32, by omega⟩ q (by show q.val = 32 + (q.val - 32); omega)

/-- The projection of the joined source rows, at edge `e` and column `j`. -/
theorem lin_source (e : Fin 400000) (j : Fin 320) :
    val_main_v20 (F := Ideal) a0 a1 a2 a3 (ix2 e j) = rLin a2 a3 (XR a0 a1) e j := by
  rw [val_main_v20_apply]
  unfold rLin
  refine Finset.sum_congr rfl fun q _ => ?_
  have hl : lidx_main_v20 (ix2 e j) q = ix2 e q :=
    funext fun a => Fin.ext (by match a with | ⟨0, _⟩ => rfl | ⟨1, _⟩ => rfl)
  have hr : ridx_main_v20 (ix2 e j) q = ix2 q j :=
    funext fun a => Fin.ext (by match a with | ⟨0, _⟩ => rfl | ⟨1, _⟩ => rfl)
  rw [hl, hr, joined_source]

/-- The projection of the joined target rows, at edge `e` and column `j`. -/
theorem lin_target (e : Fin 400000) (j : Fin 320) :
    val_main_v27 (F := Ideal) a0 a1 a2 a3 (ix2 e j) = rLin a2 a3 (XC a0 a1) e j := by
  rw [val_main_v27_apply]
  unfold rLin
  refine Finset.sum_congr rfl fun q _ => ?_
  have hl : lidx_main_v27 (ix2 e j) q = ix2 e q :=
    funext fun a => Fin.ext (by match a with | ⟨0, _⟩ => rfl | ⟨1, _⟩ => rfl)
  have hr : ridx_main_v27 (ix2 e j) q = ix2 q j :=
    funext fun a => Fin.ext (by match a with | ⟨0, _⟩ => rfl | ⟨1, _⟩ => rfl)
  rw [hl, hr, joined_target]

/-- The rectified source projection, at edge `e` and column `j`. -/
theorem feat_source (e : Fin 400000) (j : Fin 320) :
    val_main_v25 (F := Ideal) a0 a1 a2 a3 (ix2 e j) = rFeat a2 a3 (XR a0 a1) e j := by
  rw [val_main_v25_apply, val_main_v22_apply, val_main_v24_apply, val_main_v21_apply, val_main_v23_apply,
    val_main_cst_apply, val_main_cst_3_apply, lin_source]
  rfl

/-- The rectified target projection, at edge `e` and column `j`. -/
theorem feat_target (e : Fin 400000) (j : Fin 320) :
    val_main_v32 (F := Ideal) a0 a1 a2 a3 (ix2 e j) = rFeat a2 a3 (XC a0 a1) e j := by
  rw [val_main_v32_apply, val_main_v29_apply, val_main_v31_apply, val_main_v28_apply, val_main_v30_apply,
    val_main_cst_4_apply, val_main_cst_5_apply, lin_target]
  rfl

/-- Row-major position `(e, h, k)` of `[400000, 10, 32]` is position `(e, 32·h + k)` of `[400000, 320]`. -/
theorem regroup_source_idx (e : Fin 400000) (h : Fin 10) (k : Fin 32) :
    idx_main_v26 (ix3 e h k) = ix2 e (col h k) :=
  funext fun a => Fin.ext (by
    have hh := h.isLt
    have hk := k.isLt
    match a with
    | ⟨0, _⟩ => show ((e.val * 10 + h.val) * 32 + k.val) / 320 = e.val; omega
    | ⟨1, _⟩ => show ((e.val * 10 + h.val) * 32 + k.val) % 320 = h.val * 32 + k.val; omega)

theorem regroup_target_idx (e : Fin 400000) (h : Fin 10) (k : Fin 32) :
    idx_main_v33 (ix3 e h k) = ix2 e (col h k) :=
  funext fun a => Fin.ext (by
    have hh := h.isLt
    have hk := k.isLt
    match a with
    | ⟨0, _⟩ => show ((e.val * 10 + h.val) * 32 + k.val) / 320 = e.val; omega
    | ⟨1, _⟩ => show ((e.val * 10 + h.val) * 32 + k.val) % 320 = h.val * 32 + k.val; omega)

/-- The source features of head `h`, entry `k`. -/
theorem head_source (e : Fin 400000) (h : Fin 10) (k : Fin 32) :
    val_main_v26 (F := Ideal) a0 a1 a2 a3 (ix3 e h k) = rFeat a2 a3 (XR a0 a1) e (col h k) := by
  rw [val_main_v26_apply, regroup_source_idx, feat_source]

/-- The target features of head `h`, entry `k`. -/
theorem head_target (e : Fin 400000) (h : Fin 10) (k : Fin 32) :
    val_main_v33 (F := Ideal) a0 a1 a2 a3 (ix3 e h k) = rFeat a2 a3 (XC a0 a1) e (col h k) := by
  rw [val_main_v33_apply, regroup_target_idx, feat_target]

/-! ## The logits -/

/-- The source features joined with the target features along the last axis, at edge `e`, head `h`, position `q`. -/
theorem joined_feat (e : Fin 400000) (h : Fin 10) (q : Fin 64) :
    val_main_v34 (F := Ideal) a0 a1 a2 a3 (ix3 e h q) = joinFeat (XR a0 a1) (XC a0 a1) a2 a3 e h q := by
  unfold val_main_v34 joinFeat
  by_cases hq : q.val < 32
  · rw [dif_pos hq]
    refine (concatenate_pair_apply_left 2 (val_main_v26 (F := Ideal) a0 a1 a2 a3) (val_main_v33 (F := Ideal) a0 a1 a2 a3)
      concatenates_S400000x10x32_S400000x10x32_S400000x10x64_d2 (ix3 e h q) rfl (ix3 e h ⟨q.val, hq⟩)
      (fun b => match b with | ⟨0, _⟩ => rfl | ⟨1, _⟩ => rfl | ⟨2, _⟩ => rfl)).trans ?_
    exact head_source a0 a1 a2 a3 e h ⟨q.val, hq⟩
  · rw [dif_neg hq]
    refine (concatenate_pair_apply_right 2 (val_main_v26 (F := Ideal) a0 a1 a2 a3) (val_main_v33 (F := Ideal) a0 a1 a2 a3)
      concatenates_S400000x10x32_S400000x10x32_S400000x10x64_d2 (ix3 e h q) rfl rfl (ix3 e h ⟨q.val - 32, by omega⟩)
      (fun b hb => match b with | ⟨0, _⟩ => rfl | ⟨1, _⟩ => rfl | ⟨2, _⟩ => absurd rfl hb)
      (by show (q.val - 32) + 32 = q.val; omega)).trans ?_
    exact head_target a0 a1 a2 a3 e h ⟨q.val - 32, by omega⟩

/-- The logit before the rectifier and the normalisation: the sum over the 64 joined positions (from the zero word). -/
theorem logit0_apply (e : Fin 400000) (h : Fin 10) :
    val_main_v37 (F := Ideal) a0 a1 a2 a3 a4 (ix2 e h) = rLogit0 (XR a0 a1) (XC a0 a1) a2 a3 a4 e h := by
  rw [val_main_v37_apply, val_main_cst_6_apply]
  unfold rLogit0
  rw [show (FloatOps.ofBits (F := Ideal) .f32 0x00000000#32) = (0 : EReal) from Ideal.ofBits_zero_f32, zero_add]
  refine Finset.sum_congr rfl fun q _ => ?_
  have hi : idx_main_v37 (ix2 e h) q = ix3 e h q :=
    funext fun a => Fin.ext (by match a with | ⟨0, _⟩ => rfl | ⟨1, _⟩ => rfl | ⟨2, _⟩ => rfl)
  have hj : idx_main_v35 (ix3 e h q) = ix3 0 h q :=
    funext fun a => Fin.ext (by match a with | ⟨0, _⟩ => rfl | ⟨1, _⟩ => rfl | ⟨2, _⟩ => rfl)
  rw [hi, val_main_v36_apply, val_main_v35_apply, hj, joined_feat]
  rfl

/-- The rectified logit. -/
theorem act_apply (e : Fin 400000) (h : Fin 10) :
    val_main_v42 (F := Ideal) a0 a1 a2 a3 a4 (ix2 e h) = leaky (rLogit0 (XR a0 a1) (XC a0 a1) a2 a3 a4 e h) := by
  rw [val_main_v42_apply, val_main_v39_apply, val_main_v41_apply, val_main_v38_apply, val_main_v40_apply,
    val_main_cst_7_apply, val_main_cst_8_apply, logit0_apply]
  rfl

/-- The normalised logit: ((rectified − mean) · rsqrt(variance + ε)) · scale + shift, read through the broadcasts. -/
theorem logit_apply (e : Fin 400000) (h : Fin 10) :
    val_main_v59 (F := Ideal) a0 a1 a2 a3 a4 a6 a7 a8 a9 (ix2 e h)
      = rLogit (XR a0 a1) (XC a0 a1) a2 a3 a4 a6 a7 a8 a9 e h := by
  have hh := h.isLt
  have i53 : idx_main_v53 (ix2 e h) = ix3 e h 0 := funext fun a => Fin.ext (by
    match a with
    | ⟨0, _⟩ => show (e.val * 10 + h.val) / 10 = e.val; omega
    | ⟨1, _⟩ => show (e.val * 10 + h.val) / 1 % 10 = h.val; omega
    | ⟨2, _⟩ => rfl)
  have i43 : idx_main_v43 (ix3 e h (0 : Fin 1)) = ix2 e h := funext fun a => Fin.ext (by
    match a with
    | ⟨0, _⟩ => show ((e.val * 10 + h.val) * 1 + 0) / 10 = e.val; omega
    | ⟨1, _⟩ => show ((e.val * 10 + h.val) * 1 + 0) % 10 = h.val; omega)
  have i45 : idx_main_v44 (idx_main_v45 (ix3 e h (0 : Fin 1))) = ix1 h :=
    funext fun a => Fin.ext (by match a with | ⟨0, _⟩ => rfl)
  have i51 : idx_main_v50 (idx_main_v51 (ix3 e h (0 : Fin 1))) = ix1 h :=
    funext fun a => Fin.ext (by match a with | ⟨0, _⟩ => rfl)
  have i55 : idx_main_v54 (idx_main_v55 (ix2 e h)) = ix1 h :=
    funext fun a => Fin.ext (by match a with | ⟨0, _⟩ => rfl)
  have i58 : idx_main_v57 (idx_main_v58 (ix2 e h)) = ix1 h :=
    funext fun a => Fin.ext (by match a with | ⟨0, _⟩ => rfl)
  rw [val_main_v59_apply, val_main_v56_apply, val_main_v58_apply, val_main_v57_apply, i58, val_main_v55_apply,
    val_main_v54_apply, i55, val_main_v53_apply, i53, val_main_v52_apply, val_main_v46_apply, val_main_v51_apply,
    val_main_v50_apply, i51, val_main_v49_apply, val_main_v48_apply, val_main_v47_apply, val_main_cst_9_apply,
    val_main_v45_apply, val_main_v44_apply, i45, val_main_v43_apply, i43, act_apply]
  rfl

/-! ## The attention weights -/

/-- The largest of the ten normalised logits of edge `e`.  The reduction starts from a word and the program takes the
    maximum with the same word once more; the fold is at least its starting value, so the second maximum changes nothing
    and the word is never evaluated. -/
theorem rowmax_apply (e : Fin 400000) :
    val_main_v62 (F := Ideal) a0 a1 a2 a3 a4 a6 a7 a8 a9 (ix1 e)
      = rowMax (fun h => rLogit (XR a0 a1) (XC a0 a1) a2 a3 a4 a6 a7 a8 a9 e h) := by
  rw [val_main_v62_apply, val_main_v61_apply, val_main_cst_11_apply]
  unfold val_main_v60 rowMax
  rw [HostRows.maximumf_eq_max,
    HostRows.reduce_max_rows_apply (val_main_v59 (F := Ideal) a0 a1 a2 a3 a4 a6 a7 a8 a9) (val_main_cst_10 (F := Ideal))
      reducesTo_S400000x10_S400000_d1 (by decide) h_S_ e,
    val_main_cst_10_apply]
  have hf : (fun c : Fin 10 => val_main_v59 (F := Ideal) a0 a1 a2 a3 a4 a6 a7 a8 a9 (ix2 e c))
      = fun h => rLogit (XR a0 a1) (XC a0 a1) a2 a3 a4 a6 a7 a8 a9 e h :=
    funext fun c => logit_apply a0 a1 a2 a3 a4 a6 a7 a8 a9 e c
  rw [hf]
  exact max_eq_right ((Finset.le_fold_max _).mpr (Or.inl le_rfl))

/-- The exponential of a logit shifted by the row's maximum. -/
theorem expo_apply (e : Fin 400000) (h : Fin 10) :
    val_main_v66 (F := Ideal) a0 a1 a2 a3 a4 a6 a7 a8 a9 (ix2 e h)
      = Ideal.exp (rLogit (XR a0 a1) (XC a0 a1) a2 a3 a4 a6 a7 a8 a9 e h
          - rowMax (fun h' => rLogit (XR a0 a1) (XC a0 a1) a2 a3 a4 a6 a7 a8 a9 e h')) := by
  have i64 : idx_main_v63 (idx_main_v64 (ix2 e h)) = ix1 e :=
    funext fun a => Fin.ext (by match a with | ⟨0, _⟩ => rfl)
  rw [val_main_v66_apply, val_main_v65_apply, val_main_v64_apply, val_main_v63_apply, i64, rowmax_apply, logit_apply]
  rfl

/-- The sum of the ten shifted exponentials of edge `e` (from the zero word). -/
theorem denom_apply (e : Fin 400000) :
    val_main_v67 (F := Ideal) a0 a1 a2 a3 a4 a6 a7 a8 a9 (ix1 e)
      = ∑ h' : Fin 10, Ideal.exp (rLogit (XR a0 a1) (XC a0 a1) a2 a3 a4 a6 a7 a8 a9 e h'
          - rowMax (fun h'' => rLogit (XR a0 a1) (XC a0 a1) a2 a3 a4 a6 a7 a8 a9 e h'')) := by
  rw [val_main_v67_apply, val_main_cst_12_apply,
    show (FloatOps.ofBits (F := Ideal) .f32 0x00000000#32) = (0 : EReal) from Ideal.ofBits_zero_f32, zero_add]
  refine Finset.sum_congr rfl fun c _ => ?_
  have hi : idx_main_v67 (ix1 e) c = ix2 e c :=
    funext fun a => Fin.ext (by match a with | ⟨0, _⟩ => rfl | ⟨1, _⟩ => rfl)
  rw [hi, expo_apply]

/-- The softmax weight of head `h` at edge `e`. -/
theorem weight_apply (e : Fin 400000) (h : Fin 10) :
    val_main_v70 (F := Ideal) a0 a1 a2 a3 a4 a6 a7 a8 a9 (ix2 e h)
      = attnWeight (fun h' => rLogit (XR a0 a1) (XC a0 a1) a2 a3 a4 a6 a7 a8 a9 e h') h := by
  have i69 : idx_main_v68 (idx_main_v69 (ix2 e h)) = ix1 e :=
    funext fun a => Fin.ext (by match a with | ⟨0, _⟩ => rfl)
  rw [val_main_v70_apply, val_main_v69_apply, val_main_v68_apply, i69, denom_apply, expo_apply]
  rfl

/-! ## The messages -/

/-- The message of edge `e`, head `h`, entry `k`: the target feature times the head's weight. -/
theorem messages_apply (e : Fin 400000) (h : Fin 10) (k : Fin 32) :
    val_main_v73 (F := Ideal) a0 a1 a2 a3 a4 a6 a7 a8 a9 (ix3 e h k)
      = rOut (XR a0 a1) (XC a0 a1) a2 a3 a4 a6 a7 a8 a9 (ix3 e h k) := by
  have i72 : idx_main_v71 (idx_main_v72 (ix3 e h k)) = ix2 e h :=
    funext fun a => Fin.ext (by match a with | ⟨0, _⟩ => rfl | ⟨1, _⟩ => rfl)
  rw [val_main_v73_apply, val_main_v72_apply, val_main_v71_apply, i72, weight_apply, head_target]
  rfl

/-- The reference's array of messages is the joined form of the attention-weighted edge message, over the opaque
    endpoint rows. -/
theorem messages_eq :
    val_main_v73 (F := Ideal) a0 a1 a2 a3 a4 a6 a7 a8 a9
      = rOut (XR a0 a1) (XC a0 a1) a2 a3 a4 a6 a7 a8 a9 := by
  funext i
  obtain ⟨e, h, k, rfl⟩ : ∃ e h k, i = ix3 e h k := ⟨i 0, i 1, i 2, ValueIdx.eq_ix3 i⟩
  exact messages_apply a0 a1 a2 a3 a4 a6 a7 a8 a9 e h k

/-! ## From the messages to the result -/

/-- What the program does with the messages: heads moved to the front, regrouped to `[400000, 320]`, added into a zero
    table of `[25000, 320]` at the rows the first index row names, regrouped to `[25000, 10, 32]`, summed over the ten
    heads, divided by ten, and the bias added. -/
def refTail (msg : FVec Ideal S400000x10x32 .f32) (a1 : IVec S2x400000 32) (a5 : FVec Ideal S32 .f32) :
    FVec Ideal S25000x32 .f32 :=
  addf
    (Host.divf
      (Host.reduceAdd
        (shapeCast S25000x10x32
          (Host.scatterAdd scatter_S25000x320_S400000x1_S400000x320_1_0_0_1 (val_main_v76 (F := Ideal))
            (val_main_v77 (F := Ideal) a1)
            (shapeCast S400000x320
              (transpose S10x400000x32 [1, 0, 2] msg transposes_S400000x10x32_S10x400000x32_1_0_2)
              shapeCasts_S10x400000x32_S400000x320))
          shapeCasts_S25000x320_S25000x10x32)
        (val_main_cst_14 (F := Ideal)) reducesTo_S25000x10x32_S25000x32_d1 h_S_)
      (val_main_v81 (F := Ideal)))
    (val_main_v84 (F := Ideal) a5)

/-- The program's last stage is the tail applied to its messages. -/
theorem result_eq_refTail :
    val_main_v85 (F := Ideal) a0 a1 a2 a3 a4 a5 a6 a7 a8 a9
      = refTail (val_main_v73 (F := Ideal) a0 a1 a2 a3 a4 a6 a7 a8 a9) a1 a5 := rfl

end Cert.RefMessage

end
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.RefRunH.lean ====
/-
  The reference program's run, read back stage by stage.

  The reference is a straight line of 104 host operations.  Each operation's value, as a function of the ten arguments,
  is a named stage function, defined from the EARLIER stage functions by that one operation.  The line is cut into
  consecutive stretches at points where few values are still to be read.  For each stretch, started from an
  arbitrary memory in which the values still to be read are the stage functions of ten given arrays and the argument
  buffers hold those arrays, the memory after the stretch again holds, at every value still to be read, its stage
  function, and the arguments are untouched: the stretch's few operations are evaluated over the incoming memory and
  each result is its stage function by unfolding one definition per operation.  Chaining the stretches, the
  memory after the whole line holds the last stage function at the result buffer and the arguments as they were; the
  run of a straight line of operations ends in that memory.  No value is ever written out as one flattened term.
-/
import proofs.«173645_j47974784696359_2_alg».proof.Proof.RefReadP
import proofs.«173645_j47974784696359_2_alg».proof.Proof.LibStretches
import Idealize.ShloMosaic.Lib.StableHlo.Run

noncomputable section

namespace Cert.RefRunH

open Cert.ReferenceIdeal Cert.ReferenceIdeal.Gen Idealize.ShloMosaic Idealize.ShloMosaic.TcCoe Idealize.SL.Sem Idealize.ShloMosaic.StableHlo

variable {F : FTy → Type} [FloatOps F]

/-- @main's 104 operations, in order. -/
abbrev ops : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 25000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S25000x32_S400000x1_S400000x32_1_0_n_n_0_1_132 x i) : (⟨S25000x32, .f32⟩ : BufTy).Contents (Elt F) → (⟨S400000x1, .i32⟩ : BufTy).Contents (Elt F) → (⟨S400000x32, .f32⟩ : BufTy).Contents (Elt F)),
    binary main_v10 main_arg2 main_v11 ((fun a b => concatenate S400000x64 1 [⟨S400000x32, a⟩, ⟨S400000x32, b⟩] concatenates_S400000x32_S400000x32_S400000x64_d1) : (⟨S400000x32, .f32⟩ : BufTy).Contents (Elt F) → (⟨S400000x32, .f32⟩ : BufTy).Contents (Elt F) → (⟨S400000x64, .f32⟩ : BufTy).Contents (Elt F)),
    nullary main_c_1 (constantI S_ 32 0#32),
    unary main_c_1 main_v12 (broadcastInDim S400000 ![] bcast_S_S400000 : (⟨S_, .i32⟩ : BufTy).Contents (Elt F) → (⟨S400000, .i32⟩ : BufTy).Contents (Elt F)),
    binary main_v3 main_v12 main_v13 (cmpi .slt : (⟨S400000, .i32⟩ : BufTy).Contents (Elt F) → (⟨S400000, .i32⟩ : BufTy).Contents (Elt F) → (⟨S400000, .i1⟩ : BufTy).Contents (Elt F)),
    nullary main_c_2 (constantI S_ 32 25000#32),
    unary main_c_2 main_v14 (broadcastInDim S400000 ![] bcast_S_S400000 : (⟨S_, .i32⟩ : BufTy).Contents (Elt F) → (⟨S400000, .i32⟩ : BufTy).Contents (Elt F)),
    binary main_v3 main_v14 main_v15 (addi : (⟨S400000, .i32⟩ : BufTy).Contents (Elt F) → (⟨S400000, .i32⟩ : BufTy).Contents (Elt F) → (⟨S400000, .i32⟩ : BufTy).Contents (Elt F)),
    ternary main_v13 main_v15 main_v3 main_v16 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v16 main_v17 (broadcastInDim S400000x1 ![0] bcast_S400000_S400000x1_0 : (⟨S400000, .i32⟩ : BufTy).Contents (Elt F) → (⟨S400000x1, .i32⟩ : BufTy).Contents (Elt F)),
    binary main_arg0 main_v17 main_v18 ((fun x i => Host.gather gather_S25000x32_S400000x1_S400000x32_1_0_n_n_0_1_132 x i) : (⟨S25000x32, .f32⟩ : BufTy).Contents (Elt F) → (⟨S400000x1, .i32⟩ : BufTy).Contents (Elt F) → (⟨S400000x32, .f32⟩ : BufTy).Contents (Elt F)),
    binary main_v18 main_arg2 main_v19 ((fun a b => concatenate S400000x64 1 [⟨S400000x32, a⟩, ⟨S400000x32, b⟩] concatenates_S400000x32_S400000x32_S400000x64_d1) : (⟨S400000x32, .f32⟩ : BufTy).Contents (Elt F) → (⟨S400000x32, .f32⟩ : BufTy).Contents (Elt F) → (⟨S400000x64, .f32⟩ : BufTy).Contents (Elt F)),
    binary main_v11 main_arg3 main_v20 ((fun l r => Host.dotGeneral dot_S400000x64_S64x320_S400000x320_1_0_0_1_n_n none l r) : (⟨S400000x64, .f32⟩ : BufTy).Contents (Elt F) → (⟨S64x320, .f32⟩ : BufTy).Contents (Elt F) → (⟨S400000x320, .f32⟩ : BufTy).Contents (Elt F)),
    nullary main_cst (constant S_ .f32 0x00000000#32),
    unary main_cst main_v21 (broadcastInDim S400000x320 ![] bcast_S_S400000x320 : (⟨S_, .f32⟩ : BufTy).Contents (Elt F) → (⟨S400000x320, .f32⟩ : BufTy).Contents (Elt F)),
    binary main_v20 main_v21 main_v22 (cmpf .oge : (⟨S400000x320, .f32⟩ : BufTy).Contents (Elt F) → (⟨S400000x320, .f32⟩ : BufTy).Contents (Elt F) → (⟨S400000x320, .i1⟩ : BufTy).Contents (Elt F)),
    nullary main_cst_3 (constant S_ .f32 0x3E4CCCCD#32),
    unary main_cst_3 main_v23 (broadcastInDim S400000x320 ![] bcast_S_S400000x320 : (⟨S_, .f32⟩ : BufTy).Contents (Elt F) → (⟨S400000x320, .f32⟩ : BufTy).Contents (Elt F)),
    binary main_v23 main_v20 main_v24 (mulf : (⟨S400000x320, .f32⟩ : BufTy).Contents (Elt F) → (⟨S400000x320, .f32⟩ : BufTy).Contents (Elt F) → (⟨S400000x320, .f32⟩ : BufTy).Contents (Elt F)),
    TRef.ternary (TRef.of (T := ⟨S400000x320, .i1⟩) main_v22) (TRef.of (T := ⟨S400000x320, .f32⟩) main_v20) (TRef.of (T := ⟨S400000x320, .f32⟩) main_v24) (TRef.of (T := ⟨S400000x320, .f32⟩) main_v25) select,
    reshape main_v25 main_v26 rfl shapeCasts_S400000x320_S400000x10x32,
    binary main_v19 main_arg3 main_v27 ((fun l r => Host.dotGeneral dot_S400000x64_S64x320_S400000x320_1_0_0_1_n_n none l r) : (⟨S400000x64, .f32⟩ : BufTy).Contents (Elt F) → (⟨S64x320, .f32⟩ : BufTy).Contents (Elt F) → (⟨S400000x320, .f32⟩ : BufTy).Contents (Elt F)),
    nullary main_cst_4 (constant S_ .f32 0x00000000#32),
    unary main_cst_4 main_v28 (broadcastInDim S400000x320 ![] bcast_S_S400000x320 : (⟨S_, .f32⟩ : BufTy).Contents (Elt F) → (⟨S400000x320, .f32⟩ : BufTy).Contents (Elt F)),
    binary main_v27 main_v28 main_v29 (cmpf .oge : (⟨S400000x320, .f32⟩ : BufTy).Contents (Elt F) → (⟨S400000x320, .f32⟩ : BufTy).Contents (Elt F) → (⟨S400000x320, .i1⟩ : BufTy).Contents (Elt F)),
    nullary main_cst_5 (constant S_ .f32 0x3E4CCCCD#32),
    unary main_cst_5 main_v30 (broadcastInDim S400000x320 ![] bcast_S_S400000x320 : (⟨S_, .f32⟩ : BufTy).Contents (Elt F) → (⟨S400000x320, .f32⟩ : BufTy).Contents (Elt F)),
    binary main_v30 main_v27 main_v31 (mulf : (⟨S400000x320, .f32⟩ : BufTy).Contents (Elt F) → (⟨S400000x320, .f32⟩ : BufTy).Contents (Elt F) → (⟨S400000x320, .f32⟩ : BufTy).Contents (Elt F)),
    TRef.ternary (TRef.of (T := ⟨S400000x320, .i1⟩) main_v29) (TRef.of (T := ⟨S400000x320, .f32⟩) main_v27) (TRef.of (T := ⟨S400000x320, .f32⟩) main_v31) (TRef.of (T := ⟨S400000x320, .f32⟩) main_v32) select,
    reshape main_v32 main_v33 rfl shapeCasts_S400000x320_S400000x10x32,
    binary main_v26 main_v33 main_v34 ((fun a b => concatenate S400000x10x64 2 [⟨S400000x10x32, a⟩, ⟨S400000x10x32, b⟩] concatenates_S400000x10x32_S400000x10x32_S400000x10x64_d2) : (⟨S400000x10x32, .f32⟩ : BufTy).Contents (Elt F) → (⟨S400000x10x32, .f32⟩ : BufTy).Contents (Elt F) → (⟨S400000x10x64, .f32⟩ : BufTy).Contents (Elt F)),
    unary main_arg4 main_v35 (broadcastInDim S400000x10x64 ![0, 1, 2] bcast_S1x10x64_S400000x10x64_0_1_2 : (⟨S1x10x64, .f32⟩ : BufTy).Contents (Elt F) → (⟨S400000x10x64, .f32⟩ : BufTy).Contents (Elt F)),
    binary main_v34 main_v35 main_v36 (mulf : (⟨S400000x10x64, .f32⟩ : BufTy).Contents (Elt F) → (⟨S400000x10x64, .f32⟩ : BufTy).Contents (Elt F) → (⟨S400000x10x64, .f32⟩ : BufTy).Contents (Elt F)),
    nullary main_cst_6 (constant S_ .f32 0x00000000#32),
    binary main_v36 main_cst_6 main_v37 ((fun x v => Host.reduceAdd x v reducesTo_S400000x10x64_S400000x10_d2 h_S_) : (⟨S400000x10x64, .f32⟩ : BufTy).Contents (Elt F) → (⟨S_, .f32⟩ : BufTy).Contents (Elt F) → (⟨S400000x10, .f32⟩ : BufTy).Contents (Elt F)),
    nullary main_cst_7 (constant S_ .f32 0x00000000#32),
    unary main_cst_7 main_v38 (broadcastInDim S400000x10 ![] bcast_S_S400000x10 : (⟨S_, .f32⟩ : BufTy).Contents (Elt F) → (⟨S400000x10, .f32⟩ : BufTy).Contents (Elt F)),
    binary main_v37 main_v38 main_v39 (cmpf .oge : (⟨S400000x10, .f32⟩ : BufTy).Contents (Elt F) → (⟨S400000x10, .f32⟩ : BufTy).Contents (Elt F) → (⟨S400000x10, .i1⟩ : BufTy).Contents (Elt F)),
    nullary main_cst_8 (constant S_ .f32 0x3E4CCCCD#32),
    unary main_cst_8 main_v40 (broadcastInDim S400000x10 ![] bcast_S_S400000x10 : (⟨S_, .f32⟩ : BufTy).Contents (Elt F) → (⟨S400000x10, .f32⟩ : BufTy).Contents (Elt F)),
    binary main_v40 main_v37 main_v41 (mulf : (⟨S400000x10, .f32⟩ : BufTy).Contents (Elt F) → (⟨S400000x10, .f32⟩ : BufTy).Contents (Elt F) → (⟨S400000x10, .f32⟩ : BufTy).Contents (Elt F)),
    TRef.ternary (TRef.of (T := ⟨S400000x10, .i1⟩) main_v39) (TRef.of (T := ⟨S400000x10, .f32⟩) main_v37) (TRef.of (T := ⟨S400000x10, .f32⟩) main_v41) (TRef.of (T := ⟨S400000x10, .f32⟩) main_v42) select,
    reshape main_v42 main_v43 rfl shapeCasts_S400000x10_S400000x10x1,
    unary main_arg8 main_v44 (broadcastInDim S1x10x1 ![1] bcast_S10_S1x10x1_1 : (⟨S10, .f32⟩ : BufTy).Contents (Elt F) → (⟨S1x10x1, .f32⟩ : BufTy).Contents (Elt F)),
    unary main_v44 main_v45 (broadcastInDim S400000x10x1 ![0, 1, 2] bcast_S1x10x1_S400000x10x1_0_1_2 : (⟨S1x10x1, .f32⟩ : BufTy).Contents (Elt F) → (⟨S400000x10x1, .f32⟩ : BufTy).Contents (Elt F)),
    binary main_v43 main_v45 main_v46 (subf : (⟨S400000x10x1, .f32⟩ : BufTy).Contents (Elt F) → (⟨S400000x10x1, .f32⟩ : BufTy).Contents (Elt F) → (⟨S400000x10x1, .f32⟩ : BufTy).Contents (Elt F)),
    nullary main_cst_9 (constant S_ .f32 0x3727C5AC#32),
    unary main_cst_9 main_v47 (broadcastInDim S10 ![] bcast_S_S10 : (⟨S_, .f32⟩ : BufTy).Contents (Elt F) → (⟨S10, .f32⟩ : BufTy).Contents (Elt F)),
    binary main_arg9 main_v47 main_v48 (addf : (⟨S10, .f32⟩ : BufTy).Contents (Elt F) → (⟨S10, .f32⟩ : BufTy).Contents (Elt F) → (⟨S10, .f32⟩ : BufTy).Contents (Elt F)),
    unary main_v48 main_v49 (Host.rsqrt : (⟨S10, .f32⟩ : BufTy).Contents (Elt F) → (⟨S10, .f32⟩ : BufTy).Contents (Elt F)),
    unary main_v49 main_v50 (broadcastInDim S1x10x1 ![1] bcast_S10_S1x10x1_1 : (⟨S10, .f32⟩ : BufTy).Contents (Elt F) → (⟨S1x10x1, .f32⟩ : BufTy).Contents (Elt F)),
    unary main_v50 main_v51 (broadcastInDim S400000x10x1 ![0, 1, 2] bcast_S1x10x1_S400000x10x1_0_1_2 : (⟨S1x10x1, .f32⟩ : BufTy).Contents (Elt F) → (⟨S400000x10x1, .f32⟩ : BufTy).Contents (Elt F)),
    binary main_v46 main_v51 main_v52 (mulf : (⟨S400000x10x1, .f32⟩ : BufTy).Contents (Elt F) → (⟨S400000x10x1, .f32⟩ : BufTy).Contents (Elt F) → (⟨S400000x10x1, .f32⟩ : BufTy).Contents (Elt F)),
    reshape main_v52 main_v53 rfl shapeCasts_S400000x10x1_S400000x10,
    unary main_arg6 main_v54 (broadcastInDim S1x10 ![1] bcast_S10_S1x10_1 : (⟨S10, .f32⟩ : BufTy).Contents (Elt F) → (⟨S1x10, .f32⟩ : BufTy).Contents (Elt F)),
    unary main_v54 main_v55 (broadcastInDim S400000x10 ![0, 1] bcast_S1x10_S400000x10_0_1 : (⟨S1x10, .f32⟩ : BufTy).Contents (Elt F) → (⟨S400000x10, .f32⟩ : BufTy).Contents (Elt F)),
    binary main_v53 main_v55 main_v56 (mulf : (⟨S400000x10, .f32⟩ : BufTy).Contents (Elt F) → (⟨S400000x10, .f32⟩ : BufTy).Contents (Elt F) → (⟨S400000x10, .f32⟩ : BufTy).Contents (Elt F)),
    unary main_arg7 main_v57 (broadcastInDim S1x10 ![1] bcast_S10_S1x10_1 : (⟨S10, .f32⟩ : BufTy).Contents (Elt F) → (⟨S1x10, .f32⟩ : BufTy).Contents (Elt F)),
    unary main_v57 main_v58 (broadcastInDim S400000x10 ![0, 1] bcast_S1x10_S400000x10_0_1 : (⟨S1x10, .f32⟩ : BufTy).Contents (Elt F) → (⟨S400000x10, .f32⟩ : BufTy).Contents (Elt F)),
    binary main_v56 main_v58 main_v59 (addf : (⟨S400000x10, .f32⟩ : BufTy).Contents (Elt F) → (⟨S400000x10, .f32⟩ : BufTy).Contents (Elt F) → (⟨S400000x10, .f32⟩ : BufTy).Contents (Elt F)),
    nullary main_cst_10 (constant S_ .f32 0xFF800000#32),
    binary main_v59 main_cst_10 main_v60 ((fun x v => Host.reduce FloatOps.maximumf x v reducesTo_S400000x10_S400000_d1 h_S_) : (⟨S400000x10, .f32⟩ : BufTy).Contents (Elt F) → (⟨S_, .f32⟩ : BufTy).Contents (Elt F) → (⟨S400000, .f32⟩ : BufTy).Contents (Elt F)),
    nullary main_cst_11 (constant S_ .f32 0xFF800000#32),
    unary main_cst_11 main_v61 (broadcastInDim S400000 ![] bcast_S_S400000 : (⟨S_, .f32⟩ : BufTy).Contents (Elt F) → (⟨S400000, .f32⟩ : BufTy).Contents (Elt F)),
    binary main_v61 main_v60 main_v62 (maximumf : (⟨S400000, .f32⟩ : BufTy).Contents (Elt F) → (⟨S400000, .f32⟩ : BufTy).Contents (Elt F) → (⟨S400000, .f32⟩ : BufTy).Contents (Elt F)),
    unary main_v62 main_v63 (broadcastInDim S400000x1 ![0] bcast_S400000_S400000x1_0 : (⟨S400000, .f32⟩ : BufTy).Contents (Elt F) → (⟨S400000x1, .f32⟩ : BufTy).Contents (Elt F)),
    unary main_v63 main_v64 (broadcastInDim S400000x10 ![0, 1] bcast_S400000x1_S400000x10_0_1 : (⟨S400000x1, .f32⟩ : BufTy).Contents (Elt F) → (⟨S400000x10, .f32⟩ : BufTy).Contents (Elt F)),
    binary main_v59 main_v64 main_v65 (subf : (⟨S400000x10, .f32⟩ : BufTy).Contents (Elt F) → (⟨S400000x10, .f32⟩ : BufTy).Contents (Elt F) → (⟨S400000x10, .f32⟩ : BufTy).Contents (Elt F)),
    unary main_v65 main_v66 (Host.exp : (⟨S400000x10, .f32⟩ : BufTy).Contents (Elt F) → (⟨S400000x10, .f32⟩ : BufTy).Contents (Elt F)),
    nullary main_cst_12 (constant S_ .f32 0x00000000#32),
    binary main_v66 main_cst_12 main_v67 ((fun x v => Host.reduceAdd x v reducesTo_S400000x10_S400000_d1 h_S_) : (⟨S400000x10, .f32⟩ : BufTy).Contents (Elt F) → (⟨S_, .f32⟩ : BufTy).Contents (Elt F) → (⟨S400000, .f32⟩ : BufTy).Contents (Elt F)),
    unary main_v67 main_v68 (broadcastInDim S400000x1 ![0] bcast_S400000_S400000x1_0 : (⟨S400000, .f32⟩ : BufTy).Contents (Elt F) → (⟨S400000x1, .f32⟩ : BufTy).Contents (Elt F)),
    unary main_v68 main_v69 (broadcastInDim S400000x10 ![0, 1] bcast_S400000x1_S400000x10_0_1 : (⟨S400000x1, .f32⟩ : BufTy).Contents (Elt F) → (⟨S400000x10, .f32⟩ : BufTy).Contents (Elt F)),
    binary main_v66 main_v69 main_v70 (Host.divf : (⟨S400000x10, .f32⟩ : BufTy).Contents (Elt F) → (⟨S400000x10, .f32⟩ : BufTy).Contents (Elt F) → (⟨S400000x10, .f32⟩ : BufTy).Contents (Elt F)),
    unary main_v70 main_v71 (broadcastInDim S400000x10x1 ![0, 1] bcast_S400000x10_S400000x10x1_0_1 : (⟨S400000x10, .f32⟩ : BufTy).Contents (Elt F) → (⟨S400000x10x1, .f32⟩ : BufTy).Contents (Elt F)),
    unary main_v71 main_v72 (broadcastInDim S400000x10x32 ![0, 1, 2] bcast_S400000x10x1_S400000x10x32_0_1_2 : (⟨S400000x10x1, .f32⟩ : BufTy).Contents (Elt F) → (⟨S400000x10x32, .f32⟩ : BufTy).Contents (Elt F)),
    binary main_v33 main_v72 main_v73 (mulf : (⟨S400000x10x32, .f32⟩ : BufTy).Contents (Elt F) → (⟨S400000x10x32, .f32⟩ : BufTy).Contents (Elt F) → (⟨S400000x10x32, .f32⟩ : BufTy).Contents (Elt F)),
    unary main_v73 main_v74 ((transpose S10x400000x32 [1, 0, 2] · transposes_S400000x10x32_S10x400000x32_1_0_2) : (⟨S400000x10x32, .f32⟩ : BufTy).Contents (Elt F) → (⟨S10x400000x32, .f32⟩ : BufTy).Contents (Elt F)),
    reshape main_v74 main_v75 rfl shapeCasts_S10x400000x32_S400000x320,
    nullary main_cst_13 (constant S_ .f32 0x00000000#32),
    unary main_cst_13 main_v76 (broadcastInDim S25000x320 ![] bcast_S_S25000x320 : (⟨S_, .f32⟩ : BufTy).Contents (Elt F) → (⟨S25000x320, .f32⟩ : BufTy).Contents (Elt F)),
    unary main_v1 main_v77 (broadcastInDim S400000x1 ![0] bcast_S400000_S400000x1_0 : (⟨S400000, .i32⟩ : BufTy).Contents (Elt F) → (⟨S400000x1, .i32⟩ : BufTy).Contents (Elt F)),
    ternary main_v76 main_v77 main_v75 main_v78 ((fun x i u => Host.scatterAdd scatter_S25000x320_S400000x1_S400000x320_1_0_0_1 x i u) : (⟨S25000x320, .f32⟩ : BufTy).Contents (Elt F) → (⟨S400000x1, .i32⟩ : BufTy).Contents (Elt F) → (⟨S400000x320, .f32⟩ : BufTy).Contents (Elt F) → (⟨S25000x320, .f32⟩ : BufTy).Contents (Elt F)),
    reshape main_v78 main_v79 rfl shapeCasts_S25000x320_S25000x10x32,
    nullary main_cst_14 (constant S_ .f32 0x00000000#32),
    binary main_v79 main_cst_14 main_v80 ((fun x v => Host.reduceAdd x v reducesTo_S25000x10x32_S25000x32_d1 h_S_) : (⟨S25000x10x32, .f32⟩ : BufTy).Contents (Elt F) → (⟨S_, .f32⟩ : BufTy).Contents (Elt F) → (⟨S25000x32, .f32⟩ : BufTy).Contents (Elt F)),
    nullary main_cst_15 (constant S_ .f32 0x41200000#32),
    unary main_cst_15 main_v81 (broadcastInDim S25000x32 ![] bcast_S_S25000x32 : (⟨S_, .f32⟩ : BufTy).Contents (Elt F) → (⟨S25000x32, .f32⟩ : BufTy).Contents (Elt F)),
    binary main_v80 main_v81 main_v82 (Host.divf : (⟨S25000x32, .f32⟩ : BufTy).Contents (Elt F) → (⟨S25000x32, .f32⟩ : BufTy).Contents (Elt F) → (⟨S25000x32, .f32⟩ : BufTy).Contents (Elt F)),
    unary main_arg5 main_v83 (broadcastInDim S1x32 ![1] bcast_S32_S1x32_1 : (⟨S32, .f32⟩ : BufTy).Contents (Elt F) → (⟨S1x32, .f32⟩ : BufTy).Contents (Elt F)),
    unary main_v83 main_v84 (broadcastInDim S25000x32 ![0, 1] bcast_S1x32_S25000x32_0_1 : (⟨S1x32, .f32⟩ : BufTy).Contents (Elt F) → (⟨S25000x32, .f32⟩ : BufTy).Contents (Elt F)),
    binary main_v82 main_v84 main_v85 (addf : (⟨S25000x32, .f32⟩ : BufTy).Contents (Elt F) → (⟨S25000x32, .f32⟩ : BufTy).Contents (Elt F) → (⟨S25000x32, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., reshape_bufs_sub .., binary_bufs_sub .., nullary_bufs_sub .., unary_bufs_sub .., binary_bufs_sub .., nullary_bufs_sub .., unary_bufs_sub .., binary_bufs_sub .., ternary_bufs_sub .., reshape_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., ternary_bufs_sub .., reshape_bufs_sub .., unary_bufs_sub .., unary_bufs_sub .., binary_bufs_sub .., nullary_bufs_sub .., unary_bufs_sub .., binary_bufs_sub .., unary_bufs_sub .., unary_bufs_sub .., unary_bufs_sub .., binary_bufs_sub .., reshape_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., reshape_bufs_sub .., nullary_bufs_sub .., unary_bufs_sub .., unary_bufs_sub .., ternary_bufs_sub .., reshape_bufs_sub .., nullary_bufs_sub .., binary_bufs_sub .., nullary_bufs_sub .., unary_bufs_sub .., binary_bufs_sub .., unary_bufs_sub .., unary_bufs_sub .., binary_bufs_sub ..⟩

/-! ## The stretches -/

/-- Stretch 1: operations 1–13 of the line. -/
abbrev s1 : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 25000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg0 main_v9 main_v10 ((fun x i => Host.gather gather_S25000x32_S400000x1_S400000x32_1_0_n_n_0_1_132 x i) : (⟨S25000x32, .f32⟩ : BufTy).Contents (Elt F) → (⟨S400000x1, .i32⟩ : BufTy).Contents (Elt F) → (⟨S400000x32, .f32⟩ : BufTy).Contents (Elt F)) ]

/-- Stretch 2: operations 14–23 of the line. -/
abbrev s2 : List (HloOp τ sig (Elt F)) :=
  [ binary main_v10 main_arg2 main_v11 ((fun a b => concatenate S400000x64 1 [⟨S400000x32, a⟩, ⟨S400000x32, b⟩] concatenates_S400000x32_S400000x32_S400000x64_d1) : (⟨S400000x32, .f32⟩ : BufTy).Contents (Elt F) → (⟨S400000x32, .f32⟩ : BufTy).Contents (Elt F) → (⟨S400000x64, .f32⟩ : BufTy).Contents (Elt F)),
    nullary main_c_1 (constantI S_ 32 0#32),
    unary main_c_1 main_v12 (broadcastInDim S400000 ![] bcast_S_S400000 : (⟨S_, .i32⟩ : BufTy).Contents (Elt F) → (⟨S400000, .i32⟩ : BufTy).Contents (Elt F)),
    binary main_v3 main_v12 main_v13 (cmpi .slt : (⟨S400000, .i32⟩ : BufTy).Contents (Elt F) → (⟨S400000, .i32⟩ : BufTy).Contents (Elt F) → (⟨S400000, .i1⟩ : BufTy).Contents (Elt F)),
    nullary main_c_2 (constantI S_ 32 25000#32),
    unary main_c_2 main_v14 (broadcastInDim S400000 ![] bcast_S_S400000 : (⟨S_, .i32⟩ : BufTy).Contents (Elt F) → (⟨S400000, .i32⟩ : BufTy).Contents (Elt F)),
    binary main_v3 main_v14 main_v15 (addi : (⟨S400000, .i32⟩ : BufTy).Contents (Elt F) → (⟨S400000, .i32⟩ : BufTy).Contents (Elt F) → (⟨S400000, .i32⟩ : BufTy).Contents (Elt F)),
    ternary main_v13 main_v15 main_v3 main_v16 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v16 main_v17 (broadcastInDim S400000x1 ![0] bcast_S400000_S400000x1_0 : (⟨S400000, .i32⟩ : BufTy).Contents (Elt F) → (⟨S400000x1, .i32⟩ : BufTy).Contents (Elt F)),
    binary main_arg0 main_v17 main_v18 ((fun x i => Host.gather gather_S25000x32_S400000x1_S400000x32_1_0_n_n_0_1_132 x i) : (⟨S25000x32, .f32⟩ : BufTy).Contents (Elt F) → (⟨S400000x1, .i32⟩ : BufTy).Contents (Elt F) → (⟨S400000x32, .f32⟩ : BufTy).Contents (Elt F)) ]

/-- Stretch 3: operations 24–32 of the line. -/
abbrev s3 : List (HloOp τ sig (Elt F)) :=
  [ binary main_v18 main_arg2 main_v19 ((fun a b => concatenate S400000x64 1 [⟨S400000x32, a⟩, ⟨S400000x32, b⟩] concatenates_S400000x32_S400000x32_S400000x64_d1) : (⟨S400000x32, .f32⟩ : BufTy).Contents (Elt F) → (⟨S400000x32, .f32⟩ : BufTy).Contents (Elt F) → (⟨S400000x64, .f32⟩ : BufTy).Contents (Elt F)),
    binary main_v11 main_arg3 main_v20 ((fun l r => Host.dotGeneral dot_S400000x64_S64x320_S400000x320_1_0_0_1_n_n none l r) : (⟨S400000x64, .f32⟩ : BufTy).Contents (Elt F) → (⟨S64x320, .f32⟩ : BufTy).Contents (Elt F) → (⟨S400000x320, .f32⟩ : BufTy).Contents (Elt F)),
    nullary main_cst (constant S_ .f32 0x00000000#32),
    unary main_cst main_v21 (broadcastInDim S400000x320 ![] bcast_S_S400000x320 : (⟨S_, .f32⟩ : BufTy).Contents (Elt F) → (⟨S400000x320, .f32⟩ : BufTy).Contents (Elt F)),
    binary main_v20 main_v21 main_v22 (cmpf .oge : (⟨S400000x320, .f32⟩ : BufTy).Contents (Elt F) → (⟨S400000x320, .f32⟩ : BufTy).Contents (Elt F) → (⟨S400000x320, .i1⟩ : BufTy).Contents (Elt F)),
    nullary main_cst_3 (constant S_ .f32 0x3E4CCCCD#32),
    unary main_cst_3 main_v23 (broadcastInDim S400000x320 ![] bcast_S_S400000x320 : (⟨S_, .f32⟩ : BufTy).Contents (Elt F) → (⟨S400000x320, .f32⟩ : BufTy).Contents (Elt F)),
    binary main_v23 main_v20 main_v24 (mulf : (⟨S400000x320, .f32⟩ : BufTy).Contents (Elt F) → (⟨S400000x320, .f32⟩ : BufTy).Contents (Elt F) → (⟨S400000x320, .f32⟩ : BufTy).Contents (Elt F)),
    TRef.ternary (TRef.of (T := ⟨S400000x320, .i1⟩) main_v22) (TRef.of (T := ⟨S400000x320, .f32⟩) main_v20) (TRef.of (T := ⟨S400000x320, .f32⟩) main_v24) (TRef.of (T := ⟨S400000x320, .f32⟩) main_v25) select ]

/-- Stretch 4: operations 33–42 of the line. -/
abbrev s4 : List (HloOp τ sig (Elt F)) :=
  [ reshape main_v25 main_v26 rfl shapeCasts_S400000x320_S400000x10x32,
    binary main_v19 main_arg3 main_v27 ((fun l r => Host.dotGeneral dot_S400000x64_S64x320_S400000x320_1_0_0_1_n_n none l r) : (⟨S400000x64, .f32⟩ : BufTy).Contents (Elt F) → (⟨S64x320, .f32⟩ : BufTy).Contents (Elt F) → (⟨S400000x320, .f32⟩ : BufTy).Contents (Elt F)),
    nullary main_cst_4 (constant S_ .f32 0x00000000#32),
    unary main_cst_4 main_v28 (broadcastInDim S400000x320 ![] bcast_S_S400000x320 : (⟨S_, .f32⟩ : BufTy).Contents (Elt F) → (⟨S400000x320, .f32⟩ : BufTy).Contents (Elt F)),
    binary main_v27 main_v28 main_v29 (cmpf .oge : (⟨S400000x320, .f32⟩ : BufTy).Contents (Elt F) → (⟨S400000x320, .f32⟩ : BufTy).Contents (Elt F) → (⟨S400000x320, .i1⟩ : BufTy).Contents (Elt F)),
    nullary main_cst_5 (constant S_ .f32 0x3E4CCCCD#32),
    unary main_cst_5 main_v30 (broadcastInDim S400000x320 ![] bcast_S_S400000x320 : (⟨S_, .f32⟩ : BufTy).Contents (Elt F) → (⟨S400000x320, .f32⟩ : BufTy).Contents (Elt F)),
    binary main_v30 main_v27 main_v31 (mulf : (⟨S400000x320, .f32⟩ : BufTy).Contents (Elt F) → (⟨S400000x320, .f32⟩ : BufTy).Contents (Elt F) → (⟨S400000x320, .f32⟩ : BufTy).Contents (Elt F)),
    TRef.ternary (TRef.of (T := ⟨S400000x320, .i1⟩) main_v29) (TRef.of (T := ⟨S400000x320, .f32⟩) main_v27) (TRef.of (T := ⟨S400000x320, .f32⟩) main_v31) (TRef.of (T := ⟨S400000x320, .f32⟩) main_v32) select,
    reshape main_v32 main_v33 rfl shapeCasts_S400000x320_S400000x10x32 ]

/-- Stretch 5: operations 43–54 of the line. -/
abbrev s5 : List (HloOp τ sig (Elt F)) :=
  [ binary main_v26 main_v33 main_v34 ((fun a b => concatenate S400000x10x64 2 [⟨S400000x10x32, a⟩, ⟨S400000x10x32, b⟩] concatenates_S400000x10x32_S400000x10x32_S400000x10x64_d2) : (⟨S400000x10x32, .f32⟩ : BufTy).Contents (Elt F) → (⟨S400000x10x32, .f32⟩ : BufTy).Contents (Elt F) → (⟨S400000x10x64, .f32⟩ : BufTy).Contents (Elt F)),
    unary main_arg4 main_v35 (broadcastInDim S400000x10x64 ![0, 1, 2] bcast_S1x10x64_S400000x10x64_0_1_2 : (⟨S1x10x64, .f32⟩ : BufTy).Contents (Elt F) → (⟨S400000x10x64, .f32⟩ : BufTy).Contents (Elt F)),
    binary main_v34 main_v35 main_v36 (mulf : (⟨S400000x10x64, .f32⟩ : BufTy).Contents (Elt F) → (⟨S400000x10x64, .f32⟩ : BufTy).Contents (Elt F) → (⟨S400000x10x64, .f32⟩ : BufTy).Contents (Elt F)),
    nullary main_cst_6 (constant S_ .f32 0x00000000#32),
    binary main_v36 main_cst_6 main_v37 ((fun x v => Host.reduceAdd x v reducesTo_S400000x10x64_S400000x10_d2 h_S_) : (⟨S400000x10x64, .f32⟩ : BufTy).Contents (Elt F) → (⟨S_, .f32⟩ : BufTy).Contents (Elt F) → (⟨S400000x10, .f32⟩ : BufTy).Contents (Elt F)),
    nullary main_cst_7 (constant S_ .f32 0x00000000#32),
    unary main_cst_7 main_v38 (broadcastInDim S400000x10 ![] bcast_S_S400000x10 : (⟨S_, .f32⟩ : BufTy).Contents (Elt F) → (⟨S400000x10, .f32⟩ : BufTy).Contents (Elt F)),
    binary main_v37 main_v38 main_v39 (cmpf .oge : (⟨S400000x10, .f32⟩ : BufTy).Contents (Elt F) → (⟨S400000x10, .f32⟩ : BufTy).Contents (Elt F) → (⟨S400000x10, .i1⟩ : BufTy).Contents (Elt F)),
    nullary main_cst_8 (constant S_ .f32 0x3E4CCCCD#32),
    unary main_cst_8 main_v40 (broadcastInDim S400000x10 ![] bcast_S_S400000x10 : (⟨S_, .f32⟩ : BufTy).Contents (Elt F) → (⟨S400000x10, .f32⟩ : BufTy).Contents (Elt F)),
    binary main_v40 main_v37 main_v41 (mulf : (⟨S400000x10, .f32⟩ : BufTy).Contents (Elt F) → (⟨S400000x10, .f32⟩ : BufTy).Contents (Elt F) → (⟨S400000x10, .f32⟩ : BufTy).Contents (Elt F)),
    TRef.ternary (TRef.of (T := ⟨S400000x10, .i1⟩) main_v39) (TRef.of (T := ⟨S400000x10, .f32⟩) main_v37) (TRef.of (T := ⟨S400000x10, .f32⟩) main_v41) (TRef.of (T := ⟨S400000x10, .f32⟩) main_v42) select ]

/-- Stretch 6: operations 55–72 of the line. -/
abbrev s6 : List (HloOp τ sig (Elt F)) :=
  [ reshape main_v42 main_v43 rfl shapeCasts_S400000x10_S400000x10x1,
    unary main_arg8 main_v44 (broadcastInDim S1x10x1 ![1] bcast_S10_S1x10x1_1 : (⟨S10, .f32⟩ : BufTy).Contents (Elt F) → (⟨S1x10x1, .f32⟩ : BufTy).Contents (Elt F)),
    unary main_v44 main_v45 (broadcastInDim S400000x10x1 ![0, 1, 2] bcast_S1x10x1_S400000x10x1_0_1_2 : (⟨S1x10x1, .f32⟩ : BufTy).Contents (Elt F) → (⟨S400000x10x1, .f32⟩ : BufTy).Contents (Elt F)),
    binary main_v43 main_v45 main_v46 (subf : (⟨S400000x10x1, .f32⟩ : BufTy).Contents (Elt F) → (⟨S400000x10x1, .f32⟩ : BufTy).Contents (Elt F) → (⟨S400000x10x1, .f32⟩ : BufTy).Contents (Elt F)),
    nullary main_cst_9 (constant S_ .f32 0x3727C5AC#32),
    unary main_cst_9 main_v47 (broadcastInDim S10 ![] bcast_S_S10 : (⟨S_, .f32⟩ : BufTy).Contents (Elt F) → (⟨S10, .f32⟩ : BufTy).Contents (Elt F)),
    binary main_arg9 main_v47 main_v48 (addf : (⟨S10, .f32⟩ : BufTy).Contents (Elt F) → (⟨S10, .f32⟩ : BufTy).Contents (Elt F) → (⟨S10, .f32⟩ : BufTy).Contents (Elt F)),
    unary main_v48 main_v49 (Host.rsqrt : (⟨S10, .f32⟩ : BufTy).Contents (Elt F) → (⟨S10, .f32⟩ : BufTy).Contents (Elt F)),
    unary main_v49 main_v50 (broadcastInDim S1x10x1 ![1] bcast_S10_S1x10x1_1 : (⟨S10, .f32⟩ : BufTy).Contents (Elt F) → (⟨S1x10x1, .f32⟩ : BufTy).Contents (Elt F)),
    unary main_v50 main_v51 (broadcastInDim S400000x10x1 ![0, 1, 2] bcast_S1x10x1_S400000x10x1_0_1_2 : (⟨S1x10x1, .f32⟩ : BufTy).Contents (Elt F) → (⟨S400000x10x1, .f32⟩ : BufTy).Contents (Elt F)),
    binary main_v46 main_v51 main_v52 (mulf : (⟨S400000x10x1, .f32⟩ : BufTy).Contents (Elt F) → (⟨S400000x10x1, .f32⟩ : BufTy).Contents (Elt F) → (⟨S400000x10x1, .f32⟩ : BufTy).Contents (Elt F)),
    reshape main_v52 main_v53 rfl shapeCasts_S400000x10x1_S400000x10,
    unary main_arg6 main_v54 (broadcastInDim S1x10 ![1] bcast_S10_S1x10_1 : (⟨S10, .f32⟩ : BufTy).Contents (Elt F) → (⟨S1x10, .f32⟩ : BufTy).Contents (Elt F)),
    unary main_v54 main_v55 (broadcastInDim S400000x10 ![0, 1] bcast_S1x10_S400000x10_0_1 : (⟨S1x10, .f32⟩ : BufTy).Contents (Elt F) → (⟨S400000x10, .f32⟩ : BufTy).Contents (Elt F)),
    binary main_v53 main_v55 main_v56 (mulf : (⟨S400000x10, .f32⟩ : BufTy).Contents (Elt F) → (⟨S400000x10, .f32⟩ : BufTy).Contents (Elt F) → (⟨S400000x10, .f32⟩ : BufTy).Contents (Elt F)),
    unary main_arg7 main_v57 (broadcastInDim S1x10 ![1] bcast_S10_S1x10_1 : (⟨S10, .f32⟩ : BufTy).Contents (Elt F) → (⟨S1x10, .f32⟩ : BufTy).Contents (Elt F)),
    unary main_v57 main_v58 (broadcastInDim S400000x10 ![0, 1] bcast_S1x10_S400000x10_0_1 : (⟨S1x10, .f32⟩ : BufTy).Contents (Elt F) → (⟨S400000x10, .f32⟩ : BufTy).Contents (Elt F)),
    binary main_v56 main_v58 main_v59 (addf : (⟨S400000x10, .f32⟩ : BufTy).Contents (Elt F) → (⟨S400000x10, .f32⟩ : BufTy).Contents (Elt F) → (⟨S400000x10, .f32⟩ : BufTy).Contents (Elt F)) ]

/-- Stretch 7: operations 73–81 of the line. -/
abbrev s7 : List (HloOp τ sig (Elt F)) :=
  [ nullary main_cst_10 (constant S_ .f32 0xFF800000#32),
    binary main_v59 main_cst_10 main_v60 ((fun x v => Host.reduce FloatOps.maximumf x v reducesTo_S400000x10_S400000_d1 h_S_) : (⟨S400000x10, .f32⟩ : BufTy).Contents (Elt F) → (⟨S_, .f32⟩ : BufTy).Contents (Elt F) → (⟨S400000, .f32⟩ : BufTy).Contents (Elt F)),
    nullary main_cst_11 (constant S_ .f32 0xFF800000#32),
    unary main_cst_11 main_v61 (broadcastInDim S400000 ![] bcast_S_S400000 : (⟨S_, .f32⟩ : BufTy).Contents (Elt F) → (⟨S400000, .f32⟩ : BufTy).Contents (Elt F)),
    binary main_v61 main_v60 main_v62 (maximumf : (⟨S400000, .f32⟩ : BufTy).Contents (Elt F) → (⟨S400000, .f32⟩ : BufTy).Contents (Elt F) → (⟨S400000, .f32⟩ : BufTy).Contents (Elt F)),
    unary main_v62 main_v63 (broadcastInDim S400000x1 ![0] bcast_S400000_S400000x1_0 : (⟨S400000, .f32⟩ : BufTy).Contents (Elt F) → (⟨S400000x1, .f32⟩ : BufTy).Contents (Elt F)),
    unary main_v63 main_v64 (broadcastInDim S400000x10 ![0, 1] bcast_S400000x1_S400000x10_0_1 : (⟨S400000x1, .f32⟩ : BufTy).Contents (Elt F) → (⟨S400000x10, .f32⟩ : BufTy).Contents (Elt F)),
    binary main_v59 main_v64 main_v65 (subf : (⟨S400000x10, .f32⟩ : BufTy).Contents (Elt F) → (⟨S400000x10, .f32⟩ : BufTy).Contents (Elt F) → (⟨S400000x10, .f32⟩ : BufTy).Contents (Elt F)),
    unary main_v65 main_v66 (Host.exp : (⟨S400000x10, .f32⟩ : BufTy).Contents (Elt F) → (⟨S400000x10, .f32⟩ : BufTy).Contents (Elt F)) ]

/-- Stretch 8: operations 82–89 of the line. -/
abbrev s8 : List (HloOp τ sig (Elt F)) :=
  [ nullary main_cst_12 (constant S_ .f32 0x00000000#32),
    binary main_v66 main_cst_12 main_v67 ((fun x v => Host.reduceAdd x v reducesTo_S400000x10_S400000_d1 h_S_) : (⟨S400000x10, .f32⟩ : BufTy).Contents (Elt F) → (⟨S_, .f32⟩ : BufTy).Contents (Elt F) → (⟨S400000, .f32⟩ : BufTy).Contents (Elt F)),
    unary main_v67 main_v68 (broadcastInDim S400000x1 ![0] bcast_S400000_S400000x1_0 : (⟨S400000, .f32⟩ : BufTy).Contents (Elt F) → (⟨S400000x1, .f32⟩ : BufTy).Contents (Elt F)),
    unary main_v68 main_v69 (broadcastInDim S400000x10 ![0, 1] bcast_S400000x1_S400000x10_0_1 : (⟨S400000x1, .f32⟩ : BufTy).Contents (Elt F) → (⟨S400000x10, .f32⟩ : BufTy).Contents (Elt F)),
    binary main_v66 main_v69 main_v70 (Host.divf : (⟨S400000x10, .f32⟩ : BufTy).Contents (Elt F) → (⟨S400000x10, .f32⟩ : BufTy).Contents (Elt F) → (⟨S400000x10, .f32⟩ : BufTy).Contents (Elt F)),
    unary main_v70 main_v71 (broadcastInDim S400000x10x1 ![0, 1] bcast_S400000x10_S400000x10x1_0_1 : (⟨S400000x10, .f32⟩ : BufTy).Contents (Elt F) → (⟨S400000x10x1, .f32⟩ : BufTy).Contents (Elt F)),
    unary main_v71 main_v72 (broadcastInDim S400000x10x32 ![0, 1, 2] bcast_S400000x10x1_S400000x10x32_0_1_2 : (⟨S400000x10x1, .f32⟩ : BufTy).Contents (Elt F) → (⟨S400000x10x32, .f32⟩ : BufTy).Contents (Elt F)),
    binary main_v33 main_v72 main_v73 (mulf : (⟨S400000x10x32, .f32⟩ : BufTy).Contents (Elt F) → (⟨S400000x10x32, .f32⟩ : BufTy).Contents (Elt F) → (⟨S400000x10x32, .f32⟩ : BufTy).Contents (Elt F)) ]

/-- Stretch 9: operations 90–104 of the line. -/
abbrev s9 : List (HloOp τ sig (Elt F)) :=
  [ unary main_v73 main_v74 ((transpose S10x400000x32 [1, 0, 2] · transposes_S400000x10x32_S10x400000x32_1_0_2) : (⟨S400000x10x32, .f32⟩ : BufTy).Contents (Elt F) → (⟨S10x400000x32, .f32⟩ : BufTy).Contents (Elt F)),
    reshape main_v74 main_v75 rfl shapeCasts_S10x400000x32_S400000x320,
    nullary main_cst_13 (constant S_ .f32 0x00000000#32),
    unary main_cst_13 main_v76 (broadcastInDim S25000x320 ![] bcast_S_S25000x320 : (⟨S_, .f32⟩ : BufTy).Contents (Elt F) → (⟨S25000x320, .f32⟩ : BufTy).Contents (Elt F)),
    unary main_v1 main_v77 (broadcastInDim S400000x1 ![0] bcast_S400000_S400000x1_0 : (⟨S400000, .i32⟩ : BufTy).Contents (Elt F) → (⟨S400000x1, .i32⟩ : BufTy).Contents (Elt F)),
    ternary main_v76 main_v77 main_v75 main_v78 ((fun x i u => Host.scatterAdd scatter_S25000x320_S400000x1_S400000x320_1_0_0_1 x i u) : (⟨S25000x320, .f32⟩ : BufTy).Contents (Elt F) → (⟨S400000x1, .i32⟩ : BufTy).Contents (Elt F) → (⟨S400000x320, .f32⟩ : BufTy).Contents (Elt F) → (⟨S25000x320, .f32⟩ : BufTy).Contents (Elt F)),
    reshape main_v78 main_v79 rfl shapeCasts_S25000x320_S25000x10x32,
    nullary main_cst_14 (constant S_ .f32 0x00000000#32),
    binary main_v79 main_cst_14 main_v80 ((fun x v => Host.reduceAdd x v reducesTo_S25000x10x32_S25000x32_d1 h_S_) : (⟨S25000x10x32, .f32⟩ : BufTy).Contents (Elt F) → (⟨S_, .f32⟩ : BufTy).Contents (Elt F) → (⟨S25000x32, .f32⟩ : BufTy).Contents (Elt F)),
    nullary main_cst_15 (constant S_ .f32 0x41200000#32),
    unary main_cst_15 main_v81 (broadcastInDim S25000x32 ![] bcast_S_S25000x32 : (⟨S_, .f32⟩ : BufTy).Contents (Elt F) → (⟨S25000x32, .f32⟩ : BufTy).Contents (Elt F)),
    binary main_v80 main_v81 main_v82 (Host.divf : (⟨S25000x32, .f32⟩ : BufTy).Contents (Elt F) → (⟨S25000x32, .f32⟩ : BufTy).Contents (Elt F) → (⟨S25000x32, .f32⟩ : BufTy).Contents (Elt F)),
    unary main_arg5 main_v83 (broadcastInDim S1x32 ![1] bcast_S32_S1x32_1 : (⟨S32, .f32⟩ : BufTy).Contents (Elt F) → (⟨S1x32, .f32⟩ : BufTy).Contents (Elt F)),
    unary main_v83 main_v84 (broadcastInDim S25000x32 ![0, 1] bcast_S1x32_S25000x32_0_1 : (⟨S1x32, .f32⟩ : BufTy).Contents (Elt F) → (⟨S25000x32, .f32⟩ : BufTy).Contents (Elt F)),
    binary main_v82 main_v84 main_v85 (addf : (⟨S25000x32, .f32⟩ : BufTy).Contents (Elt F) → (⟨S25000x32, .f32⟩ : BufTy).Contents (Elt F) → (⟨S25000x32, .f32⟩ : BufTy).Contents (Elt F)) ]

set_option maxRecDepth 8192 in
/-- The line is its stretches, one after the other. -/
theorem ops_eq : (ops : List (HloOp τ sig (Elt F))) = s1 ++ s2 ++ s3 ++ s4 ++ s5 ++ s6 ++ s7 ++ s8 ++ s9 := rfl

/-! ## One stretch at a time, over an arbitrary incoming memory -/

/-- Stretch 1: from a memory holding the stage functions still to be read and the arguments, to the same after it. -/
theorem step1 (W : Valuation τ sig (Elt F)) (a0 : (⟨S25000x32, .f32⟩ : BufTy).Contents (Elt F)) (a1 : (⟨S2x400000, .i32⟩ : BufTy).Contents (Elt F)) (a2 : (⟨S400000x32, .f32⟩ : BufTy).Contents (Elt F)) (a3 : (⟨S64x320, .f32⟩ : BufTy).Contents (Elt F)) (a4 : (⟨S1x10x64, .f32⟩ : BufTy).Contents (Elt F)) (a5 : (⟨S32, .f32⟩ : BufTy).Contents (Elt F)) (a6 : (⟨S10, .f32⟩ : BufTy).Contents (Elt F)) (a7 : (⟨S10, .f32⟩ : BufTy).Contents (Elt F)) (a8 : (⟨S10, .f32⟩ : BufTy).Contents (Elt F)) (a9 : (⟨S10, .f32⟩ : BufTy).Contents (Elt F))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) :
    (after s1 W (Proc.devRef .tc main_v1) = ReadP.val_main_v1 (F := F) a1
      ∧ after s1 W (Proc.devRef .tc main_v3) = ReadP.val_main_v3 (F := F) a1
      ∧ after s1 W (Proc.devRef .tc main_v10) = ReadP.val_main_v10 (F := F) a0 a1)
    ∧ after s1 W (Proc.devRef .tc main_arg0) = a0
    ∧ after s1 W (Proc.devRef .tc main_arg1) = a1
    ∧ after s1 W (Proc.devRef .tc main_arg2) = a2
    ∧ after s1 W (Proc.devRef .tc main_arg3) = a3
    ∧ after s1 W (Proc.devRef .tc main_arg4) = a4
    ∧ after s1 W (Proc.devRef .tc main_arg5) = a5
    ∧ after s1 W (Proc.devRef .tc main_arg6) = a6
    ∧ after s1 W (Proc.devRef .tc main_arg7) = a7
    ∧ after s1 W (Proc.devRef .tc main_arg8) = a8
    ∧ after s1 W (Proc.devRef .tc main_arg9) = a9 := by
  refine ⟨⟨?_, ?_, ?_⟩, ?_, ?_, ?_, ?_, ?_, ?_, ?_, ?_, ?_, ?_⟩
  all_goals (after_results_simp <;> (try rw [h0]) <;> (try rw [h1]) <;> (try rw [h2]) <;> (try rw [h3]) <;> (try rw [h4]) <;> (try rw [h5]) <;> (try rw [h6]) <;> (try rw [h7]) <;> (try rw [h8]) <;> (try rw [h9])) <;> (try rfl)

/-- Stretch 2: from a memory holding the stage functions still to be read and the arguments, to the same after it. -/
theorem step2 (W : Valuation τ sig (Elt F)) (a0 : (⟨S25000x32, .f32⟩ : BufTy).Contents (Elt F)) (a1 : (⟨S2x400000, .i32⟩ : BufTy).Contents (Elt F)) (a2 : (⟨S400000x32, .f32⟩ : BufTy).Contents (Elt F)) (a3 : (⟨S64x320, .f32⟩ : BufTy).Contents (Elt F)) (a4 : (⟨S1x10x64, .f32⟩ : BufTy).Contents (Elt F)) (a5 : (⟨S32, .f32⟩ : BufTy).Contents (Elt F)) (a6 : (⟨S10, .f32⟩ : BufTy).Contents (Elt F)) (a7 : (⟨S10, .f32⟩ : BufTy).Contents (Elt F)) (a8 : (⟨S10, .f32⟩ : BufTy).Contents (Elt F)) (a9 : (⟨S10, .f32⟩ : BufTy).Contents (Elt F))
    (hv1 : W (Proc.devRef .tc main_v1) = ReadP.val_main_v1 (F := F) a1)
    (hv3 : W (Proc.devRef .tc main_v3) = ReadP.val_main_v3 (F := F) a1)
    (hv10 : W (Proc.devRef .tc main_v10) = ReadP.val_main_v10 (F := F) a0 a1)
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) :
    (after s2 W (Proc.devRef .tc main_v1) = ReadP.val_main_v1 (F := F) a1
      ∧ after s2 W (Proc.devRef .tc main_v11) = ReadP.val_main_v11 (F := F) a0 a1 a2
      ∧ after s2 W (Proc.devRef .tc main_v18) = ReadP.val_main_v18 (F := F) a0 a1)
    ∧ after s2 W (Proc.devRef .tc main_arg0) = a0
    ∧ after s2 W (Proc.devRef .tc main_arg1) = a1
    ∧ after s2 W (Proc.devRef .tc main_arg2) = a2
    ∧ after s2 W (Proc.devRef .tc main_arg3) = a3
    ∧ after s2 W (Proc.devRef .tc main_arg4) = a4
    ∧ after s2 W (Proc.devRef .tc main_arg5) = a5
    ∧ after s2 W (Proc.devRef .tc main_arg6) = a6
    ∧ after s2 W (Proc.devRef .tc main_arg7) = a7
    ∧ after s2 W (Proc.devRef .tc main_arg8) = a8
    ∧ after s2 W (Proc.devRef .tc main_arg9) = a9 := by
  refine ⟨⟨?_, ?_, ?_⟩, ?_, ?_, ?_, ?_, ?_, ?_, ?_, ?_, ?_, ?_⟩
  all_goals (after_results_simp <;> (try rw [hv1]) <;> (try rw [hv3]) <;> (try rw [hv10]) <;> (try rw [h0]) <;> (try rw [h1]) <;> (try rw [h2]) <;> (try rw [h3]) <;> (try rw [h4]) <;> (try rw [h5]) <;> (try rw [h6]) <;> (try rw [h7]) <;> (try rw [h8]) <;> (try rw [h9])) <;> (try rfl)

/-- Stretch 3: from a memory holding the stage functions still to be read and the arguments, to the same after it. -/
theorem step3 (W : Valuation τ sig (Elt F)) (a0 : (⟨S25000x32, .f32⟩ : BufTy).Contents (Elt F)) (a1 : (⟨S2x400000, .i32⟩ : BufTy).Contents (Elt F)) (a2 : (⟨S400000x32, .f32⟩ : BufTy).Contents (Elt F)) (a3 : (⟨S64x320, .f32⟩ : BufTy).Contents (Elt F)) (a4 : (⟨S1x10x64, .f32⟩ : BufTy).Contents (Elt F)) (a5 : (⟨S32, .f32⟩ : BufTy).Contents (Elt F)) (a6 : (⟨S10, .f32⟩ : BufTy).Contents (Elt F)) (a7 : (⟨S10, .f32⟩ : BufTy).Contents (Elt F)) (a8 : (⟨S10, .f32⟩ : BufTy).Contents (Elt F)) (a9 : (⟨S10, .f32⟩ : BufTy).Contents (Elt F))
    (hv1 : W (Proc.devRef .tc main_v1) = ReadP.val_main_v1 (F := F) a1)
    (hv11 : W (Proc.devRef .tc main_v11) = ReadP.val_main_v11 (F := F) a0 a1 a2)
    (hv18 : W (Proc.devRef .tc main_v18) = ReadP.val_main_v18 (F := F) a0 a1)
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) :
    (after s3 W (Proc.devRef .tc main_v1) = ReadP.val_main_v1 (F := F) a1
      ∧ after s3 W (Proc.devRef .tc main_v19) = ReadP.val_main_v19 (F := F) a0 a1 a2
      ∧ after s3 W (Proc.devRef .tc main_v25) = ReadP.val_main_v25 (F := F) a0 a1 a2 a3)
    ∧ after s3 W (Proc.devRef .tc main_arg0) = a0
    ∧ after s3 W (Proc.devRef .tc main_arg1) = a1
    ∧ after s3 W (Proc.devRef .tc main_arg2) = a2
    ∧ after s3 W (Proc.devRef .tc main_arg3) = a3
    ∧ after s3 W (Proc.devRef .tc main_arg4) = a4
    ∧ after s3 W (Proc.devRef .tc main_arg5) = a5
    ∧ after s3 W (Proc.devRef .tc main_arg6) = a6
    ∧ after s3 W (Proc.devRef .tc main_arg7) = a7
    ∧ after s3 W (Proc.devRef .tc main_arg8) = a8
    ∧ after s3 W (Proc.devRef .tc main_arg9) = a9 := by
  refine ⟨⟨?_, ?_, ?_⟩, ?_, ?_, ?_, ?_, ?_, ?_, ?_, ?_, ?_, ?_⟩
  all_goals (after_results_simp <;> (try rw [hv1]) <;> (try rw [hv11]) <;> (try rw [hv18]) <;> (try rw [h0]) <;> (try rw [h1]) <;> (try rw [h2]) <;> (try rw [h3]) <;> (try rw [h4]) <;> (try rw [h5]) <;> (try rw [h6]) <;> (try rw [h7]) <;> (try rw [h8]) <;> (try rw [h9])) <;> (try rfl)

/-- Stretch 4: from a memory holding the stage functions still to be read and the arguments, to the same after it. -/
theorem step4 (W : Valuation τ sig (Elt F)) (a0 : (⟨S25000x32, .f32⟩ : BufTy).Contents (Elt F)) (a1 : (⟨S2x400000, .i32⟩ : BufTy).Contents (Elt F)) (a2 : (⟨S400000x32, .f32⟩ : BufTy).Contents (Elt F)) (a3 : (⟨S64x320, .f32⟩ : BufTy).Contents (Elt F)) (a4 : (⟨S1x10x64, .f32⟩ : BufTy).Contents (Elt F)) (a5 : (⟨S32, .f32⟩ : BufTy).Contents (Elt F)) (a6 : (⟨S10, .f32⟩ : BufTy).Contents (Elt F)) (a7 : (⟨S10, .f32⟩ : BufTy).Contents (Elt F)) (a8 : (⟨S10, .f32⟩ : BufTy).Contents (Elt F)) (a9 : (⟨S10, .f32⟩ : BufTy).Contents (Elt F))
    (hv1 : W (Proc.devRef .tc main_v1) = ReadP.val_main_v1 (F := F) a1)
    (hv19 : W (Proc.devRef .tc main_v19) = ReadP.val_main_v19 (F := F) a0 a1 a2)
    (hv25 : W (Proc.devRef .tc main_v25) = ReadP.val_main_v25 (F := F) a0 a1 a2 a3)
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) :
    (after s4 W (Proc.devRef .tc main_v1) = ReadP.val_main_v1 (F := F) a1
      ∧ after s4 W (Proc.devRef .tc main_v26) = ReadP.val_main_v26 (F := F) a0 a1 a2 a3
      ∧ after s4 W (Proc.devRef .tc main_v33) = ReadP.val_main_v33 (F := F) a0 a1 a2 a3)
    ∧ after s4 W (Proc.devRef .tc main_arg0) = a0
    ∧ after s4 W (Proc.devRef .tc main_arg1) = a1
    ∧ after s4 W (Proc.devRef .tc main_arg2) = a2
    ∧ after s4 W (Proc.devRef .tc main_arg3) = a3
    ∧ after s4 W (Proc.devRef .tc main_arg4) = a4
    ∧ after s4 W (Proc.devRef .tc main_arg5) = a5
    ∧ after s4 W (Proc.devRef .tc main_arg6) = a6
    ∧ after s4 W (Proc.devRef .tc main_arg7) = a7
    ∧ after s4 W (Proc.devRef .tc main_arg8) = a8
    ∧ after s4 W (Proc.devRef .tc main_arg9) = a9 := by
  refine ⟨⟨?_, ?_, ?_⟩, ?_, ?_, ?_, ?_, ?_, ?_, ?_, ?_, ?_, ?_⟩
  all_goals (after_results_simp <;> (try rw [hv1]) <;> (try rw [hv19]) <;> (try rw [hv25]) <;> (try rw [h0]) <;> (try rw [h1]) <;> (try rw [h2]) <;> (try rw [h3]) <;> (try rw [h4]) <;> (try rw [h5]) <;> (try rw [h6]) <;> (try rw [h7]) <;> (try rw [h8]) <;> (try rw [h9])) <;> (try rfl)

/-- Stretch 5: from a memory holding the stage functions still to be read and the arguments, to the same after it. -/
theorem step5 (W : Valuation τ sig (Elt F)) (a0 : (⟨S25000x32, .f32⟩ : BufTy).Contents (Elt F)) (a1 : (⟨S2x400000, .i32⟩ : BufTy).Contents (Elt F)) (a2 : (⟨S400000x32, .f32⟩ : BufTy).Contents (Elt F)) (a3 : (⟨S64x320, .f32⟩ : BufTy).Contents (Elt F)) (a4 : (⟨S1x10x64, .f32⟩ : BufTy).Contents (Elt F)) (a5 : (⟨S32, .f32⟩ : BufTy).Contents (Elt F)) (a6 : (⟨S10, .f32⟩ : BufTy).Contents (Elt F)) (a7 : (⟨S10, .f32⟩ : BufTy).Contents (Elt F)) (a8 : (⟨S10, .f32⟩ : BufTy).Contents (Elt F)) (a9 : (⟨S10, .f32⟩ : BufTy).Contents (Elt F))
    (hv1 : W (Proc.devRef .tc main_v1) = ReadP.val_main_v1 (F := F) a1)
    (hv26 : W (Proc.devRef .tc main_v26) = ReadP.val_main_v26 (F := F) a0 a1 a2 a3)
    (hv33 : W (Proc.devRef .tc main_v33) = ReadP.val_main_v33 (F := F) a0 a1 a2 a3)
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) :
    (after s5 W (Proc.devRef .tc main_v1) = ReadP.val_main_v1 (F := F) a1
      ∧ after s5 W (Proc.devRef .tc main_v33) = ReadP.val_main_v33 (F := F) a0 a1 a2 a3
      ∧ after s5 W (Proc.devRef .tc main_v42) = ReadP.val_main_v42 (F := F) a0 a1 a2 a3 a4)
    ∧ after s5 W (Proc.devRef .tc main_arg0) = a0
    ∧ after s5 W (Proc.devRef .tc main_arg1) = a1
    ∧ after s5 W (Proc.devRef .tc main_arg2) = a2
    ∧ after s5 W (Proc.devRef .tc main_arg3) = a3
    ∧ after s5 W (Proc.devRef .tc main_arg4) = a4
    ∧ after s5 W (Proc.devRef .tc main_arg5) = a5
    ∧ after s5 W (Proc.devRef .tc main_arg6) = a6
    ∧ after s5 W (Proc.devRef .tc main_arg7) = a7
    ∧ after s5 W (Proc.devRef .tc main_arg8) = a8
    ∧ after s5 W (Proc.devRef .tc main_arg9) = a9 := by
  refine ⟨⟨?_, ?_, ?_⟩, ?_, ?_, ?_, ?_, ?_, ?_, ?_, ?_, ?_, ?_⟩
  all_goals (after_results_simp <;> (try rw [hv1]) <;> (try rw [hv26]) <;> (try rw [hv33]) <;> (try rw [h0]) <;> (try rw [h1]) <;> (try rw [h2]) <;> (try rw [h3]) <;> (try rw [h4]) <;> (try rw [h5]) <;> (try rw [h6]) <;> (try rw [h7]) <;> (try rw [h8]) <;> (try rw [h9])) <;> (try rfl)

/-- Stretch 6: from a memory holding the stage functions still to be read and the arguments, to the same after it. -/
theorem step6 (W : Valuation τ sig (Elt F)) (a0 : (⟨S25000x32, .f32⟩ : BufTy).Contents (Elt F)) (a1 : (⟨S2x400000, .i32⟩ : BufTy).Contents (Elt F)) (a2 : (⟨S400000x32, .f32⟩ : BufTy).Contents (Elt F)) (a3 : (⟨S64x320, .f32⟩ : BufTy).Contents (Elt F)) (a4 : (⟨S1x10x64, .f32⟩ : BufTy).Contents (Elt F)) (a5 : (⟨S32, .f32⟩ : BufTy).Contents (Elt F)) (a6 : (⟨S10, .f32⟩ : BufTy).Contents (Elt F)) (a7 : (⟨S10, .f32⟩ : BufTy).Contents (Elt F)) (a8 : (⟨S10, .f32⟩ : BufTy).Contents (Elt F)) (a9 : (⟨S10, .f32⟩ : BufTy).Contents (Elt F))
    (hv1 : W (Proc.devRef .tc main_v1) = ReadP.val_main_v1 (F := F) a1)
    (hv33 : W (Proc.devRef .tc main_v33) = ReadP.val_main_v33 (F := F) a0 a1 a2 a3)
    (hv42 : W (Proc.devRef .tc main_v42) = ReadP.val_main_v42 (F := F) a0 a1 a2 a3 a4)
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) :
    (after s6 W (Proc.devRef .tc main_v1) = ReadP.val_main_v1 (F := F) a1
      ∧ after s6 W (Proc.devRef .tc main_v33) = ReadP.val_main_v33 (F := F) a0 a1 a2 a3
      ∧ after s6 W (Proc.devRef .tc main_v59) = ReadP.val_main_v59 (F := F) a0 a1 a2 a3 a4 a6 a7 a8 a9)
    ∧ after s6 W (Proc.devRef .tc main_arg0) = a0
    ∧ after s6 W (Proc.devRef .tc main_arg1) = a1
    ∧ after s6 W (Proc.devRef .tc main_arg2) = a2
    ∧ after s6 W (Proc.devRef .tc main_arg3) = a3
    ∧ after s6 W (Proc.devRef .tc main_arg4) = a4
    ∧ after s6 W (Proc.devRef .tc main_arg5) = a5
    ∧ after s6 W (Proc.devRef .tc main_arg6) = a6
    ∧ after s6 W (Proc.devRef .tc main_arg7) = a7
    ∧ after s6 W (Proc.devRef .tc main_arg8) = a8
    ∧ after s6 W (Proc.devRef .tc main_arg9) = a9 := by
  refine ⟨⟨?_, ?_, ?_⟩, ?_, ?_, ?_, ?_, ?_, ?_, ?_, ?_, ?_, ?_⟩
  all_goals (after_results_simp <;> (try rw [hv1]) <;> (try rw [hv33]) <;> (try rw [hv42]) <;> (try rw [h0]) <;> (try rw [h1]) <;> (try rw [h2]) <;> (try rw [h3]) <;> (try rw [h4]) <;> (try rw [h5]) <;> (try rw [h6]) <;> (try rw [h7]) <;> (try rw [h8]) <;> (try rw [h9])) <;> (try rfl)

/-- Stretch 7: from a memory holding the stage functions still to be read and the arguments, to the same after it. -/
theorem step7 (W : Valuation τ sig (Elt F)) (a0 : (⟨S25000x32, .f32⟩ : BufTy).Contents (Elt F)) (a1 : (⟨S2x400000, .i32⟩ : BufTy).Contents (Elt F)) (a2 : (⟨S400000x32, .f32⟩ : BufTy).Contents (Elt F)) (a3 : (⟨S64x320, .f32⟩ : BufTy).Contents (Elt F)) (a4 : (⟨S1x10x64, .f32⟩ : BufTy).Contents (Elt F)) (a5 : (⟨S32, .f32⟩ : BufTy).Contents (Elt F)) (a6 : (⟨S10, .f32⟩ : BufTy).Contents (Elt F)) (a7 : (⟨S10, .f32⟩ : BufTy).Contents (Elt F)) (a8 : (⟨S10, .f32⟩ : BufTy).Contents (Elt F)) (a9 : (⟨S10, .f32⟩ : BufTy).Contents (Elt F))
    (hv1 : W (Proc.devRef .tc main_v1) = ReadP.val_main_v1 (F := F) a1)
    (hv33 : W (Proc.devRef .tc main_v33) = ReadP.val_main_v33 (F := F) a0 a1 a2 a3)
    (hv59 : W (Proc.devRef .tc main_v59) = ReadP.val_main_v59 (F := F) a0 a1 a2 a3 a4 a6 a7 a8 a9)
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) :
    (after s7 W (Proc.devRef .tc main_v1) = ReadP.val_main_v1 (F := F) a1
      ∧ after s7 W (Proc.devRef .tc main_v33) = ReadP.val_main_v33 (F := F) a0 a1 a2 a3
      ∧ after s7 W (Proc.devRef .tc main_v66) = ReadP.val_main_v66 (F := F) a0 a1 a2 a3 a4 a6 a7 a8 a9)
    ∧ after s7 W (Proc.devRef .tc main_arg0) = a0
    ∧ after s7 W (Proc.devRef .tc main_arg1) = a1
    ∧ after s7 W (Proc.devRef .tc main_arg2) = a2
    ∧ after s7 W (Proc.devRef .tc main_arg3) = a3
    ∧ after s7 W (Proc.devRef .tc main_arg4) = a4
    ∧ after s7 W (Proc.devRef .tc main_arg5) = a5
    ∧ after s7 W (Proc.devRef .tc main_arg6) = a6
    ∧ after s7 W (Proc.devRef .tc main_arg7) = a7
    ∧ after s7 W (Proc.devRef .tc main_arg8) = a8
    ∧ after s7 W (Proc.devRef .tc main_arg9) = a9 := by
  refine ⟨⟨?_, ?_, ?_⟩, ?_, ?_, ?_, ?_, ?_, ?_, ?_, ?_, ?_, ?_⟩
  all_goals (after_results_simp <;> (try rw [hv1]) <;> (try rw [hv33]) <;> (try rw [hv59]) <;> (try rw [h0]) <;> (try rw [h1]) <;> (try rw [h2]) <;> (try rw [h3]) <;> (try rw [h4]) <;> (try rw [h5]) <;> (try rw [h6]) <;> (try rw [h7]) <;> (try rw [h8]) <;> (try rw [h9])) <;> (try rfl)

/-- Stretch 8: from a memory holding the stage functions still to be read and the arguments, to the same after it. -/
theorem step8 (W : Valuation τ sig (Elt F)) (a0 : (⟨S25000x32, .f32⟩ : BufTy).Contents (Elt F)) (a1 : (⟨S2x400000, .i32⟩ : BufTy).Contents (Elt F)) (a2 : (⟨S400000x32, .f32⟩ : BufTy).Contents (Elt F)) (a3 : (⟨S64x320, .f32⟩ : BufTy).Contents (Elt F)) (a4 : (⟨S1x10x64, .f32⟩ : BufTy).Contents (Elt F)) (a5 : (⟨S32, .f32⟩ : BufTy).Contents (Elt F)) (a6 : (⟨S10, .f32⟩ : BufTy).Contents (Elt F)) (a7 : (⟨S10, .f32⟩ : BufTy).Contents (Elt F)) (a8 : (⟨S10, .f32⟩ : BufTy).Contents (Elt F)) (a9 : (⟨S10, .f32⟩ : BufTy).Contents (Elt F))
    (hv1 : W (Proc.devRef .tc main_v1) = ReadP.val_main_v1 (F := F) a1)
    (hv33 : W (Proc.devRef .tc main_v33) = ReadP.val_main_v33 (F := F) a0 a1 a2 a3)
    (hv66 : W (Proc.devRef .tc main_v66) = ReadP.val_main_v66 (F := F) a0 a1 a2 a3 a4 a6 a7 a8 a9)
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) :
    (after s8 W (Proc.devRef .tc main_v1) = ReadP.val_main_v1 (F := F) a1
      ∧ after s8 W (Proc.devRef .tc main_v73) = ReadP.val_main_v73 (F := F) a0 a1 a2 a3 a4 a6 a7 a8 a9)
    ∧ after s8 W (Proc.devRef .tc main_arg0) = a0
    ∧ after s8 W (Proc.devRef .tc main_arg1) = a1
    ∧ after s8 W (Proc.devRef .tc main_arg2) = a2
    ∧ after s8 W (Proc.devRef .tc main_arg3) = a3
    ∧ after s8 W (Proc.devRef .tc main_arg4) = a4
    ∧ after s8 W (Proc.devRef .tc main_arg5) = a5
    ∧ after s8 W (Proc.devRef .tc main_arg6) = a6
    ∧ after s8 W (Proc.devRef .tc main_arg7) = a7
    ∧ after s8 W (Proc.devRef .tc main_arg8) = a8
    ∧ after s8 W (Proc.devRef .tc main_arg9) = a9 := by
  refine ⟨⟨?_, ?_⟩, ?_, ?_, ?_, ?_, ?_, ?_, ?_, ?_, ?_, ?_⟩
  all_goals (after_results_simp <;> (try rw [hv1]) <;> (try rw [hv33]) <;> (try rw [hv66]) <;> (try rw [h0]) <;> (try rw [h1]) <;> (try rw [h2]) <;> (try rw [h3]) <;> (try rw [h4]) <;> (try rw [h5]) <;> (try rw [h6]) <;> (try rw [h7]) <;> (try rw [h8]) <;> (try rw [h9])) <;> (try rfl)

/-- Stretch 9: from a memory holding the stage functions still to be read and the arguments, to the same after it. -/
theorem step9 (W : Valuation τ sig (Elt F)) (a0 : (⟨S25000x32, .f32⟩ : BufTy).Contents (Elt F)) (a1 : (⟨S2x400000, .i32⟩ : BufTy).Contents (Elt F)) (a2 : (⟨S400000x32, .f32⟩ : BufTy).Contents (Elt F)) (a3 : (⟨S64x320, .f32⟩ : BufTy).Contents (Elt F)) (a4 : (⟨S1x10x64, .f32⟩ : BufTy).Contents (Elt F)) (a5 : (⟨S32, .f32⟩ : BufTy).Contents (Elt F)) (a6 : (⟨S10, .f32⟩ : BufTy).Contents (Elt F)) (a7 : (⟨S10, .f32⟩ : BufTy).Contents (Elt F)) (a8 : (⟨S10, .f32⟩ : BufTy).Contents (Elt F)) (a9 : (⟨S10, .f32⟩ : BufTy).Contents (Elt F))
    (hv1 : W (Proc.devRef .tc main_v1) = ReadP.val_main_v1 (F := F) a1)
    (hv73 : W (Proc.devRef .tc main_v73) = ReadP.val_main_v73 (F := F) a0 a1 a2 a3 a4 a6 a7 a8 a9)
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) :
    (after s9 W (Proc.devRef .tc main_v85) = ReadP.val_main_v85 (F := F) a0 a1 a2 a3 a4 a5 a6 a7 a8 a9)
    ∧ after s9 W (Proc.devRef .tc main_arg0) = a0
    ∧ after s9 W (Proc.devRef .tc main_arg1) = a1
    ∧ after s9 W (Proc.devRef .tc main_arg2) = a2
    ∧ after s9 W (Proc.devRef .tc main_arg3) = a3
    ∧ after s9 W (Proc.devRef .tc main_arg4) = a4
    ∧ after s9 W (Proc.devRef .tc main_arg5) = a5
    ∧ after s9 W (Proc.devRef .tc main_arg6) = a6
    ∧ after s9 W (Proc.devRef .tc main_arg7) = a7
    ∧ after s9 W (Proc.devRef .tc main_arg8) = a8
    ∧ after s9 W (Proc.devRef .tc main_arg9) = a9 := by
  refine ⟨?_, ?_, ?_, ?_, ?_, ?_, ?_, ?_, ?_, ?_, ?_⟩
  all_goals (after_results_simp <;> (try rw [hv1]) <;> (try rw [hv73]) <;> (try rw [h0]) <;> (try rw [h1]) <;> (try rw [h2]) <;> (try rw [h3]) <;> (try rw [h4]) <;> (try rw [h5]) <;> (try rw [h6]) <;> (try rw [h7]) <;> (try rw [h8]) <;> (try rw [h9])) <;> (try rfl)

/-! ## The whole line -/

/-- After the whole line, from a memory whose argument buffers hold ten given arrays: the result buffer holds the last
    stage function of them, and the argument buffers still hold them. -/
theorem after_ops (W : Valuation τ sig (Elt F)) (a0 : (⟨S25000x32, .f32⟩ : BufTy).Contents (Elt F)) (a1 : (⟨S2x400000, .i32⟩ : BufTy).Contents (Elt F)) (a2 : (⟨S400000x32, .f32⟩ : BufTy).Contents (Elt F)) (a3 : (⟨S64x320, .f32⟩ : BufTy).Contents (Elt F)) (a4 : (⟨S1x10x64, .f32⟩ : BufTy).Contents (Elt F)) (a5 : (⟨S32, .f32⟩ : BufTy).Contents (Elt F)) (a6 : (⟨S10, .f32⟩ : BufTy).Contents (Elt F)) (a7 : (⟨S10, .f32⟩ : BufTy).Contents (Elt F)) (a8 : (⟨S10, .f32⟩ : BufTy).Contents (Elt F)) (a9 : (⟨S10, .f32⟩ : BufTy).Contents (Elt F))
    (h0 : W (Proc.devRef .tc main_arg0) = a0) (h1 : W (Proc.devRef .tc main_arg1) = a1) (h2 : W (Proc.devRef .tc main_arg2) = a2) (h3 : W (Proc.devRef .tc main_arg3) = a3) (h4 : W (Proc.devRef .tc main_arg4) = a4) (h5 : W (Proc.devRef .tc main_arg5) = a5) (h6 : W (Proc.devRef .tc main_arg6) = a6) (h7 : W (Proc.devRef .tc main_arg7) = a7) (h8 : W (Proc.devRef .tc main_arg8) = a8) (h9 : W (Proc.devRef .tc main_arg9) = a9) :
    after ops W (Proc.devRef .tc main_v85) = ReadP.val_main_v85 (F := F) a0 a1 a2 a3 a4 a5 a6 a7 a8 a9
    ∧ after ops W (Proc.devRef .tc main_arg0) = a0
    ∧ after ops W (Proc.devRef .tc main_arg1) = a1
    ∧ after ops W (Proc.devRef .tc main_arg2) = a2
    ∧ after ops W (Proc.devRef .tc main_arg3) = a3
    ∧ after ops W (Proc.devRef .tc main_arg4) = a4
    ∧ after ops W (Proc.devRef .tc main_arg5) = a5
    ∧ after ops W (Proc.devRef .tc main_arg6) = a6
    ∧ after ops W (Proc.devRef .tc main_arg7) = a7
    ∧ after ops W (Proc.devRef .tc main_arg8) = a8
    ∧ after ops W (Proc.devRef .tc main_arg9) = a9 := by
  obtain ⟨⟨i1v1, i1v3, i1v10⟩, i1a0, i1a1, i1a2, i1a3, i1a4, i1a5, i1a6, i1a7, i1a8, i1a9⟩ := step1 W a0 a1 a2 a3 a4 a5 a6 a7 a8 a9 h0 h1 h2 h3 h4 h5 h6 h7 h8 h9
  obtain ⟨⟨i2v1, i2v11, i2v18⟩, i2a0, i2a1, i2a2, i2a3, i2a4, i2a5, i2a6, i2a7, i2a8, i2a9⟩ := step2 (after s1 W) a0 a1 a2 a3 a4 a5 a6 a7 a8 a9 i1v1 i1v3 i1v10 i1a0 i1a1 i1a2 i1a3 i1a4 i1a5 i1a6 i1a7 i1a8 i1a9
  obtain ⟨⟨i3v1, i3v19, i3v25⟩, i3a0, i3a1, i3a2, i3a3, i3a4, i3a5, i3a6, i3a7, i3a8, i3a9⟩ := step3 (after s2 (after s1 W)) a0 a1 a2 a3 a4 a5 a6 a7 a8 a9 i2v1 i2v11 i2v18 i2a0 i2a1 i2a2 i2a3 i2a4 i2a5 i2a6 i2a7 i2a8 i2a9
  obtain ⟨⟨i4v1, i4v26, i4v33⟩, i4a0, i4a1, i4a2, i4a3, i4a4, i4a5, i4a6, i4a7, i4a8, i4a9⟩ := step4 (after s3 (after s2 (after s1 W))) a0 a1 a2 a3 a4 a5 a6 a7 a8 a9 i3v1 i3v19 i3v25 i3a0 i3a1 i3a2 i3a3 i3a4 i3a5 i3a6 i3a7 i3a8 i3a9
  obtain ⟨⟨i5v1, i5v33, i5v42⟩, i5a0, i5a1, i5a2, i5a3, i5a4, i5a5, i5a6, i5a7, i5a8, i5a9⟩ := step5 (after s4 (after s3 (after s2 (after s1 W)))) a0 a1 a2 a3 a4 a5 a6 a7 a8 a9 i4v1 i4v26 i4v33 i4a0 i4a1 i4a2 i4a3 i4a4 i4a5 i4a6 i4a7 i4a8 i4a9
  obtain ⟨⟨i6v1, i6v33, i6v59⟩, i6a0, i6a1, i6a2, i6a3, i6a4, i6a5, i6a6, i6a7, i6a8, i6a9⟩ := step6 (after s5 (after s4 (after s3 (after s2 (after s1 W))))) a0 a1 a2 a3 a4 a5 a6 a7 a8 a9 i5v1 i5v33 i5v42 i5a0 i5a1 i5a2 i5a3 i5a4 i5a5 i5a6 i5a7 i5a8 i5a9
  obtain ⟨⟨i7v1, i7v33, i7v66⟩, i7a0, i7a1, i7a2, i7a3, i7a4, i7a5, i7a6, i7a7, i7a8, i7a9⟩ := step7 (after s6 (after s5 (after s4 (after s3 (after s2 (after s1 W)))))) a0 a1 a2 a3 a4 a5 a6 a7 a8 a9 i6v1 i6v33 i6v59 i6a0 i6a1 i6a2 i6a3 i6a4 i6a5 i6a6 i6a7 i6a8 i6a9
  obtain ⟨⟨i8v1, i8v73⟩, i8a0, i8a1, i8a2, i8a3, i8a4, i8a5, i8a6, i8a7, i8a8, i8a9⟩ := step8 (after s7 (after s6 (after s5 (after s4 (after s3 (after s2 (after s1 W))))))) a0 a1 a2 a3 a4 a5 a6 a7 a8 a9 i7v1 i7v33 i7v66 i7a0 i7a1 i7a2 i7a3 i7a4 i7a5 i7a6 i7a7 i7a8 i7a9
  obtain ⟨i9v85, i9a0, i9a1, i9a2, i9a3, i9a4, i9a5, i9a6, i9a7, i9a8, i9a9⟩ := step9 (after s8 (after s7 (after s6 (after s5 (after s4 (after s3 (after s2 (after s1 W)))))))) a0 a1 a2 a3 a4 a5 a6 a7 a8 a9 i8v1 i8v73 i8a0 i8a1 i8a2 i8a3 i8a4 i8a5 i8a6 i8a7 i8a8 i8a9
  have e : after (ops : List (HloOp τ sig (Elt F))) W = after s9 (after s8 (after s7 (after s6 (after s5 (after s4 (after s3 (after s2 (after s1 W)))))))) := by
    rw [ops_eq]; simp only [Stretches.after_append]
  rw [e]
  exact ⟨i9v85, i9a0, i9a1, i9a2, i9a3, i9a4, i9a5, i9a6, i9a7, i9a8, i9a9⟩

/-! ## The run -/

/-- On every device, for any float values, from any memory with zero counters: every weakly fair execution of @main
    terminates with the result buffer at the last stage function of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = ReadP.val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨f, g0, g1, g2, g3, g4, g5, g6, g7, g8, g9⟩ := after_ops (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) rfl rfl rfl rfl rfl rfl rfl rfl rfl rfl
      exact ⟨(h c main_v85).trans f, (h c main_arg0).trans g0, (h c main_arg1).trans g1, (h c main_arg2).trans g2, (h c main_arg3).trans g3, (h c main_arg4).trans g4, (h c main_arg5).trans g5, (h c main_arg6).trans g6, (h c main_arg7).trans g7, (h c main_arg8).trans g8, (h c main_arg9).trans g9⟩)
    (run_seq scopedRefs_eq scopedSems_eq defs main (fun _ => ops) main_eq (fun _ => ops_sub) m ρ)

end Cert.RefRunH

end
-- ==== Proof.TwoPrograms.lean ====
/-
  The two programs apply the same host operations around the messages.

  Both programs gather the node rows at the edges' two endpoints before anything else (a negative index first moved up
  by the number of nodes), and both finish in the same way: the messages are laid out one row of 320 per edge, added
  into a zero table at the edges' first-endpoint rows, summed over the ten heads, divided by ten, and the bias is
  added.  Each program states these operations over its own copies of the shapes, of the records that describe the
  gather and the scatter, and of the side conditions.  The shapes are the same literals, the records have the same
  fields, and a side condition is a proposition, so the composed terms of the two programs are the same term.
-/
import proofs.«173645_j47974784696359_2_alg».proof.Proof.KernelPrefix
import proofs.«173645_j47974784696359_2_alg».proof.Proof.KernelTail
import proofs.«173645_j47974784696359_2_alg».proof.Proof.RefMessage

noncomputable section

namespace Cert.TwoPrograms

open Idealize.ShloMosaic

/-! ## The records -/

/-- The two programs' gather records have the same fields. -/
theorem gather_dims_eq :
    Cert.KernelIdeal.gather_S25000x32_S400000x1_S400000x32_1_0_n_n_0_1_132
      = Cert.ReferenceIdeal.gather_S25000x32_S400000x1_S400000x32_1_0_n_n_0_1_132 := rfl

/-- The two programs' scatter records have the same fields. -/
theorem scatter_dims_eq :
    Cert.KernelIdeal.scatter_S25000x320_S400000x1_S400000x320_1_0_0_1
      = Cert.ReferenceIdeal.scatter_S25000x320_S400000x1_S400000x320_1_0_0_1 := rfl

/-! ## The index columns -/

/-- Row 0 of the index array as a vector: the same term in both programs. -/
theorem row_idx_eq (a1 : IVec Cert.ReferenceIdeal.S2x400000 32) :
    Cert.KernelTail.rowIdx a1 = Cert.ReferenceIdeal.ReadP.val_main_v1 (F := Ideal) a1 := by
  unfold Cert.KernelTail.rowIdx Cert.ReferenceIdeal.ReadP.val_main_v1 Cert.ReferenceIdeal.ReadP.val_main_v0
  rfl

/-- The first endpoints' indices, a negative one moved up by the number of nodes, as a column. -/
theorem source_starts_eq (a1 : IVec Cert.ReferenceIdeal.S2x400000 32) :
    Cert.KernelPrefix.startsOf (Cert.KernelTail.rowIdx a1) = Cert.ReferenceIdeal.ReadP.val_main_v9 (F := Ideal) a1 := by
  rw [row_idx_eq]
  unfold Cert.KernelPrefix.startsOf Cert.ReferenceIdeal.ReadP.val_main_v9 Cert.ReferenceIdeal.ReadP.val_main_v8
    Cert.ReferenceIdeal.ReadP.val_main_v5 Cert.ReferenceIdeal.ReadP.val_main_v7 Cert.ReferenceIdeal.ReadP.val_main_v4
    Cert.ReferenceIdeal.ReadP.val_main_v6 Cert.ReferenceIdeal.ReadP.val_main_c Cert.ReferenceIdeal.ReadP.val_main_c_0
  rfl

/-- The second endpoints' indices, a negative one moved up by the number of nodes, as a column. -/
theorem target_starts_eq (a1 : IVec Cert.ReferenceIdeal.S2x400000 32) :
    Cert.KernelPrefix.startsOf (Cert.ReferenceIdeal.ReadP.val_main_v3 (F := Ideal) a1)
      = Cert.ReferenceIdeal.ReadP.val_main_v17 (F := Ideal) a1 := by
  unfold Cert.KernelPrefix.startsOf Cert.ReferenceIdeal.ReadP.val_main_v17 Cert.ReferenceIdeal.ReadP.val_main_v16
    Cert.ReferenceIdeal.ReadP.val_main_v13 Cert.ReferenceIdeal.ReadP.val_main_v15 Cert.ReferenceIdeal.ReadP.val_main_v12
    Cert.ReferenceIdeal.ReadP.val_main_v14 Cert.ReferenceIdeal.ReadP.val_main_c_1 Cert.ReferenceIdeal.ReadP.val_main_c_2
  rfl

/-! ## The gathered rows -/

/-- The rows gathered at the first endpoints: the same term in both programs. -/
theorem rows_eq (a0 : FVec Ideal Cert.ReferenceIdeal.S25000x32 .f32) (a1 : IVec Cert.ReferenceIdeal.S2x400000 32) :
    Cert.KernelPrefix.rowsAt a0 a1 = Cert.RefMessage.XR a0 a1 := by
  unfold Cert.KernelPrefix.rowsAt Cert.RefMessage.XR Cert.ReferenceIdeal.ReadP.val_main_v10
  exact congrArg₂ (fun d i => Host.gather d a0 i) gather_dims_eq (source_starts_eq a1)

/-- The rows gathered at the second endpoints: the same term in both programs. -/
theorem cols_eq (a0 : FVec Ideal Cert.ReferenceIdeal.S25000x32 .f32) (a1 : IVec Cert.ReferenceIdeal.S2x400000 32) :
    Cert.KernelPrefix.colsAt a0 a1 = Cert.RefMessage.XC a0 a1 := by
  unfold Cert.KernelPrefix.colsAt Cert.RefMessage.XC Cert.ReferenceIdeal.ReadP.val_main_v18
  refine congrArg₂ (fun d i => Host.gather d a0 i) gather_dims_eq ?_
  refine Eq.trans ?_ (target_starts_eq a1)
  unfold Cert.ReferenceIdeal.ReadP.val_main_v3 Cert.ReferenceIdeal.ReadP.val_main_v2
  rfl

/-! ## From the messages to the result -/

/-- The operations after the messages: the same term in both programs. -/
theorem tail_eq (msg : FVec Ideal Cert.ReferenceIdeal.S400000x10x32 .f32) (a1 : IVec Cert.ReferenceIdeal.S2x400000 32)
    (a5 : FVec Ideal Cert.ReferenceIdeal.S32 .f32) :
    Cert.KernelTail.kernTail msg (Cert.KernelTail.rowIdx a1) a5 = Cert.RefMessage.refTail msg a1 a5 := by
  rw [row_idx_eq]
  unfold Cert.KernelTail.kernTail Cert.RefMessage.refTail Cert.ReferenceIdeal.ReadP.val_main_v76
    Cert.ReferenceIdeal.ReadP.val_main_v77 Cert.ReferenceIdeal.ReadP.val_main_cst_13
    Cert.ReferenceIdeal.ReadP.val_main_cst_14 Cert.ReferenceIdeal.ReadP.val_main_v81
    Cert.ReferenceIdeal.ReadP.val_main_cst_15 Cert.ReferenceIdeal.ReadP.val_main_v84
    Cert.ReferenceIdeal.ReadP.val_main_v83
  rw [scatter_dims_eq]

end Cert.TwoPrograms

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LibRealEntries.lean ====
/-
  Extended reals that are real numbers.

  The extended reals carry every operation a float program uses; on the two infinities the operations have corner
  values, and the ring laws (distributivity, cancellation) fail there.  On entries that are coercions of real
  numbers nothing of the kind happens: each operation is the coercion of the real operation.  The lemmas below state
  that, one operation at a time, in the direction that pushes a coercion outwards, so that an equation between
  extended reals whose entries are all real becomes the coercion of an equation between reals.
-/
import Idealize.ShloMosaic.PureOps.Ideal
import proofs.«173645_j47974784696359_2_alg».proof.Proof.LibTripleSum

noncomputable section

open scoped BigOperators

namespace Idealize.ShloMosaic.RealEntries

/-- The sum of two real entries is the real sum. -/
theorem add_coe (a b : ℝ) : (a : EReal) + (b : EReal) = ((a + b : ℝ) : EReal) := (EReal.coe_add a b).symm

/-- The product of two real entries is the real product. -/
theorem mul_coe (a b : ℝ) : (a : EReal) * (b : EReal) = ((a * b : ℝ) : EReal) := (EReal.coe_mul a b).symm

/-- The difference of two real entries is the real difference. -/
theorem sub_coe (a b : ℝ) : (a : EReal) - (b : EReal) = ((a - b : ℝ) : EReal) := (EReal.coe_sub a b).symm

/-- The negative of a real entry is the real negative. -/
theorem neg_coe (a : ℝ) : -(a : EReal) = ((-a : ℝ) : EReal) := (EReal.coe_neg a).symm

/-- The extended real `1` is the real `1`. -/
theorem one_coe : (1 : EReal) = ((1 : ℝ) : EReal) := EReal.coe_one.symm

/-- The extended real `0` is the real `0`. -/
theorem zero_coe : (0 : EReal) = ((0 : ℝ) : EReal) := EReal.coe_zero.symm

/-- The larger of two real entries is the real maximum. -/
theorem max_coe (a b : ℝ) : max (a : EReal) (b : EReal) = ((max a b : ℝ) : EReal) :=
  (EReal.coe_strictMono.monotone.map_max (a := a) (b := b)).symm

/-- Division of a real entry by a nonzero real entry is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The exponential of a real entry is the real exponential. -/
theorem exp_coe (a : ℝ) : Ideal.exp (a : EReal) = ((Real.exp a : ℝ) : EReal) := rfl

/-- The logistic function of a real entry is the real `(1 + e^(-a))⁻¹`. -/
theorem logistic_coe (a : ℝ) : Ideal.logistic (a : EReal) = (((1 + Real.exp (-a))⁻¹ : ℝ) : EReal) :=
  Ideal.logistic_coe a

/-- The square root of a nonnegative real entry is the real square root. -/
theorem sqrt_coe_of_nonneg {a : ℝ} (ha : 0 ≤ a) : Ideal.sqrt (a : EReal) = ((Real.sqrt a : ℝ) : EReal) := by
  rw [Ideal.sqrt_coe, if_neg (not_lt.mpr ha)]

/-- A finite sum of real entries is the real sum. -/
theorem sum_coe {ι : Type*} (s : Finset ι) (f : ι → ℝ) : ∑ i ∈ s, (f i : EReal) = ((∑ i ∈ s, f i : ℝ) : EReal) :=
  (TripleSum.coe_finsetSum s f).symm

/-- A sum of real entries over a finite type is the real sum. -/
theorem univ_sum_coe {ι : Type*} [Fintype ι] (f : ι → ℝ) : ∑ i, (f i : EReal) = ((∑ i, f i : ℝ) : EReal) :=
  sum_coe Finset.univ f

/-- The real logistic denominator is positive, hence not zero. -/
theorem one_add_exp_pos (a : ℝ) : 0 < 1 + Real.exp a := by positivity

/-- A sum of squares of reals is nonnegative. -/
theorem sum_mul_self_nonneg {ι : Type*} (s : Finset ι) (f : ι → ℝ) : 0 ≤ ∑ i ∈ s, f i * f i :=
  Finset.sum_nonneg fun i _ => mul_self_nonneg (f i)

/-- A maximum with a positive real is positive. -/
theorem max_pos_of_right (a : ℝ) {e : ℝ} (he : 0 < e) : 0 < max a e := lt_max_of_lt_right he

end Idealize.ShloMosaic.RealEntries

end
-- ==== Proof.EdgeAttnLaw.lean ====
/-
  The split form of the attention-weighted edge message agrees with the joined form on real inputs.

  Two facts carry the proof.  A sum over the 64 joined positions of a row given by cases on q < 32 is the sum over its
  first half plus the sum over its second half; this holds in any additive commutative monoid, so it needs no
  finiteness.  The folded multiply-add  α·(γ·r) + (β − μ·(γ·r))  equals the written normalisation ((α − μ)·r)·γ + β when
  all five quantities are real numbers; this is a ring identity, and it is the one place where finiteness is used,
  since distributivity fails at the infinities.
-/
import proofs.«173645_j47974784696359_2_alg».proof.Proof.EdgeAttn
import proofs.«173645_j47974784696359_2_alg».proof.Proof.LibRealEntries

noncomputable section

namespace Cert.EdgeAttn

open Idealize.ShloMosaic Idealize.ShloMosaic.ValueIdx Idealize.ShloMosaic.RealEntries
open scoped BigOperators

/-! ## Sums over the joined positions -/

/-- A sum over the 64 joined positions is the sum over the first half plus the sum over the second half. -/
theorem sum64_split (f : Fin 64 → EReal) :
    ∑ q : Fin 64, f q = (∑ k : Fin 32, f (lo k)) + (∑ k : Fin 32, f (hi k)) := by
  have h := Fin.sum_univ_add (a := 32) (b := 32) f
  exact h

section Laws

variable (xr xc ea : (⟨2, ![400000, 32]⟩ : Shape).Idx → EReal) (W : (⟨2, ![64, 320]⟩ : Shape).Idx → EReal)
  (att : (⟨3, ![1, 10, 64]⟩ : Shape).Idx → EReal) (γ β μ v : (⟨1, ![10]⟩ : Shape).Idx → EReal)

/-- The first half of a joined row is the endpoint row. -/
theorem joinRow_lo (u : (⟨2, ![400000, 32]⟩ : Shape).Idx → EReal) (e : Fin 400000) (k : Fin 32) :
    joinRow ea u e (lo k) = u (ix2 e k) := by
  unfold joinRow
  rw [dif_pos (show (lo k).val < 32 from k.isLt)]
  rfl

/-- The second half of a joined row is the edge-feature row. -/
theorem joinRow_hi (u : (⟨2, ![400000, 32]⟩ : Shape).Idx → EReal) (e : Fin 400000) (k : Fin 32) :
    joinRow ea u e (hi k) = ea (ix2 e k) := by
  unfold joinRow
  rw [dif_neg (show ¬ (hi k).val < 32 from by show ¬ 32 + k.val < 32; omega)]
  have hk : (⟨(hi k).val - 32, by show 32 + k.val - 32 < 32; omega⟩ : Fin 32) = k :=
    Fin.ext (by show 32 + k.val - 32 = k.val; omega)
  rw [hk]

/-- The projection before the rectifier: the split form equals the joined form. -/
theorem kLin_eq_rLin (u : (⟨2, ![400000, 32]⟩ : Shape).Idx → EReal) (e : Fin 400000) (j : Fin 320) :
    kLin ea W u e j = rLin ea W u e j := by
  unfold kLin rLin
  rw [sum64_split]
  exact congrArg₂ (· + ·)
    (Finset.sum_congr rfl fun k _ => by rw [joinRow_lo])
    (Finset.sum_congr rfl fun k _ => by rw [joinRow_hi])

/-- The rectified projection: the split form equals the joined form. -/
theorem kFeat_eq_rFeat (u : (⟨2, ![400000, 32]⟩ : Shape).Idx → EReal) (e : Fin 400000) (j : Fin 320) :
    kFeat ea W u e j = rFeat ea W u e j := by
  unfold kFeat rFeat
  rw [kLin_eq_rLin]

/-! ## The logits before normalisation -/

/-- The first half of the joined feature row of head `h` is the source features. -/
theorem joinFeat_lo (e : Fin 400000) (h : Fin 10) (k : Fin 32) :
    joinFeat xr xc ea W e h (lo k) = rFeat ea W xr e (col h k) := by
  unfold joinFeat
  rw [dif_pos (show (lo k).val < 32 from k.isLt)]
  rfl

/-- The second half of the joined feature row of head `h` is the target features. -/
theorem joinFeat_hi (e : Fin 400000) (h : Fin 10) (k : Fin 32) :
    joinFeat xr xc ea W e h (hi k) = rFeat ea W xc e (col h k) := by
  unfold joinFeat
  rw [dif_neg (show ¬ (hi k).val < 32 from by show ¬ 32 + k.val < 32; omega)]
  have hk : (⟨(hi k).val - 32, by show 32 + k.val - 32 < 32; omega⟩ : Fin 32) = k :=
    Fin.ext (by show 32 + k.val - 32 = k.val; omega)
  rw [hk]

/-- The logit before the rectifier and the normalisation: the split form equals the joined form. -/
theorem kLogit0_eq_rLogit0 (e : Fin 400000) (h : Fin 10) :
    kLogit0 xr xc ea W att e h = rLogit0 xr xc ea W att e h := by
  unfold kLogit0 rLogit0
  rw [sum64_split]
  exact congrArg₂ (· + ·)
    (Finset.sum_congr rfl fun k _ => by rw [joinFeat_lo, kFeat_eq_rFeat])
    (Finset.sum_congr rfl fun k _ => by rw [joinFeat_hi, kFeat_eq_rFeat])

/-! ## Real entries -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, add_coe a b⟩

theorem IsReal.mul {x y : EReal} (hx : IsReal x) (hy : IsReal y) : IsReal (x * y) := by
  obtain ⟨a, rfl⟩ := hx
  obtain ⟨b, rfl⟩ := hy
  exact ⟨a * b, mul_coe a b⟩

/-- A finite sum of reals is a real. -/
theorem IsReal.sum {ι : Type} [Fintype ι] (f : ι → EReal) (h : ∀ i, IsReal (f i)) : IsReal (∑ i, f i) := by
  choose g hg using h
  refine ⟨∑ i, g i, ?_⟩
  rw [← univ_sum_coe]
  exact Finset.sum_congr rfl fun i _ => hg i

/-- The slope word of the rectifier is the real 13421773 · 2⁻²⁶ (the f32 nearest 0.2). -/
theorem slope_eq : Ideal.ofBits .f32 0x3E4CCCCD#32 = ((13421773 * (2 ^ 26)⁻¹ : ℝ) : EReal) := by
  simp [Ideal.ofBits, Ideal.ieee]

/-- The word ε is the real 10995116 · 2⁻⁴⁰ (the f32 nearest 1e-5). -/
theorem eps_eq : Ideal.ofBits .f32 0x3727C5AC#32 = ((10995116 * (2 ^ 40)⁻¹ : ℝ) : EReal) := by
  simp [Ideal.ofBits, Ideal.ieee]

/-- The rectifier of a real is a real: it is the argument itself or the slope times the argument. -/
theorem IsReal.leaky {x : EReal} (hx : IsReal x) : IsReal (leaky x) := by
  obtain ⟨z, rfl⟩ := hx
  unfold Cert.EdgeAttn.leaky Scalar.select
  split
  · exact ⟨z, rfl⟩
  · exact ⟨13421773 * (2 ^ 26)⁻¹ * z, by rw [slope_eq, mul_coe]⟩

/-- The reciprocal standard deviation is a real: `v(h) + ε` is a positive real, and the reciprocal square root of a
    positive real `x` is the real `(√x)⁻¹`. -/
theorem rstd_real (hv : ∀ i, IsReal (v i)) (hv0 : ∀ i, (0 : EReal) ≤ v i) (h : Fin 10) : IsReal (rstd v h) := by
  obtain ⟨a, ha⟩ := hv (ix1 h)
  have ha0 : (0 : ℝ) ≤ a := by
    have h0 := hv0 (ix1 h)
    rw [ha] at h0
    exact_mod_cast h0
  have hpos : (0 : ℝ) < a + 10995116 * (2 ^ 40)⁻¹ := add_pos_of_nonneg_of_pos ha0 (by positivity)
  unfold rstd
  rw [ha, eps_eq, add_coe, Ideal.rsqrt_coe, if_neg (not_lt.mpr hpos.le), if_neg hpos.ne']
  exact ⟨_, rfl⟩

/-- The projection before the rectifier is a real when the rows and the weights are. -/
theorem kLin_real (u : (⟨2, ![400000, 32]⟩ : Shape).Idx → EReal) (hu : ∀ i, IsReal (u i)) (hea : ∀ i, IsReal (ea i))
    (hW : ∀ i, IsReal (W i)) (e : Fin 400000) (j : Fin 320) : IsReal (kLin ea W u e j) := by
  unfold kLin
  exact (IsReal.sum _ fun k => (hu _).mul (hW _)).add (IsReal.sum _ fun k => (hea _).mul (hW _))

/-- The rectified projection is a real when the rows and the weights are. -/
theorem kFeat_real (u : (⟨2, ![400000, 32]⟩ : Shape).Idx → EReal) (hu : ∀ i, IsReal (u i)) (hea : ∀ i, IsReal (ea i))
    (hW : ∀ i, IsReal (W i)) (e : Fin 400000) (j : Fin 320) : IsReal (kFeat ea W u e j) := by
  unfold kFeat
  exact (kLin_real ea W u hu hea hW e j).leaky

/-- The logit before the rectifier and the normalisation is a real when every input is. -/
theorem kLogit0_real (hxr : ∀ i, IsReal (xr i)) (hxc : ∀ i, IsReal (xc i)) (hea : ∀ i, IsReal (ea i))
    (hW : ∀ i, IsReal (W i)) (hatt : ∀ i, IsReal (att i)) (e : Fin 400000) (h : Fin 10) :
    IsReal (kLogit0 xr xc ea W att e h) := by
  unfold kLogit0
  exact (IsReal.sum _ fun k => (kFeat_real ea W xr hxr hea hW e _).mul (hatt _)).add
    (IsReal.sum _ fun k => (kFeat_real ea W xc hxc hea hW e _).mul (hatt _))

/-! ## The normalisation -/

/-- The folded multiply-add equals the written normalisation on reals: a ring identity. -/
theorem fold_law (α m r g b : ℝ) :
    (α : EReal) * ((g : EReal) * (r : EReal)) + ((b : EReal) - (m : EReal) * ((g : EReal) * (r : EReal)))
      = (((α : EReal) - (m : EReal)) * (r : EReal)) * (g : EReal) + (b : EReal) := by
  simp only [mul_coe, sub_coe, add_coe]
  exact congrArg _ (by ring)

/-- The normalised logit: the split form equals the joined form when every input is a real and the variances are
    not negative. -/
theorem kLogit_eq_rLogit (hxr : ∀ i, IsReal (xr i)) (hxc : ∀ i, IsReal (xc i)) (hea : ∀ i, IsReal (ea i))
    (hW : ∀ i, IsReal (W i)) (hatt : ∀ i, IsReal (att i)) (hγ : ∀ i, IsReal (γ i)) (hβ : ∀ i, IsReal (β i))
    (hμ : ∀ i, IsReal (μ i)) (hv : ∀ i, IsReal (v i)) (hv0 : ∀ i, (0 : EReal) ≤ v i) (e : Fin 400000) (h : Fin 10) :
    kLogit xr xc ea W att γ β μ v e h = rLogit xr xc ea W att γ β μ v e h := by
  obtain ⟨α, hα⟩ := (kLogit0_real xr xc ea W att hxr hxc hea hW hatt e h).leaky
  obtain ⟨g, hg⟩ := hγ (ix1 h)
  obtain ⟨b, hb⟩ := hβ (ix1 h)
  obtain ⟨m, hm⟩ := hμ (ix1 h)
  obtain ⟨r, hr⟩ := rstd_real v hv hv0 h
  unfold kLogit rLogit kShift kScale
  rw [← kLogit0_eq_rLogit0, hα, hg, hb, hm, hr]
  exact fold_law α m r g b

end Laws

/-! ## The two forms agree -/

/-- On real inputs with variances that are not negative, the split form of the edge message is the joined form. -/
theorem kOut_eq_rOut (xr xc ea : (⟨2, ![400000, 32]⟩ : Shape).Idx → EReal) (W : (⟨2, ![64, 320]⟩ : Shape).Idx → EReal) (att : (⟨3, ![1, 10, 64]⟩ : Shape).Idx → EReal) (γ β μ v : (⟨1, ![10]⟩ : Shape).Idx → EReal)
    (hxr : ∀ i, ∃ r : ℝ, xr i = (r : EReal)) (hxc : ∀ i, ∃ r : ℝ, xc i = (r : EReal)) (hea : ∀ i, ∃ r : ℝ, ea i = (r : EReal)) (hW : ∀ i, ∃ r : ℝ, W i = (r : EReal)) (hatt : ∀ i, ∃ r : ℝ, att i = (r : EReal))
    (hγ : ∀ i, ∃ r : ℝ, γ i = (r : EReal)) (hβ : ∀ i, ∃ r : ℝ, β i = (r : EReal)) (hμ : ∀ i, ∃ r : ℝ, μ i = (r : EReal)) (hv : ∀ i, ∃ r : ℝ, v i = (r : EReal)) (hv0 : ∀ i, (0 : EReal) ≤ v i) :
    kOut xr xc ea W att γ β μ v = rOut xr xc ea W att γ β μ v := by
  funext i
  unfold kOut rOut
  have hL : (fun h => kLogit xr xc ea W att γ β μ v (i 0) h) = (fun h => rLogit xr xc ea W att γ β μ v (i 0) h) :=
    funext fun h => kLogit_eq_rLogit xr xc ea W att γ β μ v hxr hxc hea hW hatt hγ hβ hμ hv hv0 (i 0) h
  rw [hL]
  exact congrArg (fun t => t * attnWeight (fun h => rLogit xr xc ea W att γ β μ v (i 0) h) (i 1))
    (kFeat_eq_rFeat ea W xc (i 0) (col (i 1) (i 2)))

end Cert.EdgeAttn

end
-- ==== Proof.LibFiniteEntry.lean ====
/-
  An extended real whose absolute value is below +∞ is a real number.

  A precondition "every input is finite" is stated entry by entry as the comparison |x| < +∞, with |x| = max x (−x) and
  +∞ given by its float pattern.  At an infinity the absolute value is +∞ and the comparison fails; so an entry that
  passes it is neither infinity.
-/
import Idealize.ShloMosaic.PureOps.Ideal

noncomputable section

namespace Idealize.ShloMosaic.FiniteEntry

/-- The f32 pattern 0x7F800000 is +∞. -/
theorem pinf_f32 : Ideal.ofBits .f32 0x7F800000#32 = ⊤ := by simp [Ideal.ofBits, Ideal.ieee]

/-- An extended real whose absolute value compares (ordered, less-than) below the pattern of +∞ is a real. -/
theorem real_of_abs_lt_inf (x : EReal) (h : Ideal.cmp .olt (max x (-x)) (Ideal.ofBits .f32 0x7F800000#32) = 1#1) :
    ∃ r : ℝ, x = (r : EReal) := by
  rw [pinf_f32] at h
  change BitVec.ofBool (decide (max x (-x) < (⊤ : EReal))) = 1#1 at h
  have hlt : max x (-x) < (⊤ : EReal) := by
    by_contra hn
    rw [show decide (max x (-x) < (⊤ : EReal)) = false from decide_eq_false hn] at h
    exact absurd h (by decide)
  induction x using EReal.rec with
  | bot => exact absurd hlt (by simp)
  | coe r => exact ⟨r, rfl⟩
  | top => exact absurd hlt (by simp)

end Idealize.ShloMosaic.FiniteEntry

end
-- ==== Proof.InputsReal.lean ====
/-
  The precondition "every input is finite, and the running variance is non-negative", decoded.

  The precondition is a printed function of the ten arguments whose result is one i1 word.  For each of the nine float
  arguments it compares |x| with +∞ (ordered, less-than) at every entry and reduces the comparisons by "and" over the
  whole array; for the last argument it also compares x ≥ 0 at every entry and reduces by "and".  The ten reduced words
  are joined by "and".  So if the result is 1, every one of the ten reduced words is 1, hence every comparison at every
  entry is 1: every entry of every float argument is a real number (its absolute value is below +∞), and every entry of
  the last argument is at least 0.
-/
import proofs.«173645_j47974784696359_2_alg».proof.Pre_finite_inputs
import proofs.«173645_j47974784696359_2_alg».proof.Proof.LibFiniteEntry
import Idealize.ShloMosaic.Lib.ReduceAll
import Idealize.ShloMosaic.Lib.ValueIdx
import Idealize.ShloMosaic.PureOps.Ideal.Laws

noncomputable section

namespace Cert.InputsReal

open Idealize.ShloMosaic
open Cert.Pre_finite_inputs

/-- The rank-0 shape has one index. -/
instance subsingleton_S_ : Subsingleton S_.Idx := ⟨fun a b => funext fun d => d.elim0⟩

/-- If the "and" over a whole array of the comparisons |x| < +∞ is 1, every entry of the array is a real number. -/
theorem real_of_all {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf a) (broadcastInDim s ![] hb (constant (F := Ideal) S_ .f32 0x7F800000#32)))
          (constantI S_ 1 1#1) hr hu j = 1#1) (i : s.Idx) :
    ∃ r : ℝ, a i = (r : EReal) :=
  Idealize.ShloMosaic.FiniteEntry.real_of_abs_lt_inf (a i) (Host.reduce_andi_all _ _ hr hu j e i)

/-- An ordered "greater or equal" comparison against the pattern of 0 that is 1 says the value is at least 0. -/
theorem nonneg_of_oge (x : EReal) (h : Ideal.cmp .oge x (Ideal.ofBits .f32 0x00000000#32) = 1#1) : (0 : EReal) ≤ x := by
  rw [Ideal.ofBits_zero_f32] at h
  change BitVec.ofBool (decide ((0 : EReal) ≤ x)) = 1#1 at h
  by_contra hn
  rw [show decide ((0 : EReal) ≤ x) = false from decide_eq_false hn] at h
  exact absurd h (by decide)

/-- If the "and" over a whole array of the comparisons x ≥ 0 is 1, every entry of the array is at least 0. -/
theorem nonneg_of_all {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
          (cmpf .oge a (broadcastInDim s ![] hb (constant (F := Ideal) S_ .f32 0x00000000#32)))
          (constantI S_ 1 1#1) hr hu j = 1#1) (i : s.Idx) :
    (0 : EReal) ≤ a i :=
  nonneg_of_oge (a i) (Host.reduce_andi_all _ _ hr hu j e i)

/-- THE PRECONDITION DECODED: every entry of the nine float arguments is a real number, and every entry of the last
    argument is at least 0. -/
theorem of_pre [Cert.Pre_finite_inputs.Facts] (a0 : FVec Ideal Cert.Pre_finite_inputs.S25000x32 .f32)
    (a1 : IVec Cert.Pre_finite_inputs.S2x400000 32) (a2 : FVec Ideal Cert.Pre_finite_inputs.S400000x32 .f32)
    (a3 : FVec Ideal Cert.Pre_finite_inputs.S64x320 .f32) (a4 : FVec Ideal Cert.Pre_finite_inputs.S1x10x64 .f32)
    (a5 : FVec Ideal Cert.Pre_finite_inputs.S32 .f32) (a6 a7 a8 a9 : FVec Ideal Cert.Pre_finite_inputs.S10 .f32)
    (h : Cert.Pre_finite_inputs.fn (F := Ideal) a0 a1 a2 a3 a4 a5 a6 a7 a8 a9 = (fun _ => 1#1)) :
    (∀ i, ∃ r : ℝ, a0 i = (r : EReal)) ∧ (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧ (∀ i, ∃ r : ℝ, a9 i = (r : EReal)) ∧
    (∀ i, (0 : EReal) ≤ a9 i) := by
  have e := congrFun h ValueIdx.ix0
  -- the printed function is a chain of two parts: open one part at a time
  unfold Cert.Pre_finite_inputs.fn at e
  dsimp only at e
  unfold Cert.Pre_finite_inputs.fn_part1 at e
  dsimp only at e
  unfold Cert.Pre_finite_inputs.fn_part2 at e
  dsimp only at e
  -- the result is the "and" of the ten reduced words: each of them is 1
  obtain ⟨e, h9p⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  exact ⟨real_of_all a0 _ _ _ _ h0, real_of_all a2 _ _ _ _ h2, real_of_all a3 _ _ _ _ h3, real_of_all a4 _ _ _ _ h4,
    real_of_all a5 _ _ _ _ h5, real_of_all a6 _ _ _ _ h6, real_of_all a7 _ _ _ _ h7, real_of_all a8 _ _ _ _ h8,
    real_of_all a9 _ _ _ _ h9, nonneg_of_all a9 _ _ _ _ h9p⟩

end Cert.InputsReal

end
-- ==== Proof.LibEntries.lean ====
/-
  Every entry of a gathered or concatenated array is an entry of an operand, so any property of all operand entries
  passes to the result.

  A gather reads, at each result index, the operand at one computed index; a concatenation reads, at each result
  index, one of the listed operands (the one whose span along the joined axis holds the index) at one index. Neither
  computes on the values it moves. Hence a predicate that holds of every entry of every operand holds of every entry
  of the result, whatever the index arithmetic is.
-/
import Idealize.ShloMosaic.PureOps.ShapeOps

namespace Idealize.ShloMosaic.Entries

open Idealize.ShloMosaic

variable {α : Type} {P : α → Prop}

/-- Every entry of a gather is an entry of its operand. -/
theorem gather_entry {s si t : Shape} {w : Nat} (d : GatherDims s si t) (x : s.Idx → α) (idx : IVec si w)
    (hx : ∀ i, P (x i)) : ∀ j, P (Host.gather d x idx j) :=
  fun j => hx (d.operandIdx j idx)

/-- Every entry of a concatenation is an entry of one of the listed operands. -/
theorem concatenate_entry (t : Shape) (a : Fin t.rank) (xs : List ((s : Shape) × (s.Idx → α)))
    (h : Shape.Concatenates (xs.map (·.1)) t a) (hxs : ∀ p ∈ xs, ∀ i, P (p.2 i)) :
    ∀ j, P (concatenate t a xs h j) := by
  intro j
  unfold concatenate
  dsimp only
  exact hxs _ (List.getElem_mem _) _

/-- The concatenation of two operands: a property of every entry of each holds of every entry of the result. -/
theorem concatenate_pair_entry (t : Shape) (a : Fin t.rank) {sA sB : Shape} (A : sA.Idx → α) (B : sB.Idx → α)
    (h : Shape.Concatenates (([⟨sA, A⟩, ⟨sB, B⟩] : List ((s : Shape) × (s.Idx → α))).map (·.1)) t a)
    (hA : ∀ i, P (A i)) (hB : ∀ i, P (B i)) : ∀ j, P (concatenate t a [⟨sA, A⟩, ⟨sB, B⟩] h j) := by
  refine concatenate_entry t a _ h ?_
  intro p hp
  rcases List.mem_cons.1 hp with rfl | hp
  · exact hA
  rcases List.mem_cons.1 hp with rfl | hp
  · exact hB
  · exact absurd hp (List.not_mem_nil)

end Idealize.ShloMosaic.Entries
-- ==== Proof.lean ====
/-
  A graph-attention layer's edge messages, computed in blocks, against the same layer written with joined operands.

  For every edge e the layer gathers the source row x[row e] and the target row x[col e] of the node features, joins
  each with the edge's features (64 numbers), projects through W (64 × 320) and a leaky rectifier to ten heads of 32
  features, scores each head by the dot product of its joined source and target features with the attention table,
  rectifies, normalises the score per head with running statistics, ((s − μ)·rsqrt(v + ε))·γ + β, takes the softmax over
  the ten heads, and weights the target features by it: one message of 10 × 32 numbers per edge.  The messages are then
  regrouped by head, added up over the edges of each source node, averaged over the heads, and the bias is added.

  The reference program computes every product over the 64 joined positions at once and the normalisation as written.
  The kernel computes each product over 64 positions as the sum of its two halves of 32 (the halves of W and of the
  attention table are sliced out before the region), folds the normalisation into one multiply-add with the scale
  γ·rsqrt(v + ε) and the shift β − μ·(γ·rsqrt(v + ε)), and computes the messages in 500 blocks of 800 edges; the gathers
  before the region and the regrouping, the sum over edges, the mean and the bias after it are the same operations in
  both programs.

  Over the extended reals a sum over 64 positions is the sum of its halves (addition is commutative and associative
  there), and the folded multiply-add is the written normalisation wherever every quantity is a real number, by
  distributivity — which fails at the infinities.  Every float input is finite by the precondition, so the features and
  scores are real numbers; the reciprocal standard deviation rsqrt(v + ε) is a real number because the precondition also
  asks the running variance to be nonnegative (at v + ε = 0 it would be +∞, and the two normalisations then differ).
  Hence the two arrays of messages are equal entry by entry, and so are the results, the common tail being applied to
  both as one function.

  Modules: EdgeAttn (the two forms of the message as pure functions), EdgeAttnLaw (they agree on real inputs),
  EdgeRow (one edge's message from its own rows), KernelRow (the kernel body stores that function of its loaded
  blocks), KernelArray (the 500 blocks cover the output array), KernelPrefix and KernelTail (the host operations before
  and after the region), KernelValue (the kernel's run, read), RefMessage (the reference's messages are the joined
  form), TwoPrograms (the gathers and the tail are the same terms in the two programs), InputsReal (the precondition,
  entry by entry), RefRunH (the reference's run, read stretch by stretch over named stage values).
-/
import proofs.«173645_j47974784696359_2_alg».proof.Defs
import proofs.«173645_j47974784696359_2_alg».proof.Proof.Gen.Kernel
import proofs.«173645_j47974784696359_2_alg».proof.Proof.Gen.Kernel.Skeleton
import proofs.«173645_j47974784696359_2_alg».proof.Proof.Gen.Kernel.Launch
import proofs.«173645_j47974784696359_2_alg».proof.Proof.Gen.Kernel.Points
import proofs.«173645_j47974784696359_2_alg».proof.Proof.Gen.Kernel.Frame
import proofs.«173645_j47974784696359_2_alg».proof.Proof.Gen.KernelIdeal
import proofs.«173645_j47974784696359_2_alg».proof.Proof.Gen.KernelIdeal.Skeleton
import proofs.«173645_j47974784696359_2_alg».proof.Proof.Gen.KernelIdeal.Launch
import proofs.«173645_j47974784696359_2_alg».proof.Proof.Gen.KernelIdeal.Points
import proofs.«173645_j47974784696359_2_alg».proof.Proof.Gen.KernelIdeal.Frame
import proofs.«173645_j47974784696359_2_alg».proof.Proof.Gen.ReferenceIdeal
import proofs.«173645_j47974784696359_2_alg».proof.Proof.Gen.Pre_finite_inputs
import proofs.«173645_j47974784696359_2_alg».proof.Proof.KernelValue
import proofs.«173645_j47974784696359_2_alg».proof.Proof.RefMessage
import proofs.«173645_j47974784696359_2_alg».proof.Proof.RefRunH
import proofs.«173645_j47974784696359_2_alg».proof.Proof.TwoPrograms
import proofs.«173645_j47974784696359_2_alg».proof.Proof.EdgeAttnLaw
import proofs.«173645_j47974784696359_2_alg».proof.Proof.InputsReal
import proofs.«173645_j47974784696359_2_alg».proof.Proof.LibEntries
import Idealize.ShloMosaic.Adequacy
import Idealize.ShloMosaic.Init

noncomputable section

namespace Cert.Proof

open Idealize.ShloMosaic Idealize.ShloMosaic.TcCoe Idealize.SL.Sem

/-- Under the precondition the two programs' results are one array: the reference's result is the shared tail of its
    messages, the joined form; the kernel's is the same tail of the split form; the gathers are the same; and the two
    forms agree where every input is a real number and the running variance is nonnegative. -/
theorem result_eq (a0 : FVec Ideal Cert.ReferenceIdeal.S25000x32 .f32) (a1 : IVec Cert.ReferenceIdeal.S2x400000 32) (a2 : FVec Ideal Cert.ReferenceIdeal.S400000x32 .f32)
    (a3 : FVec Ideal Cert.ReferenceIdeal.S64x320 .f32) (a4 : FVec Ideal Cert.ReferenceIdeal.S1x10x64 .f32) (a5 : FVec Ideal Cert.ReferenceIdeal.S32 .f32)
    (a6 a7 a8 a9 : FVec Ideal Cert.ReferenceIdeal.S10 .f32)
    (hpre : Cert.Pre_finite_inputs.fn (F := Ideal) a0 a1 a2 a3 a4 a5 a6 a7 a8 a9 = (fun _ => 1#1)) :
    Cert.ReferenceIdeal.ReadP.val_main_v85 (F := Ideal) a0 a1 a2 a3 a4 a5 a6 a7 a8 a9
      = Cert.KernelTail.kernTail (Cert.EdgeAttn.kOut (Cert.KernelPrefix.rowsAt a0 a1) (Cert.KernelPrefix.colsAt a0 a1) a2 a3 a4 a6 a7 a8 a9)
          (Cert.KernelTail.rowIdx a1) a5 := by
  obtain ⟨h0, h2, h3, h4, -, h6, h7, h8, h9, h9nn⟩ := Cert.InputsReal.of_pre a0 a1 a2 a3 a4 a5 a6 a7 a8 a9 hpre
  have hXR : ∀ i, ∃ r : ℝ, Cert.KernelPrefix.rowsAt a0 a1 i = (r : EReal) := by
    unfold Cert.KernelPrefix.rowsAt
    exact Idealize.ShloMosaic.Entries.gather_entry (P := fun z : EReal => ∃ r : ℝ, z = (r : EReal)) _ a0 _ h0
  have hXC : ∀ i, ∃ r : ℝ, Cert.KernelPrefix.colsAt a0 a1 i = (r : EReal) := by
    unfold Cert.KernelPrefix.colsAt
    exact Idealize.ShloMosaic.Entries.gather_entry (P := fun z : EReal => ∃ r : ℝ, z = (r : EReal)) _ a0 _ h0
  rw [Cert.RefMessage.result_eq_refTail, Cert.RefMessage.messages_eq, Cert.TwoPrograms.tail_eq,
    ← Cert.TwoPrograms.rows_eq, ← Cert.TwoPrograms.cols_eq,
    Cert.EdgeAttn.kOut_eq_rOut _ _ _ _ _ _ _ _ _ hXR hXC h2 h3 h4 h6 h7 h8 h9 h9nn]

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRunH.run (F := Ideal) m ρ)

/-- The ideal pass rewrote no operation of the kernel: nothing to preserve. -/
theorem preserves : Cert.preserves_Kernel_KernelIdeal := trivial

/-- At the extended reals the kernel ends at the tail of the split-form messages (its run, read) and the reference at
    the tail of the joined-form messages (its run, read) of arguments that agree: one array, by `result_eq`. -/
theorem algebraic : Cert.algebraic_KernelIdeal_ReferenceIdeal := by
  intro m ρ m' ρ' hpre hagree
  refine ⟨_, Cert.KernelValue.run m ρ, ?_⟩
  refine (θ_run Cert.ReferenceIdeal.defs _ _).mono (fun _ h c => ⟨(h c).1.trans ?_, (h c).2⟩) (Cert.RefRunH.run (F := Ideal) m' ρ')
  obtain ⟨e0, e1, e2, e3, e4, e5, e6, e7, e8, e9⟩ := hagree c
  rw [e0, e1, e2, e3, e4, e5, e6, e7, e8, e9]
  exact result_eq _ _ _ _ _ _ _ _ _ _ ((hpre : ∀ c : Dev Cert.KernelIdeal.nD, _) c)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
